-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128x64 .f32) (main_arg10 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x64 .f32) (main_arg10 : FVec F S64 .f32) (main_arg11 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 118
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S2x1600000, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S100000x128, .f32⟩
  | .hbm, ⟨98, _⟩ => ⟨S100000x64, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x64, .f32⟩
  | .hbm, ⟨108, _⟩ => ⟨S1700000x1, .f32⟩
  | .hbm, ⟨109, _⟩ => ⟨S1700000x64, .f32⟩
  | .hbm, ⟨110, _⟩ => ⟨S1700000x64, .f32⟩
  | .hbm, ⟨111, _⟩ => ⟨S_, .f32⟩
  | .hbm, ⟨112, _⟩ => ⟨S100000x64, .f32⟩
  | .hbm, ⟨113, _⟩ => ⟨S1700000x1, .i32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x64, .f32⟩
  | .local _ .vmem, ⟨41, _⟩ => ⟨S5000x64, .f32⟩
  | .local _ .vmem, ⟨42, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67_0 : Ref sig .tc := ⟨.hbm, 93, rfl⟩
abbrev main_v67_1 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46_0) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46_1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v66) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_0) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67_1) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x64, .f32⟩
  | 10 => ⟨S64, .f32⟩
  | 11 => ⟨S2x1600000, .i32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S1700000, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000x128, .f32⟩
  | 2 => ⟨S1700000x1, .f32⟩
  | 3 => ⟨S1700000x128, .f32⟩
  | 4 => ⟨S1700000x128, .f32⟩
  | 5 => ⟨S_, .f32⟩
  | 6 => ⟨S100000x128, .f32⟩
  | 7 => ⟨S1700000x1, .i32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x64, .f32⟩
  | 74 => ⟨S1700000x1, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S1x64, .f32⟩
  | 82 => ⟨S100000x64, .f32⟩
  | 83 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_cst : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_19 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_20 : Ref sig .tc := ⟨.hbm, 140, rfl⟩
abbrev main_v104 : Ref sig .tc := ⟨.hbm, 141, rfl⟩
abbrev main_cst_21 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_22 : Ref sig .tc := ⟨.hbm, 149, rfl⟩
abbrev main_v111 : Ref sig .tc := ⟨.hbm, 150, rfl⟩
abbrev main_cst_23 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_call1_cst : Ref sig .tc := ⟨.hbm, 170, rfl⟩
abbrev main_call1_v0 : Ref sig .tc := ⟨.hbm, 171, rfl⟩
abbrev main_v129 : Ref sig .tc := ⟨.hbm, 172, rfl⟩
abbrev main_v130 : Ref sig .tc := ⟨.hbm, 173, rfl⟩
abbrev main_c_25 : Ref sig .tc := ⟨.hbm, 174, rfl⟩
abbrev main_v131 : Ref sig .tc := ⟨.hbm, 175, rfl⟩
abbrev main_v132 : Ref sig .tc := ⟨.hbm, 176, rfl⟩
abbrev main_c_26 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_27 : Ref sig .tc := ⟨.hbm, 183, rfl⟩
abbrev main_v138 : Ref sig .tc := ⟨.hbm, 184, rfl⟩
abbrev main_v139 : Ref sig .tc := ⟨.hbm, 185, rfl⟩
abbrev main_c_28 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_29 : Ref sig .tc := ⟨.hbm, 193, rfl⟩
abbrev main_v146 : Ref sig .tc := ⟨.hbm, 194, rfl⟩
abbrev main_v147 : Ref sig .tc := ⟨.hbm, 195, rfl⟩
abbrev main_c_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_31 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RegMm.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered
variable (V : (c : Dev nD) → (b : Ref sig .tc) → Buf (Elt F) ((c : Thread nD τ).loc b))

/-! # Region 0: a row block times the whole right factor -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, the block
    index has not moved. Hypotheses: the data's array is the entry contents and its body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole left block, the whole right factor, the whole output block. -/
abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_o : Rect S5000x128 := Rect.unit (s := S5000x128) ![0, 0] S5000x128.size inb_S5000x128_S5000x128_0_0

/-- The output buffer after the body: its one store, the product of the two loaded operands. -/
def out0_2 (x0 : Vec F S5000x128 .f32) (x1 : Vec F S128x128 .f32) : Vec F S5000x128 .f32 :=
  View.canon [⟨r0_o, k0_pay1 (View.ld x0 r0_a) (View.ld x1 r0_b)⟩]

/-- The one store is the whole buffer. -/
theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole buffers, the operands' at `x0`, `x1` and the output's at anything, leaves the operands as they
    were and the output at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data on core `c`: the arrays at the entry contents; after the body each operand's buffer at its
    block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so `sound_kernel0` applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 3: a row block times the whole right factor -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not: unfetched, the block
    index has not moved. Hypotheses: the data's array is the entry contents and its body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole left block, the whole right factor, the whole output block. -/
abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_o : Rect S5000x128 := Rect.unit (s := S5000x128) ![0, 0] S5000x128.size inb_S5000x128_S5000x128_0_0

/-- The output buffer after the body: its one store, the product of the two loaded operands. -/
def out3_2 (x0 : Vec F S5000x128 .f32) (x1 : Vec F S128x128 .f32) : Vec F S5000x128 .f32 :=
  View.canon [⟨r3_o, k3_pay1 (View.ld x0 r3_a) (View.ld x1 r3_b)⟩]

/-- The one store is the whole buffer. -/
theorem cover3_2 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

set_option maxHeartbeats 1000000 in
/-- The body on whole buffers, the operands' at `x0`, `x1` and the output's at anything, leaves the operands as they
    were and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data on core `c`: the arrays at the entry contents; after the body each operand's buffer at its
    block and the output's at the product of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so `sound_kernel3` applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-! # Region 6: a row block times the whole right factor -/

/-- Window `w`'s block at point `t`, read off its array at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not: unfetched, the block
    index has not moved. Hypotheses: the data's array is the entry contents and its body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole left block, the whole right factor, the whole output block. -/
abbrev r6_a : Rect S5000x128 := Rect.unit (s := S5000x128) ![0, 0] S5000x128.size inb_S5000x128_S5000x128_0_0
abbrev r6_b : Rect S128x64 := Rect.unit (s := S128x64) ![0, 0] S128x64.size inb_S128x64_S128x64_0_0
abbrev r6_o : Rect S5000x64 := Rect.unit (s := S5000x64) ![0, 0] S5000x64.size inb_S5000x64_S5000x64_0_0

/-- The output buffer after the body: its one store, the product of the two loaded operands. -/
def out6_2 (x0 : Vec F S5000x128 .f32) (x1 : Vec F S128x64 .f32) : Vec F S5000x64 .f32 :=
  View.canon [⟨r6_o, k6_pay1 (View.ld x0 r6_a) (View.ld x1 r6_b)⟩]

/-- The one store is the whole buffer. -/
theorem cover6_2 (p0 : Vec F S5000x64 .f32) (y : S5000x64.Idx) :
    ∃ pc ∈ ([⟨r6_o, p0⟩] : List (View.Piece (Elt F) S5000x64 .f32)), y ∈ pc.1.set :=
  View.cover_of_tiled [⟨r6_o, p0⟩] S5000x64.size (by rfl) y

set_option maxHeartbeats 1000000 in
/-- The body on whole buffers, the operands' at `x0`, `x1` and the output's at anything, leaves the operands as they
    were and the output at `out6_2 x0 x1`. -/
theorem sound_kernel6 (c : Dev nD) (E : Set ℕ) (i : grid6.Coords) (arg1 : Memref sig .tc .vmem S5000x128 .f32) (harg1 : arg1.IsWhole)
    (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data on core `c`: the arrays at the entry contents; after the body each operand's buffer at its
    block and the output's at the product of the two blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the operands' buffers hold their blocks, so `sound_kernel6` applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.RegAp.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered
variable (V : (c : Dev nD) → (b : Ref sig .tc) → Buf (Elt F) ((c : Thread nD τ).loc b))

/-! # Region 2: normalize a row block by the column statistics, scale, shift, clamp below at zero -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: unfetched, the block
    index has not moved. Hypotheses: the data's array is the entry contents and its body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole row block and the whole row vector. -/
abbrev r2_x : Rect S5000x128 := Rect.unit (s := S5000x128) ![0, 0] S5000x128.size inb_S5000x128_S5000x128_0_0
abbrev r2_v : Rect S1x128 := Rect.unit (s := S1x128) ![0, 0] S1x128.size inb_S1x128_S1x128_0_0

/-- The output buffer after the body: its one store, the payload of the five loaded operands. -/
def out2_5 (x0 : Vec F S5000x128 .f32) (x1 x2 x3 x4 : Vec F S1x128 .f32) : Vec F S5000x128 .f32 :=
  View.canon [⟨r2_x, k2_pay1 (View.ld x0 r2_x) (View.ld x1 r2_v) (View.ld x2 r2_v) (View.ld x3 r2_v) (View.ld x4 r2_v)⟩]

/-- The one store is the whole buffer. -/
theorem cover2_5 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole buffers, the five operands' at `x0 … x4` and the output's at anything, leaves the operands as
    they were and the output at `out2_5 x0 x1 x2 x3 x4`. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data on core `c`: the arrays at the entry contents; after the body each operand's buffer at its
    block and the output's at the payload of the five blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the operands' buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! # Region 5: normalize a row block by the column statistics, scale, shift, clamp below at zero -/

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not: unfetched, the block
    index has not moved. Hypotheses: the data's array is the entry contents and its body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole row block and the whole row vector. -/
abbrev r5_x : Rect S5000x128 := Rect.unit (s := S5000x128) ![0, 0] S5000x128.size inb_S5000x128_S5000x128_0_0
abbrev r5_v : Rect S1x128 := Rect.unit (s := S1x128) ![0, 0] S1x128.size inb_S1x128_S1x128_0_0

/-- The output buffer after the body: its one store, the payload of the five loaded operands. -/
def out5_5 (x0 : Vec F S5000x128 .f32) (x1 x2 x3 x4 : Vec F S1x128 .f32) : Vec F S5000x128 .f32 :=
  View.canon [⟨r5_x, k5_pay1 (View.ld x0 r5_x) (View.ld x1 r5_v) (View.ld x2 r5_v) (View.ld x3 r5_v) (View.ld x4 r5_v)⟩]

/-- The one store is the whole buffer. -/
theorem cover5_5 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 1000000 in
/-- The body on whole buffers, the five operands' at `x0 … x4` and the output's at anything, leaves the operands as
    they were and the output at `out5_5 x0 x1 x2 x3 x4`. -/
theorem sound_kernel5 (c : Dev nD) (E : Set ℕ) (i : grid5.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data on core `c`: the arrays at the entry contents; after the body each operand's buffer at its
    block and the output's at the payload of the five blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the operands' buffers hold their blocks, so `sound_kernel5` applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.RegSt.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics region (custom_call 1): two running sums carried between grid points

The kernel keeps two 1×128 rows in scratch memory: the running column sums and the running column sums of
squares. At the first grid point both are zeroed; at every point the block's column sums are added; at the last
point the mean and the variance are computed from the two rows and stored to the two output windows. -/

/-! ## The two conditions over the grid, in closed form -/

/-- The first conditional's test: the grid coordinate is zero. -/
abbrev cond1_0 (i : grid1.Coords) : Prop :=
  (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is the last one. -/
abbrev cond1_1 (i : grid1.Coords) : Prop := k1_cond2 i = 1#1

/-- It holds at the last point only. -/
theorem hcond1_1 : ∀ t : Fin cfg1.N, cond1_1 (grid1.coords t) ↔ t.val = 19 :=
  (by decide +kernel : ∀ t : Fin grid1.N, cond1_1 (grid1.coords t) ↔ t.val = 19)

/-- The grid has twenty points. -/
theorem lt20_1 (t : Fin cfg1.N) : t.val < 20 := lt_of_lt_of_eq t.isLt (show cfg1.N = 20 from N_1)

/-! ## Where the windows are idle and where they are written back -/

/-- The input window is never idle. -/
theorem live1_0 : ∀ t : Fin cfg1.N, cfg1.idle 0 (grid1.coords t) = false := fun _ => rfl

/-- The two output windows are idle at every point but the last, -/
theorem idle1_1 : ∀ t : Fin cfg1.N, t.val ≠ 19 → cfg1.idle 1 (grid1.coords t) = true :=
  (by decide +kernel : ∀ t : Fin grid1.N, t.val ≠ 19 → cfg1.idle 1 (grid1.coords t) = true)
theorem idle1_2 : ∀ t : Fin cfg1.N, t.val ≠ 19 → cfg1.idle 2 (grid1.coords t) = true :=
  (by decide +kernel : ∀ t : Fin grid1.N, t.val ≠ 19 → cfg1.idle 2 (grid1.coords t) = true)

/-- live at the last, -/
theorem live1_1 : ∀ t : Fin cfg1.N, t.val = 19 → cfg1.idle 1 (grid1.coords t) = false :=
  (by decide +kernel : ∀ t : Fin grid1.N, t.val = 19 → cfg1.idle 1 (grid1.coords t) = false)
theorem live1_2 : ∀ t : Fin cfg1.N, t.val = 19 → cfg1.idle 2 (grid1.coords t) = false :=
  (by decide +kernel : ∀ t : Fin grid1.N, t.val = 19 → cfg1.idle 2 (grid1.coords t) = false)

/-- and not written back before the last. -/
theorem noflush1_1 (t : Fin cfg1.N) (h : t.val ≠ 19) : (cfg1.win 1).flush t = false :=
  Bool.eq_false_iff.mpr fun hf => h (by have := (flush1_1 t).mp hf; have := lt20_1 t; omega)
theorem noflush1_2 (t : Fin cfg1.N) (h : t.val ≠ 19) : (cfg1.win 2).flush t = false :=
  Bool.eq_false_iff.mpr fun hf => h (by have := (flush1_2 t).mp hf; have := lt20_1 t; omega)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## Whole-buffer loads and stores -/

/-- The zero offsets, as a constant function. -/
theorem off00 : (![0, 0] : Fin 2 → ℕ) = fun _ => 0 := by
  funext a; fin_cases a <;> rfl

/-- After a last store through the whole-shape rectangle the buffer reads as that store's payload. -/
theorem read_writes_whole {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- A load through the whole-shape rectangle reads the contents. -/
theorem readAt_whole {κ : Kind} {sp : Space} {S : Shape} {e : EltTy} (v : View sig κ sp S e)
    (f : v.ty.Contents (Elt F)) {off : Fin S.rank → ℕ} (h : off = fun _ => 0) (inb : ∀ a, off a + S.size a ≤ S.size a) :
    View.readAt (Elt F) v (Rect.unit off S.size inb).toLoadRect f = v.read (Elt F) f :=
  View.ld_unit_zero h inb (v.read (Elt F) f)

/-! ## The body's triple, case by case -/

set_option maxHeartbeats 1000000 in
/-- FIRST POINT: both running rows, found at anything, are zeroed and the block's column sums added. The output
    windows' memrefs are not touched (they stay outside the triple). -/
theorem sound_kernel1_A (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬cond1_1 i)
    (x0 : Vec F S5000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_writes_whole _ _ off00, readAt_whole _ _ off00, View.readCov_unit_zero _ off00]
  · iexists _; isplitr
    swap; · iexact HQ
    ipureintro
    sl_unfold_run_names
    rw [read_writes_whole _ _ off00, readAt_whole _ _ off00, View.readCov_unit_zero _ off00]

set_option maxHeartbeats 1000000 in
/-- A MIDDLE POINT: the block's column sums are added to both running rows. -/
theorem sound_kernel1_B (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : ¬cond1_1 i)
    (x0 : Vec F S5000x128 .f32) (xs xq : Vec F S1x128 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0 ∗ owns (c : Thread nD τ) arg4 fullShare (k1_pay4 x0 xs)
            ∗ owns (c : Thread nD τ) arg5 fullShare (k1_pay5 x0 xq)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    rw [read_writes_whole _ _ off00, readAt_whole _ _ off00, readAt_whole _ _ off00]
  · iexists _; isplitr
    swap; · iexact HQ
    ipureintro
    rw [read_writes_whole _ _ off00, readAt_whole _ _ off00, readAt_whole _ _ off00]

set_option maxHeartbeats 1000000 in
/-- THE LAST POINT: the block's column sums are added, then the mean and the variance are computed from the two
    rows and stored to the two output windows, found at anything. -/
theorem sound_kernel1_C (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : cond1_1 i)
    (x0 : Vec F S5000x128 .f32) (xs xq : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
            ∗ owns (c : Thread nD τ) arg2 fullShare (k1_pay6 (k1_pay4 x0 xs))
            ∗ owns (c : Thread nD τ) arg3 fullShare (k1_pay7 (k1_pay4 x0 xs) (k1_pay5 x0 xq))
            ∗ owns (c : Thread nD τ) arg4 fullShare (k1_pay4 x0 xs)
            ∗ owns (c : Thread nD τ) arg5 fullShare (k1_pay5 x0 xq)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [H2]
  · iexists _; isplitr
    swap; · iexact H2
    ipureintro
    sl_unfold_run_names
    rw [read_writes_whole _ _ off00, View.readCov_unit_zero _ off00, readAt_whole _ _ off00, readAt_whole _ _ off00]
  isplitl [H3]
  · iexists _; isplitr
    swap; · iexact H3
    ipureintro
    sl_unfold_run_names
    rw [read_writes_whole _ _ off00, View.readCov_unit_zero _ off00, View.readCov_unit_zero _ off00,
      readAt_whole _ _ off00, readAt_whole _ _ off00, readAt_whole _ _ off00]
  isplitl [HS]
  · iexists _; isplitr
    swap; · iexact HS
    ipureintro
    sl_unfold_run_names
    rw [read_writes_whole _ _ off00, readAt_whole _ _ off00, readAt_whole _ _ off00]
  · iexists _; isplitr
    swap; · iexact HQ
    ipureintro
    sl_unfold_run_names
    rw [read_writes_whole _ _ off00, readAt_whole _ _ off00, readAt_whole _ _ off00]

/-! ## The running rows, point by point -/

/-- The input block at position `n` of the grid (beyond the grid: the first block, never consulted). -/
def blk1N (c : Dev nD) (n : ℕ) : Vec F S5000x128 .f32 :=
  if h : n < cfg1.N then iblk1 V c 0 ⟨n, h⟩
  else iblk1 V c 0 ⟨0, lt_of_lt_of_eq (by decide : 0 < 20) (show 20 = cfg1.N from N_1.symm)⟩

theorem blk1N_fin (c : Dev nD) (t : Fin cfg1.N) : blk1N V c t.val = iblk1 V c 0 t := dif_pos t.isLt

/-- THE ACCUMULATION of the column sums: what the first scratch row holds after `n` points — the zero row, then
    at each point the block's column sums added (the skeleton's payloads). -/
def accS1 (c : Dev nD) : ℕ → Vec F S1x128 .f32
  | 0 => k1_pay1 (F := F)
  | n + 1 => k1_pay4 (blk1N V c n) (accS1 c n)

/-- THE ACCUMULATION of the column sums of squares: what the second scratch row holds after `n` points. -/
def accQ1 (c : Dev nD) : ℕ → Vec F S1x128 .f32
  | 0 => k1_pay2 (F := F)
  | n + 1 => k1_pay5 (blk1N V c n) (accQ1 c n)

theorem accS1_zero (c : Dev nD) : accS1 V c 0 = k1_pay1 (F := F) := rfl
theorem accQ1_zero (c : Dev nD) : accQ1 V c 0 = k1_pay2 (F := F) := rfl
theorem accS1_succ (c : Dev nD) (n : ℕ) : accS1 V c (n + 1) = k1_pay4 (blk1N V c n) (accS1 V c n) := rfl
theorem accQ1_succ (c : Dev nD) (n : ℕ) : accQ1 V c (n + 1) = k1_pay5 (blk1N V c n) (accQ1 V c n) := rfl

/-- After point `t`, from the rows before it. -/
theorem accS1_fin (c : Dev nD) (t : Fin cfg1.N) : accS1 V c (t.val + 1) = k1_pay4 (iblk1 V c 0 t) (accS1 V c t.val) := by
  rw [accS1_succ, blk1N_fin]
theorem accQ1_fin (c : Dev nD) (t : Fin cfg1.N) : accQ1 V c (t.val + 1) = k1_pay5 (iblk1 V c 0 t) (accQ1 V c t.val) := by
  rw [accQ1_succ, blk1N_fin]

/-! ## The region invariant -/

/-- The two scratch operands, whole scoped buffers of the kernel's own. -/
abbrev scS1 : Memref sig .tc .vmem S1x128 .f32 := Memref.whole cc1_scratch0
abbrev scQ1 : Memref sig .tc .vmem S1x128 .f32 := Memref.whole cc1_scratch1

/-- The scoped buffers that are neither staging buffers nor the two scratch rows, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the two scratch rows at anything; afterwards at the
    running sums `accS1` / `accQ1` of the points passed; with them the other scoped buffers and the generator
    register at some state. -/
def PhiSt1 (c : Dev nD) : ℕ → sProp 𝕄
  | 0 => iprop((∃ d, owns (c : Thread nD τ) scS1 fullShare d) ∗ (∃ d, owns (c : Thread nD τ) scQ1 fullShare d)
      ∗ rest1 (F := F) c ∗ (∃ r, prngReg c r))
  | n + 1 => iprop(owns (c : Thread nD τ) scS1 fullShare (accS1 V c (n + 1)) ∗ owns (c : Thread nD τ) scQ1 fullShare (accQ1 V c (n + 1))
      ∗ rest1 (F := F) c ∗ (∃ r, prngReg c r))

theorem PhiSt1_zero (c : Dev nD) (n : ℕ) (hz : n = 0) :
    PhiSt1 V c n = iprop((∃ d, owns (c : Thread nD τ) scS1 fullShare d) ∗ (∃ d, owns (c : Thread nD τ) scQ1 fullShare d)
      ∗ rest1 (F := F) c ∗ (∃ r, prngReg c r)) := by
  subst hz; rfl

theorem PhiSt1_pos (c : Dev nD) (n : ℕ) (hz : n ≠ 0) :
    PhiSt1 V c n = iprop(owns (c : Thread nD τ) scS1 fullShare (accS1 V c n) ∗ owns (c : Thread nD τ) scQ1 fullShare (accQ1 V c n)
      ∗ rest1 (F := F) c ∗ (∃ r, prngReg c r)) := by
  cases n with
  | zero => exact absurd rfl hz
  | succ n => rfl

/-! ## The pipeline's proof data -/

/-- The proof data of the pipeline on core `c`: the arrays as the region finds them; after the body at point `t`
    the input's buffer at its block, the mean's at the skeleton's quotient of the running sums after `t`, the
    variance's at the skeleton's difference (both stored at the last point only: elsewhere the windows are idle and
    these contents are not consulted); the invariant `PhiSt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (accS1 V c (t.val + 1))
    | ⟨2, _⟩ => k1_pay7 (accS1 V c (t.val + 1)) (accQ1 V c (t.val + 1))
  Φ t := PhiSt1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay6 (accS1 V c (t.val + 1)) := by dsimp only [dat1]
theorem after1_2 (c : Dev nD) (t : Fin cfg1.N) :
    (dat1 V c).after 2 t = k1_pay7 (accS1 V c (t.val + 1)) (accQ1 V c (t.val + 1)) := by dsimp only [dat1]

/-- What the two output windows hold when they are written back (the last point): the mean and the variance of
    the running sums over all twenty points. -/
theorem after1_1_last (c : Dev nD) (h : 19 < cfg1.N) : (dat1 V c).after 1 ⟨19, h⟩ = k1_pay6 (accS1 V c 20) := by
  dsimp only [dat1]
theorem after1_2_last (c : Dev nD) (h : 19 < cfg1.N) :
    (dat1 V c).after 2 ⟨19, h⟩ = k1_pay7 (accS1 V c 20) (accQ1 V c 20) := by
  dsimp only [dat1]

theorem Phi1_castSucc (c : Dev nD) (t : Fin cfg1.N) : (dat1 V c).Φ t.castSucc = PhiSt1 V c t.val := by
  dsimp only [dat1]; simp only [Fin.coe_castSucc]
theorem Phi1_succ (c : Dev nD) (t : Fin cfg1.N) : (dat1 V c).Φ t.succ = PhiSt1 V c (t.val + 1) := rfl

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case: the input's memref holds its block; the invariant hands the body
    the two scratch rows at the running sums of the points passed (at anything at the first point) and takes them
    back at the sums through this point; before the last point the output windows' buffers are handed back as
    found, at the last point they are left at the mean and the variance; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [live1_0 t], after1_0]
  have hN := lt20_1 t
  by_cases h0 : t.val = 0
  · have h1 : t.val ≠ 19 := by omega
    rw [Dat.leavesExact_idle (dat1 V c) 1 t (idle1_1 t h1) (noflush1_1 t h1),
      Dat.leavesExact_idle (dat1 V c) 2 t (idle1_2 t h1) (noflush1_2 t h1)]
    rw [PhiSt1_zero V c _ h0, PhiSt1_pos V c _ (Nat.succ_ne_zero _), accS1_fin, accQ1_fin, h0, accS1_zero, accQ1_zero]
    iintro ⟨⟨HS, HQ, HR, Hg⟩, Ho, ⟨%d0, H0⟩, H1, H2⟩
    iapply (sound_kernel1_A c Set.univ (grid1.coords t) _ _ _ _ _ _ _ _ _ _ ((hcond1_0 t).mpr h0) (fun h => h1 ((hcond1_1 t).mp h)) (iblk1 V c 0 t) _)
    isplitl [H0]; · iexact H0
    isplitl [HS]; · iexact HS
    isplitl [HQ]; · iexact HQ
    iintro ⟨H0, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · by_cases h1 : t.val = 19
    · rw [show (dat1 V c).leavesExact 1 t = owns (c : Thread nD τ) (st1_1 t) fullShare ((dat1 V c).after 1 t) from by
        unfold Dat.leavesExact; rw [live1_1 t h1], after1_1]
      rw [show (dat1 V c).leavesExact 2 t = owns (c : Thread nD τ) (st1_2 t) fullShare ((dat1 V c).after 2 t) from by
        unfold Dat.leavesExact; rw [live1_2 t h1], after1_2]
      rw [PhiSt1_pos V c _ h0, PhiSt1_pos V c _ (Nat.succ_ne_zero _), accS1_fin, accQ1_fin]
      iintro ⟨⟨HS, HQ, HR, Hg⟩, Ho, ⟨%d0, H0⟩, ⟨%d1, H1⟩, ⟨%d2, H2⟩⟩
      iapply (sound_kernel1_C c Set.univ (grid1.coords t) _ _ _ _ _ _ _ _ _ _ (fun h => h0 ((hcond1_0 t).mp h)) ((hcond1_1 t).mpr h1) (iblk1 V c 0 t) _ _ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · rw [Dat.leavesExact_idle (dat1 V c) 1 t (idle1_1 t h1) (noflush1_1 t h1),
        Dat.leavesExact_idle (dat1 V c) 2 t (idle1_2 t h1) (noflush1_2 t h1)]
      rw [PhiSt1_pos V c _ h0, PhiSt1_pos V c _ (Nat.succ_ne_zero _), accS1_fin, accQ1_fin]
      iintro ⟨⟨HS, HQ, HR, Hg⟩, Ho, ⟨%d0, H0⟩, H1, H2⟩
      iapply (sound_kernel1_B c Set.univ (grid1.coords t) _ _ _ _ _ _ _ _ _ _ (fun h => h0 ((hcond1_0 t).mp h)) (fun h => h1 ((hcond1_1 t).mp h)) (iblk1 V c 0 t) _ _ _)
      isplitl [H0]; · iexact H0
      isplitl [HS]; · iexact HS
      isplitl [HQ]; · iexact HQ
      iintro ⟨H0, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region — the scoped rest and the generator register — is the invariant before the
    first point: the two scratch rows are split out of the scoped rest. -/
theorem Phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiSt1 V c 0 from rfl, PhiSt1_zero V c 0 rfl, scopedRest1_split]
  simp only [scS1, scQ1, owns_whole]
  iintro ⟨Hg, ⟨HS, HQ⟩, HR⟩
  isplitl [HS]; · iexact HS
  isplitl [HQ]; · iexact HQ
  isplitl [HR]; · iexact HR
  iexact Hg

/-- The same from the class's invariant (the scoped rest first). -/
theorem PhiA_in1 (c : Dev nD) : Pipeline.ΦA spec1 c ⊢ (dat1 V c).Φ 0 := by
  unfold Pipeline.ΦA
  iintro ⟨HR, Hg⟩
  iapply (Phi_in1 V c)
  isplitl [Hg]; · iexact Hg
  iexact HR

/-- After the last point the invariant gives the scoped rest and the generator register back: the running sums'
    named contents are forgotten. -/
theorem Phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiSt1 V c cfg1.N from rfl,
    PhiSt1_pos V c _ (by rw [show cfg1.N = 20 from N_1]; decide), scopedRest1_split]
  simp only [scS1, scQ1, owns_whole]
  iintro ⟨HS, HQ, HR, Hg⟩
  isplitl [Hg]; · iexact Hg
  isplitl [HS HQ]
  · isplitl [HS]; · iexists _; iexact HS
    iexists _; iexact HQ
  iexact HR

theorem PhiA_out1 (c : Dev nD) : (dat1 V c).Φ (Fin.last cfg1.N) ⊢ Pipeline.ΦA spec1 c := by
  unfold Pipeline.ΦA
  iintro H
  ihave H2 := (Phi_out1 V c) $$ H
  icases H2 with ⟨Hg, HR⟩
  isplitl [HR]; · iexact HR
  iexact Hg

/-! # The second column-statistics region (custom_call 4): two running sums carried between grid points

The kernel keeps two 1×128 rows in scratch memory: the running column sums and the running column sums of
squares. At the first grid point both are zeroed; at every point the block's column sums are added; at the last
point the mean and the variance are computed from the two rows and stored to the two output windows. -/

/-! ## The two conditions over the grid, in closed form -/

/-- The first conditional's test: the grid coordinate is zero. -/
abbrev cond4_0 (i : grid4.Coords) : Prop :=
  (Scalar.cmpi .ne (Scalar.extui (Scalar.cmpi .eq (BitVec.ofNat 32 (i 0).val) 0#32)) 0#32) = 1#1

/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional's test: the grid coordinate is the last one. -/
abbrev cond4_1 (i : grid4.Coords) : Prop := k4_cond2 i = 1#1

/-- It holds at the last point only. -/
theorem hcond4_1 : ∀ t : Fin cfg4.N, cond4_1 (grid4.coords t) ↔ t.val = 19 :=
  (by decide +kernel : ∀ t : Fin grid4.N, cond4_1 (grid4.coords t) ↔ t.val = 19)

/-- The grid has twenty points. -/
theorem lt20_4 (t : Fin cfg4.N) : t.val < 20 := lt_of_lt_of_eq t.isLt (show cfg4.N = 20 from N_4)

/-! ## Where the windows are idle and where they are written back -/

/-- The input window is never idle. -/
theorem live4_0 : ∀ t : Fin cfg4.N, cfg4.idle 0 (grid4.coords t) = false := fun _ => rfl

/-- The two output windows are idle at every point but the last, -/
theorem idle4_1 : ∀ t : Fin cfg4.N, t.val ≠ 19 → cfg4.idle 1 (grid4.coords t) = true :=
  (by decide +kernel : ∀ t : Fin grid4.N, t.val ≠ 19 → cfg4.idle 1 (grid4.coords t) = true)
theorem idle4_2 : ∀ t : Fin cfg4.N, t.val ≠ 19 → cfg4.idle 2 (grid4.coords t) = true :=
  (by decide +kernel : ∀ t : Fin grid4.N, t.val ≠ 19 → cfg4.idle 2 (grid4.coords t) = true)

/-- live at the last, -/
theorem live4_1 : ∀ t : Fin cfg4.N, t.val = 19 → cfg4.idle 1 (grid4.coords t) = false :=
  (by decide +kernel : ∀ t : Fin grid4.N, t.val = 19 → cfg4.idle 1 (grid4.coords t) = false)
theorem live4_2 : ∀ t : Fin cfg4.N, t.val = 19 → cfg4.idle 2 (grid4.coords t) = false :=
  (by decide +kernel : ∀ t : Fin grid4.N, t.val = 19 → cfg4.idle 2 (grid4.coords t) = false)

/-- and not written back before the last. -/
theorem noflush4_1 (t : Fin cfg4.N) (h : t.val ≠ 19) : (cfg4.win 1).flush t = false :=
  Bool.eq_false_iff.mpr fun hf => h (by have := (flush4_1 t).mp hf; have := lt20_4 t; omega)
theorem noflush4_2 (t : Fin cfg4.N) (h : t.val ≠ 19) : (cfg4.win 2).flush t = false :=
  Bool.eq_false_iff.mpr fun hf => h (by have := (flush4_2 t).mp hf; have := lt20_4 t; omega)

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's triple, case by case -/

set_option maxHeartbeats 1000000 in
/-- FIRST POINT: both running rows, found at anything, are zeroed and the block's column sums added. The output
    windows' memrefs are not touched (they stay outside the triple). -/
theorem sound_kernel4_A (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond4_0 i) (hc1 : ¬cond4_1 i)
    (x0 : Vec F S5000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k4_pay4 x0 (k4_pay1 (F := F)))
            ∗ owns (c : Thread nD τ) arg5 fullShare (k4_pay5 x0 (k4_pay2 (F := F)))) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_writes_whole _ _ off00, readAt_whole _ _ off00, View.readCov_unit_zero _ off00]
  · iexists _; isplitr
    swap; · iexact HQ
    ipureintro
    sl_unfold_run_names
    rw [read_writes_whole _ _ off00, readAt_whole _ _ off00, View.readCov_unit_zero _ off00]

set_option maxHeartbeats 1000000 in
/-- A MIDDLE POINT: the block's column sums are added to both running rows. -/
theorem sound_kernel4_B (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond4_0 i) (hc1 : ¬cond4_1 i)
    (x0 : Vec F S5000x128 .f32) (xs xq : Vec F S1x128 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0 ∗ owns (c : Thread nD τ) arg4 fullShare (k4_pay4 x0 xs)
            ∗ owns (c : Thread nD τ) arg5 fullShare (k4_pay5 x0 xq)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    rw [read_writes_whole _ _ off00, readAt_whole _ _ off00, readAt_whole _ _ off00]
  · iexists _; isplitr
    swap; · iexact HQ
    ipureintro
    rw [read_writes_whole _ _ off00, readAt_whole _ _ off00, readAt_whole _ _ off00]

set_option maxHeartbeats 1000000 in
/-- THE LAST POINT: the block's column sums are added, then the mean and the variance are computed from the two
    rows and stored to the two output windows, found at anything. -/
theorem sound_kernel4_C (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond4_0 i) (hc1 : cond4_1 i)
    (x0 : Vec F S5000x128 .f32) (xs xq : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
            ∗ owns (c : Thread nD τ) arg2 fullShare (k4_pay6 (k4_pay4 x0 xs))
            ∗ owns (c : Thread nD τ) arg3 fullShare (k4_pay7 (k4_pay4 x0 xs) (k4_pay5 x0 xq))
            ∗ owns (c : Thread nD τ) arg4 fullShare (k4_pay4 x0 xs)
            ∗ owns (c : Thread nD τ) arg5 fullShare (k4_pay5 x0 xq)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d2, %f2, -, H2⟩, ⟨%d3, %f3, -, H3⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [H2]
  · iexists _; isplitr
    swap; · iexact H2
    ipureintro
    sl_unfold_run_names
    rw [read_writes_whole _ _ off00, View.readCov_unit_zero _ off00, readAt_whole _ _ off00, readAt_whole _ _ off00]
  isplitl [H3]
  · iexists _; isplitr
    swap; · iexact H3
    ipureintro
    sl_unfold_run_names
    rw [read_writes_whole _ _ off00, View.readCov_unit_zero _ off00, View.readCov_unit_zero _ off00,
      readAt_whole _ _ off00, readAt_whole _ _ off00, readAt_whole _ _ off00]
  isplitl [HS]
  · iexists _; isplitr
    swap; · iexact HS
    ipureintro
    sl_unfold_run_names
    rw [read_writes_whole _ _ off00, readAt_whole _ _ off00, readAt_whole _ _ off00]
  · iexists _; isplitr
    swap; · iexact HQ
    ipureintro
    sl_unfold_run_names
    rw [read_writes_whole _ _ off00, readAt_whole _ _ off00, readAt_whole _ _ off00]

/-! ## The running rows, point by point -/

/-- The input block at position `n` of the grid (beyond the grid: the first block, never consulted). -/
def blk4N (c : Dev nD) (n : ℕ) : Vec F S5000x128 .f32 :=
  if h : n < cfg4.N then iblk4 V c 0 ⟨n, h⟩
  else iblk4 V c 0 ⟨0, lt_of_lt_of_eq (by decide : 0 < 20) (show 20 = cfg4.N from N_4.symm)⟩

theorem blk4N_fin (c : Dev nD) (t : Fin cfg4.N) : blk4N V c t.val = iblk4 V c 0 t := dif_pos t.isLt

/-- THE ACCUMULATION of the column sums: what the first scratch row holds after `n` points — the zero row, then
    at each point the block's column sums added (the skeleton's payloads). -/
def accS4 (c : Dev nD) : ℕ → Vec F S1x128 .f32
  | 0 => k4_pay1 (F := F)
  | n + 1 => k4_pay4 (blk4N V c n) (accS4 c n)

/-- THE ACCUMULATION of the column sums of squares: what the second scratch row holds after `n` points. -/
def accQ4 (c : Dev nD) : ℕ → Vec F S1x128 .f32
  | 0 => k4_pay2 (F := F)
  | n + 1 => k4_pay5 (blk4N V c n) (accQ4 c n)

theorem accS4_zero (c : Dev nD) : accS4 V c 0 = k4_pay1 (F := F) := rfl
theorem accQ4_zero (c : Dev nD) : accQ4 V c 0 = k4_pay2 (F := F) := rfl
theorem accS4_succ (c : Dev nD) (n : ℕ) : accS4 V c (n + 1) = k4_pay4 (blk4N V c n) (accS4 V c n) := rfl
theorem accQ4_succ (c : Dev nD) (n : ℕ) : accQ4 V c (n + 1) = k4_pay5 (blk4N V c n) (accQ4 V c n) := rfl

/-- After point `t`, from the rows before it. -/
theorem accS4_fin (c : Dev nD) (t : Fin cfg4.N) : accS4 V c (t.val + 1) = k4_pay4 (iblk4 V c 0 t) (accS4 V c t.val) := by
  rw [accS4_succ, blk4N_fin]
theorem accQ4_fin (c : Dev nD) (t : Fin cfg4.N) : accQ4 V c (t.val + 1) = k4_pay5 (iblk4 V c 0 t) (accQ4 V c t.val) := by
  rw [accQ4_succ, blk4N_fin]

/-! ## The region invariant -/

/-- The two scratch operands, whole scoped buffers of the kernel's own. -/
abbrev scS4 : Memref sig .tc .vmem S1x128 .f32 := Memref.whole cc4_scratch0
abbrev scQ4 : Memref sig .tc .vmem S1x128 .f32 := Memref.whole cc4_scratch1

/-- The scoped buffers that are neither staging buffers nor the two scratch rows, unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The invariant before position `n`: before the first point the two scratch rows at anything; afterwards at the
    running sums `accS4` / `accQ4` of the points passed; with them the other scoped buffers and the generator
    register at some state. -/
def PhiSt4 (c : Dev nD) : ℕ → sProp 𝕄
  | 0 => iprop((∃ d, owns (c : Thread nD τ) scS4 fullShare d) ∗ (∃ d, owns (c : Thread nD τ) scQ4 fullShare d)
      ∗ rest4 (F := F) c ∗ (∃ r, prngReg c r))
  | n + 1 => iprop(owns (c : Thread nD τ) scS4 fullShare (accS4 V c (n + 1)) ∗ owns (c : Thread nD τ) scQ4 fullShare (accQ4 V c (n + 1))
      ∗ rest4 (F := F) c ∗ (∃ r, prngReg c r))

theorem PhiSt4_zero (c : Dev nD) (n : ℕ) (hz : n = 0) :
    PhiSt4 V c n = iprop((∃ d, owns (c : Thread nD τ) scS4 fullShare d) ∗ (∃ d, owns (c : Thread nD τ) scQ4 fullShare d)
      ∗ rest4 (F := F) c ∗ (∃ r, prngReg c r)) := by
  subst hz; rfl

theorem PhiSt4_pos (c : Dev nD) (n : ℕ) (hz : n ≠ 0) :
    PhiSt4 V c n = iprop(owns (c : Thread nD τ) scS4 fullShare (accS4 V c n) ∗ owns (c : Thread nD τ) scQ4 fullShare (accQ4 V c n)
      ∗ rest4 (F := F) c ∗ (∃ r, prngReg c r)) := by
  cases n with
  | zero => exact absurd rfl hz
  | succ n => rfl

/-! ## The pipeline's proof data -/

/-- The proof data of the pipeline on core `c`: the arrays as the region finds them; after the body at point `t`
    the input's buffer at its block, the mean's at the skeleton's quotient of the running sums after `t`, the
    variance's at the skeleton's difference (both stored at the last point only: elsewhere the windows are idle and
    these contents are not consulted); the invariant `PhiSt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (accS4 V c (t.val + 1))
    | ⟨2, _⟩ => k4_pay7 (accS4 V c (t.val + 1)) (accQ4 V c (t.val + 1))
  Φ t := PhiSt4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay6 (accS4 V c (t.val + 1)) := by dsimp only [dat4]
theorem after4_2 (c : Dev nD) (t : Fin cfg4.N) :
    (dat4 V c).after 2 t = k4_pay7 (accS4 V c (t.val + 1)) (accQ4 V c (t.val + 1)) := by dsimp only [dat4]

/-- What the two output windows hold when they are written back (the last point): the mean and the variance of
    the running sums over all twenty points. -/
theorem after4_1_last (c : Dev nD) (h : 19 < cfg4.N) : (dat4 V c).after 1 ⟨19, h⟩ = k4_pay6 (accS4 V c 20) := by
  dsimp only [dat4]
theorem after4_2_last (c : Dev nD) (h : 19 < cfg4.N) :
    (dat4 V c).after 2 ⟨19, h⟩ = k4_pay7 (accS4 V c 20) (accQ4 V c 20) := by
  dsimp only [dat4]

theorem Phi4_castSucc (c : Dev nD) (t : Fin cfg4.N) : (dat4 V c).Φ t.castSucc = PhiSt4 V c t.val := by
  dsimp only [dat4]; simp only [Fin.coe_castSucc]
theorem Phi4_succ (c : Dev nD) (t : Fin cfg4.N) : (dat4 V c).Φ t.succ = PhiSt4 V c (t.val + 1) := rfl

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the point's case: the input's memref holds its block; the invariant hands the body
    the two scratch rows at the running sums of the points passed (at anything at the first point) and takes them
    back at the sums through this point; before the last point the output windows' buffers are handed back as
    found, at the last point they are left at the mean and the variance; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [Phi4_castSucc, Phi4_succ]
  rw [show (dat4 V c).leavesExact 0 t = owns (c : Thread nD τ) (st4_0 t) fullShare ((dat4 V c).after 0 t) from by
    unfold Dat.leavesExact; rw [live4_0 t], after4_0]
  have hN := lt20_4 t
  by_cases h0 : t.val = 0
  · have h1 : t.val ≠ 19 := by omega
    rw [Dat.leavesExact_idle (dat4 V c) 1 t (idle4_1 t h1) (noflush4_1 t h1),
      Dat.leavesExact_idle (dat4 V c) 2 t (idle4_2 t h1) (noflush4_2 t h1)]
    rw [PhiSt4_zero V c _ h0, PhiSt4_pos V c _ (Nat.succ_ne_zero _), accS4_fin, accQ4_fin, h0, accS4_zero, accQ4_zero]
    iintro ⟨⟨HS, HQ, HR, Hg⟩, Ho, ⟨%d0, H0⟩, H1, H2⟩
    iapply (sound_kernel4_A c Set.univ (grid4.coords t) _ _ _ _ _ _ _ _ _ _ ((hcond4_0 t).mpr h0) (fun h => h1 ((hcond4_1 t).mp h)) (iblk4 V c 0 t) _)
    isplitl [H0]; · iexact H0
    isplitl [HS]; · iexact HS
    isplitl [HQ]; · iexact HQ
    iintro ⟨H0, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · by_cases h1 : t.val = 19
    · rw [show (dat4 V c).leavesExact 1 t = owns (c : Thread nD τ) (st4_1 t) fullShare ((dat4 V c).after 1 t) from by
        unfold Dat.leavesExact; rw [live4_1 t h1], after4_1]
      rw [show (dat4 V c).leavesExact 2 t = owns (c : Thread nD τ) (st4_2 t) fullShare ((dat4 V c).after 2 t) from by
        unfold Dat.leavesExact; rw [live4_2 t h1], after4_2]
      rw [PhiSt4_pos V c _ h0, PhiSt4_pos V c _ (Nat.succ_ne_zero _), accS4_fin, accQ4_fin]
      iintro ⟨⟨HS, HQ, HR, Hg⟩, Ho, ⟨%d0, H0⟩, ⟨%d1, H1⟩, ⟨%d2, H2⟩⟩
      iapply (sound_kernel4_C c Set.univ (grid4.coords t) _ _ _ _ _ _ _ _ _ _ (fun h => h0 ((hcond4_0 t).mp h)) ((hcond4_1 t).mpr h1) (iblk4 V c 0 t) _ _ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · rw [Dat.leavesExact_idle (dat4 V c) 1 t (idle4_1 t h1) (noflush4_1 t h1),
        Dat.leavesExact_idle (dat4 V c) 2 t (idle4_2 t h1) (noflush4_2 t h1)]
      rw [PhiSt4_pos V c _ h0, PhiSt4_pos V c _ (Nat.succ_ne_zero _), accS4_fin, accQ4_fin]
      iintro ⟨⟨HS, HQ, HR, Hg⟩, Ho, ⟨%d0, H0⟩, H1, H2⟩
      iapply (sound_kernel4_B c Set.univ (grid4.coords t) _ _ _ _ _ _ _ _ _ _ (fun h => h0 ((hcond4_0 t).mp h)) (fun h => h1 ((hcond4_1 t).mp h)) (iblk4 V c 0 t) _ _ _)
      isplitl [H0]; · iexact H0
      isplitl [HS]; · iexact HS
      isplitl [HQ]; · iexact HQ
      iintro ⟨H0, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the launch hands the region — the scoped rest and the generator register — is the invariant before the
    first point: the two scratch rows are split out of the scoped rest. -/
theorem Phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = PhiSt4 V c 0 from rfl, PhiSt4_zero V c 0 rfl, scopedRest4_split]
  simp only [scS4, scQ4, owns_whole]
  iintro ⟨Hg, ⟨HS, HQ⟩, HR⟩
  isplitl [HS]; · iexact HS
  isplitl [HQ]; · iexact HQ
  isplitl [HR]; · iexact HR
  iexact Hg

/-- The same from the class's invariant (the scoped rest first). -/
theorem PhiA_in4 (c : Dev nD) : Pipeline.ΦA spec4 c ⊢ (dat4 V c).Φ 0 := by
  unfold Pipeline.ΦA
  iintro ⟨HR, Hg⟩
  iapply (Phi_in4 V c)
  isplitl [Hg]; · iexact Hg
  iexact HR

/-- After the last point the invariant gives the scoped rest and the generator register back: the running sums'
    named contents are forgotten. -/
theorem Phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiSt4 V c cfg4.N from rfl,
    PhiSt4_pos V c _ (by rw [show cfg4.N = 20 from N_4]; decide), scopedRest4_split]
  simp only [scS4, scQ4, owns_whole]
  iintro ⟨HS, HQ, HR, Hg⟩
  isplitl [Hg]; · iexact Hg
  isplitl [HS HQ]
  · isplitl [HS]; · iexists _; iexact HS
    iexists _; iexact HQ
  iexact HR

theorem PhiA_out4 (c : Dev nD) : (dat4 V c).Φ (Fin.last cfg4.N) ⊢ Pipeline.ΦA spec4 c := by
  unfold Pipeline.ΦA
  iintro H
  ihave H2 := (Phi_out4 V c) $$ H
  icases H2 with ⟨Hg, HR⟩
  isplitl [HR]; · iexact HR
  iexact Hg

end Cert.KernelIdeal.Hand

end
-- ==== Proof.RunFold.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import proofs.«142432_j2886218022958_1_alg».proof.Proof.Gen.KernelIdeal.Regions
import proofs.«142432_j2886218022958_1_alg».proof.Proof.RegMm
import proofs.«142432_j2886218022958_1_alg».proof.Proof.RegAp
import proofs.«142432_j2886218022958_1_alg».proof.Proof.RegSt
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

A host stretch takes the contents to `StableHlo.after` of its operations; a region leaves its arrays at what its
write-backs fold to (`Dat.arrAt … N`) and every other buffer as entered (`Pipeline.withArrays`). -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- Boundary 1's contents read at the TensorCore's references. -/
abbrev V1 : (c : Dev nD) → (b : Ref sig .tc) → Buf (Elt F) ((c : Thread nD τ).loc b) := fun c b => W1 m ρ c b
/-- A buffer `hostOps0` does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2's contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Every buffer but region 0's output arrays leaves it as it entered. -/
theorem W2_keep (c : Dev nD) (r : Ref sig .tc) (h : r ∉ ([main_v29] : List (Ref sig .tc))) :
    W2 m ρ c (Proc.devRef .tc r) = W1 m ρ c (Proc.devRef .tc r) := by
  by_cases hr : ∃ w, Pipeline.arrRef spec0 w = r
  · obtain ⟨w, rfl⟩ := hr
    exact W2_in m ρ c w ((show ∀ w : Fin cfg0.W, Pipeline.arrRef spec0 w ∉ ([main_v29] : List (Ref sig .tc)) → (cfg0.win w).isOut = false from by decide) w h)
  · exact W2_of_ne m ρ c r fun w e => hr ⟨w, e⟩

/-- After `hostOps1`. -/
abbrev W3 : Dev nD → Valuation τ sig (Elt F) := fun c => StableHlo.after hostOps1 (W2 m ρ c)
/-- Boundary 3's contents read at the TensorCore's references. -/
abbrev V3 : (c : Dev nD) → (b : Ref sig .tc) → Buf (Elt F) ((c : Thread nD τ).loc b) := fun c b => W3 m ρ c b
/-- A buffer `hostOps1` does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Boundary 4's contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Every buffer but region 1's output arrays leaves it as it entered. -/
theorem W4_keep (c : Dev nD) (r : Ref sig .tc) (h : r ∉ ([main_v46_0, main_v46_1] : List (Ref sig .tc))) :
    W4 m ρ c (Proc.devRef .tc r) = W3 m ρ c (Proc.devRef .tc r) := by
  by_cases hr : ∃ w, Pipeline.arrRef spec1 w = r
  · obtain ⟨w, rfl⟩ := hr
    exact W4_in m ρ c w ((show ∀ w : Fin cfg1.W, Pipeline.arrRef spec1 w ∉ ([main_v46_0, main_v46_1] : List (Ref sig .tc)) → (cfg1.win w).isOut = false from by decide) w h)
  · exact W4_of_ne m ρ c r fun w e => hr ⟨w, e⟩

/-- After `hostOps2`. -/
abbrev W5 : Dev nD → Valuation τ sig (Elt F) := fun c => StableHlo.after hostOps2 (W4 m ρ c)
/-- Boundary 5's contents read at the TensorCore's references. -/
abbrev V5 : (c : Dev nD) → (b : Ref sig .tc) → Buf (Elt F) ((c : Thread nD τ).loc b) := fun c b => W5 m ρ c b
/-- A buffer `hostOps2` does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Boundary 6's contents read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Every buffer but region 2's output arrays leaves it as it entered. -/
theorem W6_keep (c : Dev nD) (r : Ref sig .tc) (h : r ∉ ([main_v49] : List (Ref sig .tc))) :
    W6 m ρ c (Proc.devRef .tc r) = W5 m ρ c (Proc.devRef .tc r) := by
  by_cases hr : ∃ w, Pipeline.arrRef spec2 w = r
  · obtain ⟨w, rfl⟩ := hr
    exact W6_in m ρ c w ((show ∀ w : Fin cfg2.W, Pipeline.arrRef spec2 w ∉ ([main_v49] : List (Ref sig .tc)) → (cfg2.win w).isOut = false from by decide) w h)
  · exact W6_of_ne m ρ c r fun w e => hr ⟨w, e⟩

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Boundary 7's contents read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
/-- Every buffer but region 3's output arrays leaves it as it entered. -/
theorem W7_keep (c : Dev nD) (r : Ref sig .tc) (h : r ∉ ([main_v50] : List (Ref sig .tc))) :
    W7 m ρ c (Proc.devRef .tc r) = W6 m ρ c (Proc.devRef .tc r) := by
  by_cases hr : ∃ w, Pipeline.arrRef spec3 w = r
  · obtain ⟨w, rfl⟩ := hr
    exact W7_in m ρ c w ((show ∀ w : Fin cfg3.W, Pipeline.arrRef spec3 w ∉ ([main_v50] : List (Ref sig .tc)) → (cfg3.win w).isOut = false from by decide) w h)
  · exact W7_of_ne m ρ c r fun w e => hr ⟨w, e⟩

/-- After `hostOps4`. -/
abbrev W8 : Dev nD → Valuation τ sig (Elt F) := fun c => StableHlo.after hostOps4 (W7 m ρ c)
/-- Boundary 8's contents read at the TensorCore's references. -/
abbrev V8 : (c : Dev nD) → (b : Ref sig .tc) → Buf (Elt F) ((c : Thread nD τ).loc b) := fun c b => W8 m ρ c b
/-- A buffer `hostOps4` does not write is as before it. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9's contents read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- An input window's array leaves region 4 as it entered. -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
/-- Every buffer but region 4's output arrays leaves it as it entered. -/
theorem W9_keep (c : Dev nD) (r : Ref sig .tc) (h : r ∉ ([main_v67_0, main_v67_1] : List (Ref sig .tc))) :
    W9 m ρ c (Proc.devRef .tc r) = W8 m ρ c (Proc.devRef .tc r) := by
  by_cases hr : ∃ w, Pipeline.arrRef spec4 w = r
  · obtain ⟨w, rfl⟩ := hr
    exact W9_in m ρ c w ((show ∀ w : Fin cfg4.W, Pipeline.arrRef spec4 w ∉ ([main_v67_0, main_v67_1] : List (Ref sig .tc)) → (cfg4.win w).isOut = false from by decide) w h)
  · exact W9_of_ne m ρ c r fun w e => hr ⟨w, e⟩

/-- After `hostOps5`. -/
abbrev W10 : Dev nD → Valuation τ sig (Elt F) := fun c => StableHlo.after hostOps5 (W9 m ρ c)
/-- Boundary 10's contents read at the TensorCore's references. -/
abbrev V10 : (c : Dev nD) → (b : Ref sig .tc) → Buf (Elt F) ((c : Thread nD τ).loc b) := fun c b => W10 m ρ c b
/-- A buffer `hostOps5` does not write is as before it. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- Boundary 11's contents read at the TensorCore's references. -/
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- An input window's array leaves region 5 as it entered. -/
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))
/-- Every buffer but region 5's output arrays leaves it as it entered. -/
theorem W11_keep (c : Dev nD) (r : Ref sig .tc) (h : r ∉ ([main_v70] : List (Ref sig .tc))) :
    W11 m ρ c (Proc.devRef .tc r) = W10 m ρ c (Proc.devRef .tc r) := by
  by_cases hr : ∃ w, Pipeline.arrRef spec5 w = r
  · obtain ⟨w, rfl⟩ := hr
    exact W11_in m ρ c w ((show ∀ w : Fin cfg5.W, Pipeline.arrRef spec5 w ∉ ([main_v70] : List (Ref sig .tc)) → (cfg5.win w).isOut = false from by decide) w h)
  · exact W11_of_ne m ρ c r fun w e => hr ⟨w, e⟩

/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- Boundary 12's contents read at the TensorCore's references. -/
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- An input window's array leaves region 6 as it entered. -/
theorem W12_in (c : Dev nD) (w : Fin cfg6.W) (hin : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hin _).trans (A_eq6 (V11 m ρ) c w))
/-- Every buffer but region 6's output arrays leaves it as it entered. -/
theorem W12_keep (c : Dev nD) (r : Ref sig .tc) (h : r ∉ ([main_v71] : List (Ref sig .tc))) :
    W12 m ρ c (Proc.devRef .tc r) = W11 m ρ c (Proc.devRef .tc r) := by
  by_cases hr : ∃ w, Pipeline.arrRef spec6 w = r
  · obtain ⟨w, rfl⟩ := hr
    exact W12_in m ρ c w ((show ∀ w : Fin cfg6.W, Pipeline.arrRef spec6 w ∉ ([main_v71] : List (Ref sig .tc)) → (cfg6.win w).isOut = false from by decide) w h)
  · exact W12_of_ne m ρ c r fun w e => hr ⟨w, e⟩

/-- After `hostOps7`. -/
abbrev W13 : Dev nD → Valuation τ sig (Elt F) := fun c => StableHlo.after hostOps7 (W12 m ρ c)
/-- Boundary 13's contents read at the TensorCore's references. -/
abbrev V13 : (c : Dev nD) → (b : Ref sig .tc) → Buf (Elt F) ((c : Thread nD τ).loc b) := fun c b => W13 m ρ c b
/-- A buffer `hostOps7` does not write is as before it. -/
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

/-! ## The arguments end as launched: no host operation writes one, no region's output array is one -/
theorem W13_main_arg0 (c : Dev nD) : W13 m ρ c (Proc.devRef .tc main_arg0) = m ((c : Thread nD τ).loc main_arg0) :=
  (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl
theorem W13_main_arg1 (c : Dev nD) : W13 m ρ c (Proc.devRef .tc main_arg1) = m ((c : Thread nD τ).loc main_arg1) :=
  (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl
theorem W13_main_arg2 (c : Dev nD) : W13 m ρ c (Proc.devRef .tc main_arg2) = m ((c : Thread nD τ).loc main_arg2) :=
  (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl
theorem W13_main_arg3 (c : Dev nD) : W13 m ρ c (Proc.devRef .tc main_arg3) = m ((c : Thread nD τ).loc main_arg3) :=
  (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl
theorem W13_main_arg4 (c : Dev nD) : W13 m ρ c (Proc.devRef .tc main_arg4) = m ((c : Thread nD τ).loc main_arg4) :=
  (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl
theorem W13_main_arg5 (c : Dev nD) : W13 m ρ c (Proc.devRef .tc main_arg5) = m ((c : Thread nD τ).loc main_arg5) :=
  (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem W13_main_arg6 (c : Dev nD) : W13 m ρ c (Proc.devRef .tc main_arg6) = m ((c : Thread nD τ).loc main_arg6) :=
  (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem W13_main_arg7 (c : Dev nD) : W13 m ρ c (Proc.devRef .tc main_arg7) = m ((c : Thread nD τ).loc main_arg7) :=
  (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem W13_main_arg8 (c : Dev nD) : W13 m ρ c (Proc.devRef .tc main_arg8) = m ((c : Thread nD τ).loc main_arg8) :=
  (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem W13_main_arg9 (c : Dev nD) : W13 m ρ c (Proc.devRef .tc main_arg9) = m ((c : Thread nD τ).loc main_arg9) :=
  (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem W13_main_arg10 (c : Dev nD) : W13 m ρ c (Proc.devRef .tc main_arg10) = m ((c : Thread nD τ).loc main_arg10) :=
  (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
theorem W13_main_arg11 (c : Dev nD) : W13 m ρ c (Proc.devRef .tc main_arg11) = m ((c : Thread nD τ).loc main_arg11) :=
  (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes` at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W13 m ρ c) ∗ ∃ r, prngReg c r)

end Cert.KernelIdeal.Hand

end
-- ==== Proof.RunSegsA.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import proofs.«142432_j2886218022958_1_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The regions as segments of @main -/

set_option backward.isDefEq.respectTransparency.types false in
/-- REGION 0 over the thread state: entered from every unscoped buffer at `W1`, left at `W2`. Its arrays are split
    out of the unscoped buffers and put back at the exit contents; the generator register goes into the region's
    invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (Phi_in1 (V3 m ρ) c)
    iintro ⟨Hp, -, Hr⟩
    isplitl [Hp]; · iexact Hp
    iexact Hr
  hout c := by
    rw [Pipeline.ownSems0_none, show (pdats m ρ 1 c).Φ (Fin.last _) = (dat1 (V3 m ρ) c).Φ (Fin.last cfg1.N) from rfl]
    refine (Phi_out1 (V3 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the region's
    invariant and comes back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are split
    out of the unscoped buffers and put back at the exit contents; the generator register goes into the region's
    invariant and comes back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunSegsB.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import proofs.«142432_j2886218022958_1_alg».proof.Proof.RunSegsA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The regions as segments of @main -/

set_option backward.isDefEq.respectTransparency.types false in
/-- REGION 4 over the thread state: entered from every unscoped buffer at `W8`, left at `W9`. Its arrays are split
    out of the unscoped buffers and put back at the exit contents; the generator register goes into the region's
    invariant and comes back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V8 m ρ) c).Φ 0 from rfl]
    refine .trans ?_ (Phi_in4 (V8 m ρ) c)
    iintro ⟨Hp, -, Hr⟩
    isplitl [Hp]; · iexact Hp
    iexact Hr
  hout c := by
    rw [Pipeline.ownSems0_none, show (pdats m ρ 4 c).Φ (Fin.last _) = (dat4 (V8 m ρ) c).Φ (Fin.last cfg4.N) from rfl]
    refine (Phi_out4 (V8 m ρ) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. Its arrays are split
    out of the unscoped buffers and put back at the exit contents; the generator register goes into the region's
    invariant and comes back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. Its arrays are split
    out of the unscoped buffers and put back at the exit contents; the generator register goes into the region's
    invariant and comes back; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
import proofs.«142432_j2886218022958_1_alg».proof.Proof.Gen.KernelIdeal.Launch
import proofs.«142432_j2886218022958_1_alg».proof.Proof.Gen.KernelIdeal.Skeleton
import proofs.«142432_j2886218022958_1_alg».proof.Proof.Gen.KernelIdeal.Points
import proofs.«142432_j2886218022958_1_alg».proof.Proof.Gen.KernelIdeal.Regions
import proofs.«142432_j2886218022958_1_alg».proof.Proof.RunSegsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)) ]

/-- The segments' fragments of @main are its items. -/
theorem segs_prog : (segs m ρ).map Pipeline.Seg.prog = (
    [ StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      StableHlo.seq hostOps5,
      Prog.lift (.customCall (Pipeline.entry 5) ()),
      Prog.lift (.customCall (Pipeline.entry 6) ()),
      StableHlo.seq hostOps7 ] : List (Prog (TpuEff nD τ sig (Elt F) (Pipeline.Sig Λ₀ (Fin 7) fun p => (pcfgs (F := F) p).Adm) .tc) PUnit)) := rfl

/-- @main is the run of the segments: it is the chain of its items, and the segments' run is the chain of their fragments. -/
theorem main_run (c : Dev nD) : main (F := F) c = Pipeline.Seg.run (segs m ρ) := by
  rw [main_chain c, Pipeline.Seg.run_eq_chain, segs_prog]

set_option backward.isDefEq.respectTransparency.types false in
/-- THE RUN: from any memory with zero counters, every weakly fair execution of @main on the TensorCores terminates,
    nothing faulting, and every final state has the two result arrays at the last boundary's contents and the argument
    arrays as launched. -/
theorem run : θ_run defs (onTc (τ := τ) (main (F := F))) ⟨m, fun _ => 0, ρ⟩ (fun r => ∀ c : Dev nD,
      r.2.mem ((c.tc : Thread nD τ).loc main_v70) = W13 m ρ c (Proc.devRef .tc main_v70)
      ∧ r.2.mem ((c.tc : Thread nD τ).loc main_v87) = W13 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c)
          ∗ (∃ r, prngReg c r) ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v70 (by decide)), h c _ (mem_uc main_v87 (by decide)),
        (h c _ (mem_uc main_arg0 (by decide))).trans (W13_main_arg0 m ρ c),
        (h c _ (mem_uc main_arg1 (by decide))).trans (W13_main_arg1 m ρ c),
        (h c _ (mem_uc main_arg2 (by decide))).trans (W13_main_arg2 m ρ c),
        (h c _ (mem_uc main_arg3 (by decide))).trans (W13_main_arg3 m ρ c),
        (h c _ (mem_uc main_arg4 (by decide))).trans (W13_main_arg4 m ρ c),
        (h c _ (mem_uc main_arg5 (by decide))).trans (W13_main_arg5 m ρ c),
        (h c _ (mem_uc main_arg6 (by decide))).trans (W13_main_arg6 m ρ c),
        (h c _ (mem_uc main_arg7 (by decide))).trans (W13_main_arg7 m ρ c),
        (h c _ (mem_uc main_arg8 (by decide))).trans (W13_main_arg8 m ρ c),
        (h c _ (mem_uc main_arg9 (by decide))).trans (W13_main_arg9 m ρ c),
        (h c _ (mem_uc main_arg10 (by decide))).trans (W13_main_arg10 m ρ c),
        (h c _ (mem_uc main_arg11 (by decide))).trans (W13_main_arg11 m ρ c)⟩)

/-- THE FRAME: every weakly fair execution of @main terminates, nothing faulting, and the argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run m ρ)

end Cert.KernelIdeal.Hand

end
-- ==== Proof.WRegMm.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered
variable (V : (c : Dev nD) → (b : Ref sig .tc) → Buf (Elt F) ((c : Thread nD τ).loc b))

/-! # Region 0: a row block times the whole right factor -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, the block
    index has not moved. Hypotheses: the data's array is the entry contents and its body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole left block, the whole right factor, the whole output block. -/
abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_o : Rect S5000x128 := Rect.unit (s := S5000x128) ![0, 0] S5000x128.size inb_S5000x128_S5000x128_0_0

/-- The output buffer after the body: its one store, the product of the two loaded operands. -/
def out0_2 (x0 : Vec F S5000x128 .f32) (x1 : Vec F S128x128 .f32) : Vec F S5000x128 .f32 :=
  View.canon [⟨r0_o, k0_pay1 (View.ld x0 r0_a) (View.ld x1 r0_b)⟩]

/-- The one store is the whole buffer. -/
theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole buffers, the operands' at `x0`, `x1` and the output's at anything, leaves the operands as they
    were and the output at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data on core `c`: the arrays at the entry contents; after the body each operand's buffer at its
    block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so `sound_kernel0` applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 3: a row block times the whole right factor -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not: unfetched, the block
    index has not moved. Hypotheses: the data's array is the entry contents and its body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole left block, the whole right factor, the whole output block. -/
abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_o : Rect S5000x128 := Rect.unit (s := S5000x128) ![0, 0] S5000x128.size inb_S5000x128_S5000x128_0_0

/-- The output buffer after the body: its one store, the product of the two loaded operands. -/
def out3_2 (x0 : Vec F S5000x128 .f32) (x1 : Vec F S128x128 .f32) : Vec F S5000x128 .f32 :=
  View.canon [⟨r3_o, k3_pay1 (View.ld x0 r3_a) (View.ld x1 r3_b)⟩]

/-- The one store is the whole buffer. -/
theorem cover3_2 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

set_option maxHeartbeats 1000000 in
/-- The body on whole buffers, the operands' at `x0`, `x1` and the output's at anything, leaves the operands as they
    were and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data on core `c`: the arrays at the entry contents; after the body each operand's buffer at its
    block and the output's at the product of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so `sound_kernel3` applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-! # Region 6: a row block times the whole right factor -/

/-- Window `w`'s block at point `t`, read off its array at the entry contents. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not: unfetched, the block
    index has not moved. Hypotheses: the data's array is the entry contents and its body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole left block, the whole right factor, the whole output block. -/
abbrev r6_a : Rect S5000x128 := Rect.unit (s := S5000x128) ![0, 0] S5000x128.size inb_S5000x128_S5000x128_0_0
abbrev r6_b : Rect S128x64 := Rect.unit (s := S128x64) ![0, 0] S128x64.size inb_S128x64_S128x64_0_0
abbrev r6_o : Rect S5000x64 := Rect.unit (s := S5000x64) ![0, 0] S5000x64.size inb_S5000x64_S5000x64_0_0

/-- The output buffer after the body: its one store, the product of the two loaded operands. -/
def out6_2 (x0 : Vec F S5000x128 .f32) (x1 : Vec F S128x64 .f32) : Vec F S5000x64 .f32 :=
  View.canon [⟨r6_o, k6_pay1 (View.ld x0 r6_a) (View.ld x1 r6_b)⟩]

/-- The one store is the whole buffer. -/
theorem cover6_2 (p0 : Vec F S5000x64 .f32) (y : S5000x64.Idx) :
    ∃ pc ∈ ([⟨r6_o, p0⟩] : List (View.Piece (Elt F) S5000x64 .f32)), y ∈ pc.1.set :=
  View.cover_of_tiled [⟨r6_o, p0⟩] S5000x64.size (by rfl) y

set_option maxHeartbeats 1000000 in
/-- The body on whole buffers, the operands' at `x0`, `x1` and the output's at anything, leaves the operands as they
    were and the output at `out6_2 x0 x1`. -/
theorem sound_kernel6 (c : Dev nD) (E : Set ℕ) (i : grid6.Coords) (arg1 : Memref sig .tc .vmem S5000x128 .f32) (harg1 : arg1.IsWhole)
    (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data on core `c`: the arrays at the entry contents; after the body each operand's buffer at its
    block and the output's at the product of the two blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the operands' buffers hold their blocks, so `sound_kernel6` applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.WRegAp.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a region is entered
variable (V : (c : Dev nD) → (b : Ref sig .tc) → Buf (Elt F) ((c : Thread nD τ).loc b))

/-! # Region 2: normalize a row block by the column statistics, scale, shift, clamp below at zero -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: unfetched, the block
    index has not moved. Hypotheses: the data's array is the entry contents and its body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole row block and the whole row vector. -/
abbrev r2_x : Rect S5000x128 := Rect.unit (s := S5000x128) ![0, 0] S5000x128.size inb_S5000x128_S5000x128_0_0
abbrev r2_v : Rect S1x128 := Rect.unit (s := S1x128) ![0, 0] S1x128.size inb_S1x128_S1x128_0_0

/-- The output buffer after the body: its one store, the payload of the five loaded operands. -/
def out2_5 (x0 : Vec F S5000x128 .f32) (x1 x2 x3 x4 : Vec F S1x128 .f32) : Vec F S5000x128 .f32 :=
  View.canon [⟨r2_x, k2_pay1 (View.ld x0 r2_x) (View.ld x1 r2_v) (View.ld x2 r2_v) (View.ld x3 r2_v) (View.ld x4 r2_v)⟩]

/-- The one store is the whole buffer. -/
theorem cover2_5 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole buffers, the five operands' at `x0 … x4` and the output's at anything, leaves the operands as
    they were and the output at `out2_5 x0 x1 x2 x3 x4`. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data on core `c`: the arrays at the entry contents; after the body each operand's buffer at its
    block and the output's at the payload of the five blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the operands' buffers hold their blocks, so `sound_kernel2` applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! # Region 5: normalize a row block by the column statistics, scale, shift, clamp below at zero -/

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not: unfetched, the block
    index has not moved. Hypotheses: the data's array is the entry contents and its body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole row block and the whole row vector. -/
abbrev r5_x : Rect S5000x128 := Rect.unit (s := S5000x128) ![0, 0] S5000x128.size inb_S5000x128_S5000x128_0_0
abbrev r5_v : Rect S1x128 := Rect.unit (s := S1x128) ![0, 0] S1x128.size inb_S1x128_S1x128_0_0

/-- The output buffer after the body: its one store, the payload of the five loaded operands. -/
def out5_5 (x0 : Vec F S5000x128 .f32) (x1 x2 x3 x4 : Vec F S1x128 .f32) : Vec F S5000x128 .f32 :=
  View.canon [⟨r5_x, k5_pay1 (View.ld x0 r5_x) (View.ld x1 r5_v) (View.ld x2 r5_v) (View.ld x3 r5_v) (View.ld x4 r5_v)⟩]

/-- The one store is the whole buffer. -/
theorem cover5_5 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 1000000 in
/-- The body on whole buffers, the five operands' at `x0 … x4` and the output's at anything, leaves the operands as
    they were and the output at `out5_5 x0 x1 x2 x3 x4`. -/
theorem sound_kernel5 (c : Dev nD) (E : Set ℕ) (i : grid5.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data on core `c`: the arrays at the entry contents; after the body each operand's buffer at its
    block and the output's at the payload of the five blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the operands' buffers hold their blocks, so `sound_kernel5` applies; the invariant and
    what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.WRegSt.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics region (custom_call 1): two running sums carried between grid points

The kernel keeps two 1×128 rows in scratch memory: the running column sums and the running column sums of
squares. At the first grid point both are zeroed; at every point the block's column sums are added; at the last
point the mean and the variance are computed from the two rows and stored to the two output windows. -/

/-! ## The two conditions over the grid, in closed form -/

/-- The first conditional's test: the grid coordinate is zero. -/
abbrev cond1_0 (i : grid1.Coords) : Prop :=
  (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is the last one. -/
abbrev cond1_1 (i : grid1.Coords) : Prop := k1_cond2 i = 1#1

/-- It holds at the last point only. -/
theorem hcond1_1 : ∀ t : Fin cfg1.N, cond1_1 (grid1.coords t) ↔ t.val = 19 :=
  (by decide +kernel : ∀ t : Fin grid1.N, cond1_1 (grid1.coords t) ↔ t.val = 19)

/-- The grid has twenty points. -/
theorem lt20_1 (t : Fin cfg1.N) : t.val < 20 := lt_of_lt_of_eq t.isLt (show cfg1.N = 20 from N_1)

/-! ## Where the windows are idle and where they are written back -/

/-- The input window is never idle. -/
theorem live1_0 : ∀ t : Fin cfg1.N, cfg1.idle 0 (grid1.coords t) = false := fun _ => rfl

/-- The two output windows are idle at every point but the last, -/
theorem idle1_1 : ∀ t : Fin cfg1.N, t.val ≠ 19 → cfg1.idle 1 (grid1.coords t) = true :=
  (by decide +kernel : ∀ t : Fin grid1.N, t.val ≠ 19 → cfg1.idle 1 (grid1.coords t) = true)
theorem idle1_2 : ∀ t : Fin cfg1.N, t.val ≠ 19 → cfg1.idle 2 (grid1.coords t) = true :=
  (by decide +kernel : ∀ t : Fin grid1.N, t.val ≠ 19 → cfg1.idle 2 (grid1.coords t) = true)

/-- live at the last, -/
theorem live1_1 : ∀ t : Fin cfg1.N, t.val = 19 → cfg1.idle 1 (grid1.coords t) = false :=
  (by decide +kernel : ∀ t : Fin grid1.N, t.val = 19 → cfg1.idle 1 (grid1.coords t) = false)
theorem live1_2 : ∀ t : Fin cfg1.N, t.val = 19 → cfg1.idle 2 (grid1.coords t) = false :=
  (by decide +kernel : ∀ t : Fin grid1.N, t.val = 19 → cfg1.idle 2 (grid1.coords t) = false)

/-- and not written back before the last. -/
theorem noflush1_1 (t : Fin cfg1.N) (h : t.val ≠ 19) : (cfg1.win 1).flush t = false :=
  Bool.eq_false_iff.mpr fun hf => h (by have := (flush1_1 t).mp hf; have := lt20_1 t; omega)
theorem noflush1_2 (t : Fin cfg1.N) (h : t.val ≠ 19) : (cfg1.win 2).flush t = false :=
  Bool.eq_false_iff.mpr fun hf => h (by have := (flush1_2 t).mp hf; have := lt20_1 t; omega)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## Whole-buffer loads and stores -/

/-- The zero offsets, as a constant function. -/
theorem off00 : (![0, 0] : Fin 2 → ℕ) = fun _ => 0 := by
  funext a; fin_cases a <;> rfl

/-- After a last store through the whole-shape rectangle the buffer reads as that store's payload. -/
theorem read_writes_whole {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- A load through the whole-shape rectangle reads the contents. -/
theorem readAt_whole {κ : Kind} {sp : Space} {S : Shape} {e : EltTy} (v : View sig κ sp S e)
    (f : v.ty.Contents (Elt F)) {off : Fin S.rank → ℕ} (h : off = fun _ => 0) (inb : ∀ a, off a + S.size a ≤ S.size a) :
    View.readAt (Elt F) v (Rect.unit off S.size inb).toLoadRect f = v.read (Elt F) f :=
  View.ld_unit_zero h inb (v.read (Elt F) f)

/-! ## The body's triple, case by case -/

set_option maxHeartbeats 1000000 in
/-- FIRST POINT: both running rows, found at anything, are zeroed and the block's column sums added. The output
    windows' memrefs are not touched (they stay outside the triple). -/
theorem sound_kernel1_A (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬cond1_1 i)
    (x0 : Vec F S5000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_writes_whole _ _ off00, readAt_whole _ _ off00, View.readCov_unit_zero _ off00]
  · iexists _; isplitr
    swap; · iexact HQ
    ipureintro
    sl_unfold_run_names
    rw [read_writes_whole _ _ off00, readAt_whole _ _ off00, View.readCov_unit_zero _ off00]

set_option maxHeartbeats 1000000 in
/-- A MIDDLE POINT: the block's column sums are added to both running rows. -/
theorem sound_kernel1_B (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : ¬cond1_1 i)
    (x0 : Vec F S5000x128 .f32) (xs xq : Vec F S1x128 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0 ∗ owns (c : Thread nD τ) arg4 fullShare (k1_pay4 x0 xs)
            ∗ owns (c : Thread nD τ) arg5 fullShare (k1_pay5 x0 xq)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    rw [read_writes_whole _ _ off00, readAt_whole _ _ off00, readAt_whole _ _ off00]
  · iexists _; isplitr
    swap; · iexact HQ
    ipureintro
    rw [read_writes_whole _ _ off00, readAt_whole _ _ off00, readAt_whole _ _ off00]

set_option maxHeartbeats 1000000 in
/-- THE LAST POINT: the block's column sums are added, then the mean and the variance are computed from the two
    rows and stored to the two output windows, found at anything. -/
theorem sound_kernel1_C (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : cond1_1 i)
    (x0 : Vec F S5000x128 .f32) (xs xq : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
            ∗ owns (c : Thread nD τ) arg2 fullShare (k1_pay6 (k1_pay4 x0 xs))
            ∗ owns (c : Thread nD τ) arg3 fullShare (k1_pay7 (k1_pay4 x0 xs) (k1_pay5 x0 xq))
            ∗ owns (c : Thread nD τ) arg4 fullShare (k1_pay4 x0 xs)
            ∗ owns (c : Thread nD τ) arg5 fullShare (k1_pay5 x0 xq)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [H2]
  · iexists _; isplitr
    swap; · iexact H2
    ipureintro
    sl_unfold_run_names
    rw [read_writes_whole _ _ off00, View.readCov_unit_zero _ off00, readAt_whole _ _ off00, readAt_whole _ _ off00]
  isplitl [H3]
  · iexists _; isplitr
    swap; · iexact H3
    ipureintro
    sl_unfold_run_names
    rw [read_writes_whole _ _ off00, View.readCov_unit_zero _ off00, View.readCov_unit_zero _ off00,
      readAt_whole _ _ off00, readAt_whole _ _ off00, readAt_whole _ _ off00]
  isplitl [HS]
  · iexists _; isplitr
    swap; · iexact HS
    ipureintro
    sl_unfold_run_names
    rw [read_writes_whole _ _ off00, readAt_whole _ _ off00, readAt_whole _ _ off00]
  · iexists _; isplitr
    swap; · iexact HQ
    ipureintro
    sl_unfold_run_names
    rw [read_writes_whole _ _ off00, readAt_whole _ _ off00, readAt_whole _ _ off00]

/-! ## The running rows, point by point -/

/-- The input block at position `n` of the grid (beyond the grid: the first block, never consulted). -/
def blk1N (c : Dev nD) (n : ℕ) : Vec F S5000x128 .f32 :=
  if h : n < cfg1.N then iblk1 V c 0 ⟨n, h⟩
  else iblk1 V c 0 ⟨0, lt_of_lt_of_eq (by decide : 0 < 20) (show 20 = cfg1.N from N_1.symm)⟩

theorem blk1N_fin (c : Dev nD) (t : Fin cfg1.N) : blk1N V c t.val = iblk1 V c 0 t := dif_pos t.isLt

/-- THE ACCUMULATION of the column sums: what the first scratch row holds after `n` points — the zero row, then
    at each point the block's column sums added (the skeleton's payloads). -/
def accS1 (c : Dev nD) : ℕ → Vec F S1x128 .f32
  | 0 => k1_pay1 (F := F)
  | n + 1 => k1_pay4 (blk1N V c n) (accS1 c n)

/-- THE ACCUMULATION of the column sums of squares: what the second scratch row holds after `n` points. -/
def accQ1 (c : Dev nD) : ℕ → Vec F S1x128 .f32
  | 0 => k1_pay2 (F := F)
  | n + 1 => k1_pay5 (blk1N V c n) (accQ1 c n)

theorem accS1_zero (c : Dev nD) : accS1 V c 0 = k1_pay1 (F := F) := rfl
theorem accQ1_zero (c : Dev nD) : accQ1 V c 0 = k1_pay2 (F := F) := rfl
theorem accS1_succ (c : Dev nD) (n : ℕ) : accS1 V c (n + 1) = k1_pay4 (blk1N V c n) (accS1 V c n) := rfl
theorem accQ1_succ (c : Dev nD) (n : ℕ) : accQ1 V c (n + 1) = k1_pay5 (blk1N V c n) (accQ1 V c n) := rfl

/-- After point `t`, from the rows before it. -/
theorem accS1_fin (c : Dev nD) (t : Fin cfg1.N) : accS1 V c (t.val + 1) = k1_pay4 (iblk1 V c 0 t) (accS1 V c t.val) := by
  rw [accS1_succ, blk1N_fin]
theorem accQ1_fin (c : Dev nD) (t : Fin cfg1.N) : accQ1 V c (t.val + 1) = k1_pay5 (iblk1 V c 0 t) (accQ1 V c t.val) := by
  rw [accQ1_succ, blk1N_fin]

/-! ## The region invariant -/

/-- The two scratch operands, whole scoped buffers of the kernel's own. -/
abbrev scS1 : Memref sig .tc .vmem S1x128 .f32 := Memref.whole cc1_scratch0
abbrev scQ1 : Memref sig .tc .vmem S1x128 .f32 := Memref.whole cc1_scratch1

/-- The scoped buffers that are neither staging buffers nor the two scratch rows, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the two scratch rows at anything; afterwards at the
    running sums `accS1` / `accQ1` of the points passed; with them the other scoped buffers and the generator
    register at some state. -/
def PhiSt1 (c : Dev nD) : ℕ → sProp 𝕄
  | 0 => iprop((∃ d, owns (c : Thread nD τ) scS1 fullShare d) ∗ (∃ d, owns (c : Thread nD τ) scQ1 fullShare d)
      ∗ rest1 (F := F) c ∗ (∃ r, prngReg c r))
  | n + 1 => iprop(owns (c : Thread nD τ) scS1 fullShare (accS1 V c (n + 1)) ∗ owns (c : Thread nD τ) scQ1 fullShare (accQ1 V c (n + 1))
      ∗ rest1 (F := F) c ∗ (∃ r, prngReg c r))

theorem PhiSt1_zero (c : Dev nD) (n : ℕ) (hz : n = 0) :
    PhiSt1 V c n = iprop((∃ d, owns (c : Thread nD τ) scS1 fullShare d) ∗ (∃ d, owns (c : Thread nD τ) scQ1 fullShare d)
      ∗ rest1 (F := F) c ∗ (∃ r, prngReg c r)) := by
  subst hz; rfl

theorem PhiSt1_pos (c : Dev nD) (n : ℕ) (hz : n ≠ 0) :
    PhiSt1 V c n = iprop(owns (c : Thread nD τ) scS1 fullShare (accS1 V c n) ∗ owns (c : Thread nD τ) scQ1 fullShare (accQ1 V c n)
      ∗ rest1 (F := F) c ∗ (∃ r, prngReg c r)) := by
  cases n with
  | zero => exact absurd rfl hz
  | succ n => rfl

/-! ## The pipeline's proof data -/

/-- The proof data of the pipeline on core `c`: the arrays as the region finds them; after the body at point `t`
    the input's buffer at its block, the mean's at the skeleton's quotient of the running sums after `t`, the
    variance's at the skeleton's difference (both stored at the last point only: elsewhere the windows are idle and
    these contents are not consulted); the invariant `PhiSt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (accS1 V c (t.val + 1))
    | ⟨2, _⟩ => k1_pay7 (accS1 V c (t.val + 1)) (accQ1 V c (t.val + 1))
  Φ t := PhiSt1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay6 (accS1 V c (t.val + 1)) := by dsimp only [dat1]
theorem after1_2 (c : Dev nD) (t : Fin cfg1.N) :
    (dat1 V c).after 2 t = k1_pay7 (accS1 V c (t.val + 1)) (accQ1 V c (t.val + 1)) := by dsimp only [dat1]

/-- What the two output windows hold when they are written back (the last point): the mean and the variance of
    the running sums over all twenty points. -/
theorem after1_1_last (c : Dev nD) (h : 19 < cfg1.N) : (dat1 V c).after 1 ⟨19, h⟩ = k1_pay6 (accS1 V c 20) := by
  dsimp only [dat1]
theorem after1_2_last (c : Dev nD) (h : 19 < cfg1.N) :
    (dat1 V c).after 2 ⟨19, h⟩ = k1_pay7 (accS1 V c 20) (accQ1 V c 20) := by
  dsimp only [dat1]

theorem Phi1_castSucc (c : Dev nD) (t : Fin cfg1.N) : (dat1 V c).Φ t.castSucc = PhiSt1 V c t.val := by
  dsimp only [dat1]; simp only [Fin.coe_castSucc]
theorem Phi1_succ (c : Dev nD) (t : Fin cfg1.N) : (dat1 V c).Φ t.succ = PhiSt1 V c (t.val + 1) := rfl

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case: the input's memref holds its block; the invariant hands the body
    the two scratch rows at the running sums of the points passed (at anything at the first point) and takes them
    back at the sums through this point; before the last point the output windows' buffers are handed back as
    found, at the last point they are left at the mean and the variance; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [live1_0 t], after1_0]
  have hN := lt20_1 t
  by_cases h0 : t.val = 0
  · have h1 : t.val ≠ 19 := by omega
    rw [Dat.leavesExact_idle (dat1 V c) 1 t (idle1_1 t h1) (noflush1_1 t h1),
      Dat.leavesExact_idle (dat1 V c) 2 t (idle1_2 t h1) (noflush1_2 t h1)]
    rw [PhiSt1_zero V c _ h0, PhiSt1_pos V c _ (Nat.succ_ne_zero _), accS1_fin, accQ1_fin, h0, accS1_zero, accQ1_zero]
    iintro ⟨⟨HS, HQ, HR, Hg⟩, Ho, ⟨%d0, H0⟩, H1, H2⟩
    iapply (sound_kernel1_A c Set.univ (grid1.coords t) _ _ _ _ _ _ _ _ _ _ ((hcond1_0 t).mpr h0) (fun h => h1 ((hcond1_1 t).mp h)) (iblk1 V c 0 t) _)
    isplitl [H0]; · iexact H0
    isplitl [HS]; · iexact HS
    isplitl [HQ]; · iexact HQ
    iintro ⟨H0, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · by_cases h1 : t.val = 19
    · rw [show (dat1 V c).leavesExact 1 t = owns (c : Thread nD τ) (st1_1 t) fullShare ((dat1 V c).after 1 t) from by
        unfold Dat.leavesExact; rw [live1_1 t h1], after1_1]
      rw [show (dat1 V c).leavesExact 2 t = owns (c : Thread nD τ) (st1_2 t) fullShare ((dat1 V c).after 2 t) from by
        unfold Dat.leavesExact; rw [live1_2 t h1], after1_2]
      rw [PhiSt1_pos V c _ h0, PhiSt1_pos V c _ (Nat.succ_ne_zero _), accS1_fin, accQ1_fin]
      iintro ⟨⟨HS, HQ, HR, Hg⟩, Ho, ⟨%d0, H0⟩, ⟨%d1, H1⟩, ⟨%d2, H2⟩⟩
      iapply (sound_kernel1_C c Set.univ (grid1.coords t) _ _ _ _ _ _ _ _ _ _ (fun h => h0 ((hcond1_0 t).mp h)) ((hcond1_1 t).mpr h1) (iblk1 V c 0 t) _ _ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · rw [Dat.leavesExact_idle (dat1 V c) 1 t (idle1_1 t h1) (noflush1_1 t h1),
        Dat.leavesExact_idle (dat1 V c) 2 t (idle1_2 t h1) (noflush1_2 t h1)]
      rw [PhiSt1_pos V c _ h0, PhiSt1_pos V c _ (Nat.succ_ne_zero _), accS1_fin, accQ1_fin]
      iintro ⟨⟨HS, HQ, HR, Hg⟩, Ho, ⟨%d0, H0⟩, H1, H2⟩
      iapply (sound_kernel1_B c Set.univ (grid1.coords t) _ _ _ _ _ _ _ _ _ _ (fun h => h0 ((hcond1_0 t).mp h)) (fun h => h1 ((hcond1_1 t).mp h)) (iblk1 V c 0 t) _ _ _)
      isplitl [H0]; · iexact H0
      isplitl [HS]; · iexact HS
      isplitl [HQ]; · iexact HQ
      iintro ⟨H0, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region — the scoped rest and the generator register — is the invariant before the
    first point: the two scratch rows are split out of the scoped rest. -/
theorem Phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiSt1 V c 0 from rfl, PhiSt1_zero V c 0 rfl, scopedRest1_split]
  simp only [scS1, scQ1, owns_whole]
  iintro ⟨Hg, ⟨HS, HQ⟩, HR⟩
  isplitl [HS]; · iexact HS
  isplitl [HQ]; · iexact HQ
  isplitl [HR]; · iexact HR
  iexact Hg

/-- The same from the class's invariant (the scoped rest first). -/
theorem PhiA_in1 (c : Dev nD) : Pipeline.ΦA spec1 c ⊢ (dat1 V c).Φ 0 := by
  unfold Pipeline.ΦA
  iintro ⟨HR, Hg⟩
  iapply (Phi_in1 V c)
  isplitl [Hg]; · iexact Hg
  iexact HR

/-- After the last point the invariant gives the scoped rest and the generator register back: the running sums'
    named contents are forgotten. -/
theorem Phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiSt1 V c cfg1.N from rfl,
    PhiSt1_pos V c _ (by rw [show cfg1.N = 20 from N_1]; decide), scopedRest1_split]
  simp only [scS1, scQ1, owns_whole]
  iintro ⟨HS, HQ, HR, Hg⟩
  isplitl [Hg]; · iexact Hg
  isplitl [HS HQ]
  · isplitl [HS]; · iexists _; iexact HS
    iexists _; iexact HQ
  iexact HR

theorem PhiA_out1 (c : Dev nD) : (dat1 V c).Φ (Fin.last cfg1.N) ⊢ Pipeline.ΦA spec1 c := by
  unfold Pipeline.ΦA
  iintro H
  ihave H2 := (Phi_out1 V c) $$ H
  icases H2 with ⟨Hg, HR⟩
  isplitl [HR]; · iexact HR
  iexact Hg

/-! # The second column-statistics region (custom_call 4): two running sums carried between grid points

The kernel keeps two 1×128 rows in scratch memory: the running column sums and the running column sums of
squares. At the first grid point both are zeroed; at every point the block's column sums are added; at the last
point the mean and the variance are computed from the two rows and stored to the two output windows. -/

/-! ## The two conditions over the grid, in closed form -/

/-- The first conditional's test: the grid coordinate is zero. -/
abbrev cond4_0 (i : grid4.Coords) : Prop :=
  (Scalar.cmpi .ne (Scalar.extui (Scalar.cmpi .eq (BitVec.ofNat 32 (i 0).val) 0#32)) 0#32) = 1#1

/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional's test: the grid coordinate is the last one. -/
abbrev cond4_1 (i : grid4.Coords) : Prop := k4_cond2 i = 1#1

/-- It holds at the last point only. -/
theorem hcond4_1 : ∀ t : Fin cfg4.N, cond4_1 (grid4.coords t) ↔ t.val = 19 :=
  (by decide +kernel : ∀ t : Fin grid4.N, cond4_1 (grid4.coords t) ↔ t.val = 19)

/-- The grid has twenty points. -/
theorem lt20_4 (t : Fin cfg4.N) : t.val < 20 := lt_of_lt_of_eq t.isLt (show cfg4.N = 20 from N_4)

/-! ## Where the windows are idle and where they are written back -/

/-- The input window is never idle. -/
theorem live4_0 : ∀ t : Fin cfg4.N, cfg4.idle 0 (grid4.coords t) = false := fun _ => rfl

/-- The two output windows are idle at every point but the last, -/
theorem idle4_1 : ∀ t : Fin cfg4.N, t.val ≠ 19 → cfg4.idle 1 (grid4.coords t) = true :=
  (by decide +kernel : ∀ t : Fin grid4.N, t.val ≠ 19 → cfg4.idle 1 (grid4.coords t) = true)
theorem idle4_2 : ∀ t : Fin cfg4.N, t.val ≠ 19 → cfg4.idle 2 (grid4.coords t) = true :=
  (by decide +kernel : ∀ t : Fin grid4.N, t.val ≠ 19 → cfg4.idle 2 (grid4.coords t) = true)

/-- live at the last, -/
theorem live4_1 : ∀ t : Fin cfg4.N, t.val = 19 → cfg4.idle 1 (grid4.coords t) = false :=
  (by decide +kernel : ∀ t : Fin grid4.N, t.val = 19 → cfg4.idle 1 (grid4.coords t) = false)
theorem live4_2 : ∀ t : Fin cfg4.N, t.val = 19 → cfg4.idle 2 (grid4.coords t) = false :=
  (by decide +kernel : ∀ t : Fin grid4.N, t.val = 19 → cfg4.idle 2 (grid4.coords t) = false)

/-- and not written back before the last. -/
theorem noflush4_1 (t : Fin cfg4.N) (h : t.val ≠ 19) : (cfg4.win 1).flush t = false :=
  Bool.eq_false_iff.mpr fun hf => h (by have := (flush4_1 t).mp hf; have := lt20_4 t; omega)
theorem noflush4_2 (t : Fin cfg4.N) (h : t.val ≠ 19) : (cfg4.win 2).flush t = false :=
  Bool.eq_false_iff.mpr fun hf => h (by have := (flush4_2 t).mp hf; have := lt20_4 t; omega)

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's triple, case by case -/

set_option maxHeartbeats 1000000 in
/-- FIRST POINT: both running rows, found at anything, are zeroed and the block's column sums added. The output
    windows' memrefs are not touched (they stay outside the triple). -/
theorem sound_kernel4_A (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond4_0 i) (hc1 : ¬cond4_1 i)
    (x0 : Vec F S5000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k4_pay4 x0 (k4_pay1 (F := F)))
            ∗ owns (c : Thread nD τ) arg5 fullShare (k4_pay5 x0 (k4_pay2 (F := F)))) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_writes_whole _ _ off00, readAt_whole _ _ off00, View.readCov_unit_zero _ off00]
  · iexists _; isplitr
    swap; · iexact HQ
    ipureintro
    sl_unfold_run_names
    rw [read_writes_whole _ _ off00, readAt_whole _ _ off00, View.readCov_unit_zero _ off00]

set_option maxHeartbeats 1000000 in
/-- A MIDDLE POINT: the block's column sums are added to both running rows. -/
theorem sound_kernel4_B (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond4_0 i) (hc1 : ¬cond4_1 i)
    (x0 : Vec F S5000x128 .f32) (xs xq : Vec F S1x128 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0 ∗ owns (c : Thread nD τ) arg4 fullShare (k4_pay4 x0 xs)
            ∗ owns (c : Thread nD τ) arg5 fullShare (k4_pay5 x0 xq)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    rw [read_writes_whole _ _ off00, readAt_whole _ _ off00, readAt_whole _ _ off00]
  · iexists _; isplitr
    swap; · iexact HQ
    ipureintro
    rw [read_writes_whole _ _ off00, readAt_whole _ _ off00, readAt_whole _ _ off00]

set_option maxHeartbeats 1000000 in
/-- THE LAST POINT: the block's column sums are added, then the mean and the variance are computed from the two
    rows and stored to the two output windows, found at anything. -/
theorem sound_kernel4_C (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond4_0 i) (hc1 : cond4_1 i)
    (x0 : Vec F S5000x128 .f32) (xs xq : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
            ∗ owns (c : Thread nD τ) arg2 fullShare (k4_pay6 (k4_pay4 x0 xs))
            ∗ owns (c : Thread nD τ) arg3 fullShare (k4_pay7 (k4_pay4 x0 xs) (k4_pay5 x0 xq))
            ∗ owns (c : Thread nD τ) arg4 fullShare (k4_pay4 x0 xs)
            ∗ owns (c : Thread nD τ) arg5 fullShare (k4_pay5 x0 xq)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d2, %f2, -, H2⟩, ⟨%d3, %f3, -, H3⟩, ⟨%fs, %hfs, HS⟩, ⟨%fq, %hfq, HQ⟩, Hk⟩
  subst hf0; subst hfs; subst hfq
  sl_exec (disch := first | exact hc0 | exact hc1)
  sl_step
  iapply Hk
  isplitl [H0]
  · iexists f0; isplitr; · ipureintro; rfl
    iexact H0
  isplitl [H2]
  · iexists _; isplitr
    swap; · iexact H2
    ipureintro
    sl_unfold_run_names
    rw [read_writes_whole _ _ off00, View.readCov_unit_zero _ off00, readAt_whole _ _ off00, readAt_whole _ _ off00]
  isplitl [H3]
  · iexists _; isplitr
    swap; · iexact H3
    ipureintro
    sl_unfold_run_names
    rw [read_writes_whole _ _ off00, View.readCov_unit_zero _ off00, View.readCov_unit_zero _ off00,
      readAt_whole _ _ off00, readAt_whole _ _ off00, readAt_whole _ _ off00]
  isplitl [HS]
  · iexists _; isplitr
    swap; · iexact HS
    ipureintro
    sl_unfold_run_names
    rw [read_writes_whole _ _ off00, readAt_whole _ _ off00, readAt_whole _ _ off00]
  · iexists _; isplitr
    swap; · iexact HQ
    ipureintro
    sl_unfold_run_names
    rw [read_writes_whole _ _ off00, readAt_whole _ _ off00, readAt_whole _ _ off00]

/-! ## The running rows, point by point -/

/-- The input block at position `n` of the grid (beyond the grid: the first block, never consulted). -/
def blk4N (c : Dev nD) (n : ℕ) : Vec F S5000x128 .f32 :=
  if h : n < cfg4.N then iblk4 V c 0 ⟨n, h⟩
  else iblk4 V c 0 ⟨0, lt_of_lt_of_eq (by decide : 0 < 20) (show 20 = cfg4.N from N_4.symm)⟩

theorem blk4N_fin (c : Dev nD) (t : Fin cfg4.N) : blk4N V c t.val = iblk4 V c 0 t := dif_pos t.isLt

/-- THE ACCUMULATION of the column sums: what the first scratch row holds after `n` points — the zero row, then
    at each point the block's column sums added (the skeleton's payloads). -/
def accS4 (c : Dev nD) : ℕ → Vec F S1x128 .f32
  | 0 => k4_pay1 (F := F)
  | n + 1 => k4_pay4 (blk4N V c n) (accS4 c n)

/-- THE ACCUMULATION of the column sums of squares: what the second scratch row holds after `n` points. -/
def accQ4 (c : Dev nD) : ℕ → Vec F S1x128 .f32
  | 0 => k4_pay2 (F := F)
  | n + 1 => k4_pay5 (blk4N V c n) (accQ4 c n)

theorem accS4_zero (c : Dev nD) : accS4 V c 0 = k4_pay1 (F := F) := rfl
theorem accQ4_zero (c : Dev nD) : accQ4 V c 0 = k4_pay2 (F := F) := rfl
theorem accS4_succ (c : Dev nD) (n : ℕ) : accS4 V c (n + 1) = k4_pay4 (blk4N V c n) (accS4 V c n) := rfl
theorem accQ4_succ (c : Dev nD) (n : ℕ) : accQ4 V c (n + 1) = k4_pay5 (blk4N V c n) (accQ4 V c n) := rfl

/-- After point `t`, from the rows before it. -/
theorem accS4_fin (c : Dev nD) (t : Fin cfg4.N) : accS4 V c (t.val + 1) = k4_pay4 (iblk4 V c 0 t) (accS4 V c t.val) := by
  rw [accS4_succ, blk4N_fin]
theorem accQ4_fin (c : Dev nD) (t : Fin cfg4.N) : accQ4 V c (t.val + 1) = k4_pay5 (iblk4 V c 0 t) (accQ4 V c t.val) := by
  rw [accQ4_succ, blk4N_fin]

/-! ## The region invariant -/

/-- The two scratch operands, whole scoped buffers of the kernel's own. -/
abbrev scS4 : Memref sig .tc .vmem S1x128 .f32 := Memref.whole cc4_scratch0
abbrev scQ4 : Memref sig .tc .vmem S1x128 .f32 := Memref.whole cc4_scratch1

/-- The scoped buffers that are neither staging buffers nor the two scratch rows, unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The invariant before position `n`: before the first point the two scratch rows at anything; afterwards at the
    running sums `accS4` / `accQ4` of the points passed; with them the other scoped buffers and the generator
    register at some state. -/
def PhiSt4 (c : Dev nD) : ℕ → sProp 𝕄
  | 0 => iprop((∃ d, owns (c : Thread nD τ) scS4 fullShare d) ∗ (∃ d, owns (c : Thread nD τ) scQ4 fullShare d)
      ∗ rest4 (F := F) c ∗ (∃ r, prngReg c r))
  | n + 1 => iprop(owns (c : Thread nD τ) scS4 fullShare (accS4 V c (n + 1)) ∗ owns (c : Thread nD τ) scQ4 fullShare (accQ4 V c (n + 1))
      ∗ rest4 (F := F) c ∗ (∃ r, prngReg c r))

theorem PhiSt4_zero (c : Dev nD) (n : ℕ) (hz : n = 0) :
    PhiSt4 V c n = iprop((∃ d, owns (c : Thread nD τ) scS4 fullShare d) ∗ (∃ d, owns (c : Thread nD τ) scQ4 fullShare d)
      ∗ rest4 (F := F) c ∗ (∃ r, prngReg c r)) := by
  subst hz; rfl

theorem PhiSt4_pos (c : Dev nD) (n : ℕ) (hz : n ≠ 0) :
    PhiSt4 V c n = iprop(owns (c : Thread nD τ) scS4 fullShare (accS4 V c n) ∗ owns (c : Thread nD τ) scQ4 fullShare (accQ4 V c n)
      ∗ rest4 (F := F) c ∗ (∃ r, prngReg c r)) := by
  cases n with
  | zero => exact absurd rfl hz
  | succ n => rfl

/-! ## The pipeline's proof data -/

/-- The proof data of the pipeline on core `c`: the arrays as the region finds them; after the body at point `t`
    the input's buffer at its block, the mean's at the skeleton's quotient of the running sums after `t`, the
    variance's at the skeleton's difference (both stored at the last point only: elsewhere the windows are idle and
    these contents are not consulted); the invariant `PhiSt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (accS4 V c (t.val + 1))
    | ⟨2, _⟩ => k4_pay7 (accS4 V c (t.val + 1)) (accQ4 V c (t.val + 1))
  Φ t := PhiSt4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay6 (accS4 V c (t.val + 1)) := by dsimp only [dat4]
theorem after4_2 (c : Dev nD) (t : Fin cfg4.N) :
    (dat4 V c).after 2 t = k4_pay7 (accS4 V c (t.val + 1)) (accQ4 V c (t.val + 1)) := by dsimp only [dat4]

/-- What the two output windows hold when they are written back (the last point): the mean and the variance of
    the running sums over all twenty points. -/
theorem after4_1_last (c : Dev nD) (h : 19 < cfg4.N) : (dat4 V c).after 1 ⟨19, h⟩ = k4_pay6 (accS4 V c 20) := by
  dsimp only [dat4]
theorem after4_2_last (c : Dev nD) (h : 19 < cfg4.N) :
    (dat4 V c).after 2 ⟨19, h⟩ = k4_pay7 (accS4 V c 20) (accQ4 V c 20) := by
  dsimp only [dat4]

theorem Phi4_castSucc (c : Dev nD) (t : Fin cfg4.N) : (dat4 V c).Φ t.castSucc = PhiSt4 V c t.val := by
  dsimp only [dat4]; simp only [Fin.coe_castSucc]
theorem Phi4_succ (c : Dev nD) (t : Fin cfg4.N) : (dat4 V c).Φ t.succ = PhiSt4 V c (t.val + 1) := rfl

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the point's case: the input's memref holds its block; the invariant hands the body
    the two scratch rows at the running sums of the points passed (at anything at the first point) and takes them
    back at the sums through this point; before the last point the output windows' buffers are handed back as
    found, at the last point they are left at the mean and the variance; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [Phi4_castSucc, Phi4_succ]
  rw [show (dat4 V c).leavesExact 0 t = owns (c : Thread nD τ) (st4_0 t) fullShare ((dat4 V c).after 0 t) from by
    unfold Dat.leavesExact; rw [live4_0 t], after4_0]
  have hN := lt20_4 t
  by_cases h0 : t.val = 0
  · have h1 : t.val ≠ 19 := by omega
    rw [Dat.leavesExact_idle (dat4 V c) 1 t (idle4_1 t h1) (noflush4_1 t h1),
      Dat.leavesExact_idle (dat4 V c) 2 t (idle4_2 t h1) (noflush4_2 t h1)]
    rw [PhiSt4_zero V c _ h0, PhiSt4_pos V c _ (Nat.succ_ne_zero _), accS4_fin, accQ4_fin, h0, accS4_zero, accQ4_zero]
    iintro ⟨⟨HS, HQ, HR, Hg⟩, Ho, ⟨%d0, H0⟩, H1, H2⟩
    iapply (sound_kernel4_A c Set.univ (grid4.coords t) _ _ _ _ _ _ _ _ _ _ ((hcond4_0 t).mpr h0) (fun h => h1 ((hcond4_1 t).mp h)) (iblk4 V c 0 t) _)
    isplitl [H0]; · iexact H0
    isplitl [HS]; · iexact HS
    isplitl [HQ]; · iexact HQ
    iintro ⟨H0, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · by_cases h1 : t.val = 19
    · rw [show (dat4 V c).leavesExact 1 t = owns (c : Thread nD τ) (st4_1 t) fullShare ((dat4 V c).after 1 t) from by
        unfold Dat.leavesExact; rw [live4_1 t h1], after4_1]
      rw [show (dat4 V c).leavesExact 2 t = owns (c : Thread nD τ) (st4_2 t) fullShare ((dat4 V c).after 2 t) from by
        unfold Dat.leavesExact; rw [live4_2 t h1], after4_2]
      rw [PhiSt4_pos V c _ h0, PhiSt4_pos V c _ (Nat.succ_ne_zero _), accS4_fin, accQ4_fin]
      iintro ⟨⟨HS, HQ, HR, Hg⟩, Ho, ⟨%d0, H0⟩, ⟨%d1, H1⟩, ⟨%d2, H2⟩⟩
      iapply (sound_kernel4_C c Set.univ (grid4.coords t) _ _ _ _ _ _ _ _ _ _ (fun h => h0 ((hcond4_0 t).mp h)) ((hcond4_1 t).mpr h1) (iblk4 V c 0 t) _ _ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · rw [Dat.leavesExact_idle (dat4 V c) 1 t (idle4_1 t h1) (noflush4_1 t h1),
        Dat.leavesExact_idle (dat4 V c) 2 t (idle4_2 t h1) (noflush4_2 t h1)]
      rw [PhiSt4_pos V c _ h0, PhiSt4_pos V c _ (Nat.succ_ne_zero _), accS4_fin, accQ4_fin]
      iintro ⟨⟨HS, HQ, HR, Hg⟩, Ho, ⟨%d0, H0⟩, H1, H2⟩
      iapply (sound_kernel4_B c Set.univ (grid4.coords t) _ _ _ _ _ _ _ _ _ _ (fun h => h0 ((hcond4_0 t).mp h)) (fun h => h1 ((hcond4_1 t).mp h)) (iblk4 V c 0 t) _ _ _)
      isplitl [H0]; · iexact H0
      isplitl [HS]; · iexact HS
      isplitl [HQ]; · iexact HQ
      iintro ⟨H0, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the launch hands the region — the scoped rest and the generator register — is the invariant before the
    first point: the two scratch rows are split out of the scoped rest. -/
theorem Phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = PhiSt4 V c 0 from rfl, PhiSt4_zero V c 0 rfl, scopedRest4_split]
  simp only [scS4, scQ4, owns_whole]
  iintro ⟨Hg, ⟨HS, HQ⟩, HR⟩
  isplitl [HS]; · iexact HS
  isplitl [HQ]; · iexact HQ
  isplitl [HR]; · iexact HR
  iexact Hg

/-- The same from the class's invariant (the scoped rest first). -/
theorem PhiA_in4 (c : Dev nD) : Pipeline.ΦA spec4 c ⊢ (dat4 V c).Φ 0 := by
  unfold Pipeline.ΦA
  iintro ⟨HR, Hg⟩
  iapply (Phi_in4 V c)
  isplitl [Hg]; · iexact Hg
  iexact HR

/-- After the last point the invariant gives the scoped rest and the generator register back: the running sums'
    named contents are forgotten. -/
theorem Phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiSt4 V c cfg4.N from rfl,
    PhiSt4_pos V c _ (by rw [show cfg4.N = 20 from N_4]; decide), scopedRest4_split]
  simp only [scS4, scQ4, owns_whole]
  iintro ⟨HS, HQ, HR, Hg⟩
  isplitl [Hg]; · iexact Hg
  isplitl [HS HQ]
  · isplitl [HS]; · iexists _; iexact HS
    iexists _; iexact HQ
  iexact HR

theorem PhiA_out4 (c : Dev nD) : (dat4 V c).Φ (Fin.last cfg4.N) ⊢ Pipeline.ΦA spec4 c := by
  unfold Pipeline.ΦA
  iintro H
  ihave H2 := (Phi_out4 V c) $$ H
  icases H2 with ⟨Hg, HR⟩
  isplitl [HR]; · iexact HR
  iexact Hg

end Cert.Kernel.Hand

end
-- ==== Proof.WRunFold.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import proofs.«142432_j2886218022958_1_alg».proof.Proof.Gen.Kernel.Regions
import proofs.«142432_j2886218022958_1_alg».proof.Proof.WRegMm
import proofs.«142432_j2886218022958_1_alg».proof.Proof.WRegAp
import proofs.«142432_j2886218022958_1_alg».proof.Proof.WRegSt
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

A host stretch takes the contents to `StableHlo.after` of its operations; a region leaves its arrays at what its
write-backs fold to (`Dat.arrAt … N`) and every other buffer as entered (`Pipeline.withArrays`). -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- Boundary 1's contents read at the TensorCore's references. -/
abbrev V1 : (c : Dev nD) → (b : Ref sig .tc) → Buf (Elt F) ((c : Thread nD τ).loc b) := fun c b => W1 m ρ c b
/-- A buffer `hostOps0` does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Boundary 2's contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Every buffer but region 0's output arrays leaves it as it entered. -/
theorem W2_keep (c : Dev nD) (r : Ref sig .tc) (h : r ∉ ([main_v29] : List (Ref sig .tc))) :
    W2 m ρ c (Proc.devRef .tc r) = W1 m ρ c (Proc.devRef .tc r) := by
  by_cases hr : ∃ w, Pipeline.arrRef spec0 w = r
  · obtain ⟨w, rfl⟩ := hr
    exact W2_in m ρ c w ((show ∀ w : Fin cfg0.W, Pipeline.arrRef spec0 w ∉ ([main_v29] : List (Ref sig .tc)) → (cfg0.win w).isOut = false from by decide) w h)
  · exact W2_of_ne m ρ c r fun w e => hr ⟨w, e⟩

/-- After `hostOps1`. -/
abbrev W3 : Dev nD → Valuation τ sig (Elt F) := fun c => StableHlo.after hostOps1 (W2 m ρ c)
/-- Boundary 3's contents read at the TensorCore's references. -/
abbrev V3 : (c : Dev nD) → (b : Ref sig .tc) → Buf (Elt F) ((c : Thread nD τ).loc b) := fun c b => W3 m ρ c b
/-- A buffer `hostOps1` does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Boundary 4's contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Every buffer but region 1's output arrays leaves it as it entered. -/
theorem W4_keep (c : Dev nD) (r : Ref sig .tc) (h : r ∉ ([main_v46_0, main_v46_1] : List (Ref sig .tc))) :
    W4 m ρ c (Proc.devRef .tc r) = W3 m ρ c (Proc.devRef .tc r) := by
  by_cases hr : ∃ w, Pipeline.arrRef spec1 w = r
  · obtain ⟨w, rfl⟩ := hr
    exact W4_in m ρ c w ((show ∀ w : Fin cfg1.W, Pipeline.arrRef spec1 w ∉ ([main_v46_0, main_v46_1] : List (Ref sig .tc)) → (cfg1.win w).isOut = false from by decide) w h)
  · exact W4_of_ne m ρ c r fun w e => hr ⟨w, e⟩

/-- After `hostOps2`. -/
abbrev W5 : Dev nD → Valuation τ sig (Elt F) := fun c => StableHlo.after hostOps2 (W4 m ρ c)
/-- Boundary 5's contents read at the TensorCore's references. -/
abbrev V5 : (c : Dev nD) → (b : Ref sig .tc) → Buf (Elt F) ((c : Thread nD τ).loc b) := fun c b => W5 m ρ c b
/-- A buffer `hostOps2` does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Boundary 6's contents read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Every buffer but region 2's output arrays leaves it as it entered. -/
theorem W6_keep (c : Dev nD) (r : Ref sig .tc) (h : r ∉ ([main_v49] : List (Ref sig .tc))) :
    W6 m ρ c (Proc.devRef .tc r) = W5 m ρ c (Proc.devRef .tc r) := by
  by_cases hr : ∃ w, Pipeline.arrRef spec2 w = r
  · obtain ⟨w, rfl⟩ := hr
    exact W6_in m ρ c w ((show ∀ w : Fin cfg2.W, Pipeline.arrRef spec2 w ∉ ([main_v49] : List (Ref sig .tc)) → (cfg2.win w).isOut = false from by decide) w h)
  · exact W6_of_ne m ρ c r fun w e => hr ⟨w, e⟩

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Boundary 7's contents read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
/-- Every buffer but region 3's output arrays leaves it as it entered. -/
theorem W7_keep (c : Dev nD) (r : Ref sig .tc) (h : r ∉ ([main_v50] : List (Ref sig .tc))) :
    W7 m ρ c (Proc.devRef .tc r) = W6 m ρ c (Proc.devRef .tc r) := by
  by_cases hr : ∃ w, Pipeline.arrRef spec3 w = r
  · obtain ⟨w, rfl⟩ := hr
    exact W7_in m ρ c w ((show ∀ w : Fin cfg3.W, Pipeline.arrRef spec3 w ∉ ([main_v50] : List (Ref sig .tc)) → (cfg3.win w).isOut = false from by decide) w h)
  · exact W7_of_ne m ρ c r fun w e => hr ⟨w, e⟩

/-- After `hostOps4`. -/
abbrev W8 : Dev nD → Valuation τ sig (Elt F) := fun c => StableHlo.after hostOps4 (W7 m ρ c)
/-- Boundary 8's contents read at the TensorCore's references. -/
abbrev V8 : (c : Dev nD) → (b : Ref sig .tc) → Buf (Elt F) ((c : Thread nD τ).loc b) := fun c b => W8 m ρ c b
/-- A buffer `hostOps4` does not write is as before it. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- Boundary 9's contents read at the TensorCore's references. -/
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- An input window's array leaves region 4 as it entered. -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
/-- Every buffer but region 4's output arrays leaves it as it entered. -/
theorem W9_keep (c : Dev nD) (r : Ref sig .tc) (h : r ∉ ([main_v67_0, main_v67_1] : List (Ref sig .tc))) :
    W9 m ρ c (Proc.devRef .tc r) = W8 m ρ c (Proc.devRef .tc r) := by
  by_cases hr : ∃ w, Pipeline.arrRef spec4 w = r
  · obtain ⟨w, rfl⟩ := hr
    exact W9_in m ρ c w ((show ∀ w : Fin cfg4.W, Pipeline.arrRef spec4 w ∉ ([main_v67_0, main_v67_1] : List (Ref sig .tc)) → (cfg4.win w).isOut = false from by decide) w h)
  · exact W9_of_ne m ρ c r fun w e => hr ⟨w, e⟩

/-- After `hostOps5`. -/
abbrev W10 : Dev nD → Valuation τ sig (Elt F) := fun c => StableHlo.after hostOps5 (W9 m ρ c)
/-- Boundary 10's contents read at the TensorCore's references. -/
abbrev V10 : (c : Dev nD) → (b : Ref sig .tc) → Buf (Elt F) ((c : Thread nD τ).loc b) := fun c b => W10 m ρ c b
/-- A buffer `hostOps5` does not write is as before it. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- Boundary 11's contents read at the TensorCore's references. -/
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- An input window's array leaves region 5 as it entered. -/
theorem W11_in (c : Dev nD) (w : Fin cfg5.W) (hin : (cfg5.win w).isOut = false) :
    W11 m ρ c (Proc.devRef .tc (Pipeline.arrRef spec5 w)) = W10 m ρ c (Proc.devRef .tc (Pipeline.arrRef spec5 w)) :=
  (W11_arr m ρ c w).trans (((dat5 (V10 m ρ) c).arrAt_in w hin _).trans (A_eq5 (V10 m ρ) c w))
/-- Every buffer but region 5's output arrays leaves it as it entered. -/
theorem W11_keep (c : Dev nD) (r : Ref sig .tc) (h : r ∉ ([main_v70] : List (Ref sig .tc))) :
    W11 m ρ c (Proc.devRef .tc r) = W10 m ρ c (Proc.devRef .tc r) := by
  by_cases hr : ∃ w, Pipeline.arrRef spec5 w = r
  · obtain ⟨w, rfl⟩ := hr
    exact W11_in m ρ c w ((show ∀ w : Fin cfg5.W, Pipeline.arrRef spec5 w ∉ ([main_v70] : List (Ref sig .tc)) → (cfg5.win w).isOut = false from by decide) w h)
  · exact W11_of_ne m ρ c r fun w e => hr ⟨w, e⟩

/-- At region 6's exit: its arrays at what the pipeline leaves, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- Boundary 12's contents read at the TensorCore's references. -/
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- An input window's array leaves region 6 as it entered. -/
theorem W12_in (c : Dev nD) (w : Fin cfg6.W) (hin : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hin _).trans (A_eq6 (V11 m ρ) c w))
/-- Every buffer but region 6's output arrays leaves it as it entered. -/
theorem W12_keep (c : Dev nD) (r : Ref sig .tc) (h : r ∉ ([main_v71] : List (Ref sig .tc))) :
    W12 m ρ c (Proc.devRef .tc r) = W11 m ρ c (Proc.devRef .tc r) := by
  by_cases hr : ∃ w, Pipeline.arrRef spec6 w = r
  · obtain ⟨w, rfl⟩ := hr
    exact W12_in m ρ c w ((show ∀ w : Fin cfg6.W, Pipeline.arrRef spec6 w ∉ ([main_v71] : List (Ref sig .tc)) → (cfg6.win w).isOut = false from by decide) w h)
  · exact W12_of_ne m ρ c r fun w e => hr ⟨w, e⟩

/-- After `hostOps7`. -/
abbrev W13 : Dev nD → Valuation τ sig (Elt F) := fun c => StableHlo.after hostOps7 (W12 m ρ c)
/-- Boundary 13's contents read at the TensorCore's references. -/
abbrev V13 : (c : Dev nD) → (b : Ref sig .tc) → Buf (Elt F) ((c : Thread nD τ).loc b) := fun c b => W13 m ρ c b
/-- A buffer `hostOps7` does not write is as before it. -/
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

/-! ## The arguments end as launched: no host operation writes one, no region's output array is one -/
theorem W13_main_arg0 (c : Dev nD) : W13 m ρ c (Proc.devRef .tc main_arg0) = m ((c : Thread nD τ).loc main_arg0) :=
  (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl
theorem W13_main_arg1 (c : Dev nD) : W13 m ρ c (Proc.devRef .tc main_arg1) = m ((c : Thread nD τ).loc main_arg1) :=
  (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl
theorem W13_main_arg2 (c : Dev nD) : W13 m ρ c (Proc.devRef .tc main_arg2) = m ((c : Thread nD τ).loc main_arg2) :=
  (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl
theorem W13_main_arg3 (c : Dev nD) : W13 m ρ c (Proc.devRef .tc main_arg3) = m ((c : Thread nD τ).loc main_arg3) :=
  (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl
theorem W13_main_arg4 (c : Dev nD) : W13 m ρ c (Proc.devRef .tc main_arg4) = m ((c : Thread nD τ).loc main_arg4) :=
  (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl
theorem W13_main_arg5 (c : Dev nD) : W13 m ρ c (Proc.devRef .tc main_arg5) = m ((c : Thread nD τ).loc main_arg5) :=
  (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem W13_main_arg6 (c : Dev nD) : W13 m ρ c (Proc.devRef .tc main_arg6) = m ((c : Thread nD τ).loc main_arg6) :=
  (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem W13_main_arg7 (c : Dev nD) : W13 m ρ c (Proc.devRef .tc main_arg7) = m ((c : Thread nD τ).loc main_arg7) :=
  (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem W13_main_arg8 (c : Dev nD) : W13 m ρ c (Proc.devRef .tc main_arg8) = m ((c : Thread nD τ).loc main_arg8) :=
  (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem W13_main_arg9 (c : Dev nD) : W13 m ρ c (Proc.devRef .tc main_arg9) = m ((c : Thread nD τ).loc main_arg9) :=
  (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem W13_main_arg10 (c : Dev nD) : W13 m ρ c (Proc.devRef .tc main_arg10) = m ((c : Thread nD τ).loc main_arg10) :=
  (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
theorem W13_main_arg11 (c : Dev nD) : W13 m ρ c (Proc.devRef .tc main_arg11) = m ((c : Thread nD τ).loc main_arg11) :=
  (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes` at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W13 m ρ c) ∗ ∃ r, prngReg c r)

end Cert.Kernel.Hand

end
-- ==== Proof.WRunSegsA.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import proofs.«142432_j2886218022958_1_alg».proof.Proof.WRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The regions as segments of @main -/

set_option backward.isDefEq.respectTransparency.types false in
/-- REGION 0 over the thread state: entered from every unscoped buffer at `W1`, left at `W2`. Its arrays are split
    out of the unscoped buffers and put back at the exit contents; the generator register goes into the region's
    invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (Phi_in1 (V3 m ρ) c)
    iintro ⟨Hp, -, Hr⟩
    isplitl [Hp]; · iexact Hp
    iexact Hr
  hout c := by
    rw [Pipeline.ownSems0_none, show (pdats m ρ 1 c).Φ (Fin.last _) = (dat1 (V3 m ρ) c).Φ (Fin.last cfg1.N) from rfl]
    refine (Phi_out1 (V3 m ρ) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the region's
    invariant and comes back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are split
    out of the unscoped buffers and put back at the exit contents; the generator register goes into the region's
    invariant and comes back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WRunSegsB.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import proofs.«142432_j2886218022958_1_alg».proof.Proof.WRunSegsA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The regions as segments of @main -/

set_option backward.isDefEq.respectTransparency.types false in
/-- REGION 4 over the thread state: entered from every unscoped buffer at `W8`, left at `W9`. Its arrays are split
    out of the unscoped buffers and put back at the exit contents; the generator register goes into the region's
    invariant and comes back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V8 m ρ) c).Φ 0 from rfl]
    refine .trans ?_ (Phi_in4 (V8 m ρ) c)
    iintro ⟨Hp, -, Hr⟩
    isplitl [Hp]; · iexact Hp
    iexact Hr
  hout c := by
    rw [Pipeline.ownSems0_none, show (pdats m ρ 4 c).Φ (Fin.last _) = (dat4 (V8 m ρ) c).Φ (Fin.last cfg4.N) from rfl]
    refine (Phi_out4 (V8 m ρ) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`. Its arrays are split
    out of the unscoped buffers and put back at the exit contents; the generator register goes into the region's
    invariant and comes back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W11`, left at `W12`. Its arrays are split
    out of the unscoped buffers and put back at the exit contents; the generator register goes into the region's
    invariant and comes back; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WRun.lean ====
import proofs.«142432_j2886218022958_1_alg».proof.Proof.Gen.Kernel.Launch
import proofs.«142432_j2886218022958_1_alg».proof.Proof.Gen.Kernel.Skeleton
import proofs.«142432_j2886218022958_1_alg».proof.Proof.Gen.Kernel.Points
import proofs.«142432_j2886218022958_1_alg».proof.Proof.Gen.Kernel.Regions
import proofs.«142432_j2886218022958_1_alg».proof.Proof.WRunSegsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)) ]

/-- The segments' fragments of @main are its items. -/
theorem segs_prog : (segs m ρ).map Pipeline.Seg.prog = (
    [ StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      StableHlo.seq hostOps5,
      Prog.lift (.customCall (Pipeline.entry 5) ()),
      Prog.lift (.customCall (Pipeline.entry 6) ()),
      StableHlo.seq hostOps7 ] : List (Prog (TpuEff nD τ sig (Elt F) (Pipeline.Sig Λ₀ (Fin 7) fun p => (pcfgs (F := F) p).Adm) .tc) PUnit)) := rfl

/-- @main is the run of the segments: it is the chain of its items, and the segments' run is the chain of their fragments. -/
theorem main_run (c : Dev nD) : main (F := F) c = Pipeline.Seg.run (segs m ρ) := by
  rw [main_chain c, Pipeline.Seg.run_eq_chain, segs_prog]

set_option backward.isDefEq.respectTransparency.types false in
/-- THE RUN: from any memory with zero counters, every weakly fair execution of @main on the TensorCores terminates,
    nothing faulting, and every final state has the two result arrays at the last boundary's contents and the argument
    arrays as launched. -/
theorem run : θ_run defs (onTc (τ := τ) (main (F := F))) ⟨m, fun _ => 0, ρ⟩ (fun r => ∀ c : Dev nD,
      r.2.mem ((c.tc : Thread nD τ).loc main_v70) = W13 m ρ c (Proc.devRef .tc main_v70)
      ∧ r.2.mem ((c.tc : Thread nD τ).loc main_v87) = W13 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c)
          ∗ (∃ r, prngReg c r) ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v70 (by decide)), h c _ (mem_uc main_v87 (by decide)),
        (h c _ (mem_uc main_arg0 (by decide))).trans (W13_main_arg0 m ρ c),
        (h c _ (mem_uc main_arg1 (by decide))).trans (W13_main_arg1 m ρ c),
        (h c _ (mem_uc main_arg2 (by decide))).trans (W13_main_arg2 m ρ c),
        (h c _ (mem_uc main_arg3 (by decide))).trans (W13_main_arg3 m ρ c),
        (h c _ (mem_uc main_arg4 (by decide))).trans (W13_main_arg4 m ρ c),
        (h c _ (mem_uc main_arg5 (by decide))).trans (W13_main_arg5 m ρ c),
        (h c _ (mem_uc main_arg6 (by decide))).trans (W13_main_arg6 m ρ c),
        (h c _ (mem_uc main_arg7 (by decide))).trans (W13_main_arg7 m ρ c),
        (h c _ (mem_uc main_arg8 (by decide))).trans (W13_main_arg8 m ρ c),
        (h c _ (mem_uc main_arg9 (by decide))).trans (W13_main_arg9 m ρ c),
        (h c _ (mem_uc main_arg10 (by decide))).trans (W13_main_arg10 m ρ c),
        (h c _ (mem_uc main_arg11 (by decide))).trans (W13_main_arg11 m ρ c)⟩)

/-- THE FRAME: every weakly fair execution of @main terminates, nothing faulting, and the argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run m ρ)

end Cert.Kernel.Hand

end
-- ==== Proof.Frames.lean ====
/-
  The three frame conjuncts and the idealization conjunct.

  Both printed kernel programs are the same text read at two float instances; their frame — every weakly fair
  execution ends, nothing faults, the twelve argument arrays end as launched — is the run through @main's thirteen
  segments with the results forgotten.  The reference program has no kernel: its frame is its run with the results
  forgotten.  The ideal pass rewrote nothing, so the idealization conjunct is trivial.
-/
import proofs.«142432_j2886218022958_1_alg».proof.Defs
import proofs.«142432_j2886218022958_1_alg».proof.Proof.Gen.Kernel
import proofs.«142432_j2886218022958_1_alg».proof.Proof.Gen.KernelIdeal
import proofs.«142432_j2886218022958_1_alg».proof.Proof.Gen.ReferenceIdeal
import proofs.«142432_j2886218022958_1_alg».proof.Proof.Gen.Pre_finite_inputs
import proofs.«142432_j2886218022958_1_alg».proof.Proof.Gen.ReferenceIdeal.Run
import proofs.«142432_j2886218022958_1_alg».proof.Proof.Run
import proofs.«142432_j2886218022958_1_alg».proof.Proof.WRun

noncomputable section

namespace Cert.Proof.Frames

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

end Cert.Proof.Frames

end
-- ==== Proof.Layers.lean ====
/-
  The layers of the network as whole-array terms, shared by both programs.

  A graph-convolution layer takes node features h (N×C), multiplies them by a weight matrix, and for every node n
  sums, over the edge list with self loops appended, the rows of the product at the edges' sources scaled by
  dinv(source)·dinv(target), into the row of the edge's target; a bias row is added.  dinv = (max(deg, 1))^(-1/2)
  with deg the number of list entries whose target is the node.  Between layers the features are normalised column
  by column with the batch mean and variance, scaled and shifted, and rectified.

  Each definition below is the composition of host operations that both printed programs spell for that piece, so
  that either program's contents are these terms of its arguments by unfolding alone.
-/
import proofs.«142432_j2886218022958_1_alg».proof.Proof.Gen.ReferenceIdeal

noncomputable section

namespace Cert.Layers

open Idealize.ShloMosaic Idealize.ShloMosaic.TcCoe Cert.ReferenceIdeal Cert.ReferenceIdeal.Facts₀

variable (F : FTy → Type) [FloatOps F]

/-- An f32 array of shape `S`. -/
abbrev FArr (S : Shape) : Type := (⟨S, .f32⟩ : BufTy).Contents (Elt F)
/-- An i32 array of shape `S`. -/
abbrev IArr (S : Shape) : Type := (⟨S, .i32⟩ : BufTy).Contents (Elt F)

variable {F}

/-- The edges' sources followed by the self loops 0, …, N−1. -/
def srcT (e : IArr F S2x1600000) : IArr F S1700000 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The edges' targets followed by the self loops. -/
def dstT (e : IArr F S2x1600000) : IArr F S1700000 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- A position list as a one-column index array. -/
def colOf (v : IArr F S1700000) : IArr F S1700000x1 :=
  broadcastInDim S1700000x1 ![0] bcast_S1700000_S1700000x1_0 v

/-- A position list with negative positions wrapped by N, as a one-column index array (how a gather reads it). -/
def idxOf (v : IArr F S1700000) : IArr F S1700000x1 :=
  colOf (select (cmpi .slt v (broadcastInDim S1700000 ![] bcast_S_S1700000 (constantI S_ 32 0#32)))
    (addi v (broadcastInDim S1700000 ![] bcast_S_S1700000 (constantI S_ 32 100000#32))) v)

/-- The number of list entries whose target is each node. -/
def degT (dst : IArr F S1700000) : FArr F S100000 :=
  Host.scatterAdd scatter_S100000_S1700000x1_S1700000_n_0_0_1
    (broadcastInDim S100000 ![] bcast_S_S100000 (constant S_ .f32 0x00000000#32)) (colOf dst)
    (broadcastInDim S1700000 ![] bcast_S_S1700000 (constant S_ .f32 0x3F800000#32))

/-- (max(deg, 1))^(-1/2), node by node. -/
def dinvT (dst : IArr F S1700000) : FArr F S100000 :=
  Host.rsqrt (maximumf (degT dst) (broadcastInDim S100000 ![] bcast_S_S100000 (constant S_ .f32 0x3F800000#32)))

/-- dinv(source)·dinv(target), entry by entry of the list. -/
def normT (src dst : IArr F S1700000) : FArr F S1700000 :=
  mulf (Host.gather gather_S100000_S1700000x1_S1700000_n_0_n_n_0_1_1 (dinvT dst) (idxOf src))
    (Host.gather gather_S100000_S1700000x1_S1700000_n_0_n_n_0_1_1 (dinvT dst) (idxOf dst))

/-- The aggregation of 128-wide rows: gather by source, scale, accumulate by target, add the bias row. -/
def agg128 (src dst : IArr F S1700000) (nrm : FArr F S1700000) (h : FArr F S100000x128) (b : FArr F S128) : FArr F S100000x128 :=
  addf
    (Host.scatterAdd scatter_S100000x128_S1700000x1_S1700000x128_1_0_0_1
      (broadcastInDim S100000x128 ![] bcast_S_S100000x128 (constant S_ .f32 0x00000000#32)) (colOf dst)
      (mulf (Host.gather gather_S100000x128_S1700000x1_S1700000x128_1_0_n_n_0_1_1128 h (idxOf src))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The aggregation of 64-wide rows. -/
def agg64 (src dst : IArr F S1700000) (nrm : FArr F S1700000) (h : FArr F S100000x64) (b : FArr F S64) : FArr F S100000x64 :=
  addf
    (Host.scatterAdd scatter_S100000x64_S1700000x1_S1700000x64_1_0_0_1
      (broadcastInDim S100000x64 ![] bcast_S_S100000x64 (constant S_ .f32 0x00000000#32)) (colOf dst)
      (mulf (Host.gather gather_S100000x64_S1700000x1_S1700000x64_1_0_n_n_0_1_164 h (idxOf src))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- Features times a 128×128 weight matrix. -/
def mm128 (x : FArr F S100000x128) (w : FArr F S128x128) : FArr F S100000x128 :=
  Host.dotGeneral dot_S100000x128_S128x128_S100000x128_1_0_0_1_n_n none x w

/-- Features times a 128×64 weight matrix. -/
def mm64 (x : FArr F S100000x128) (w : FArr F S128x64) : FArr F S100000x64 :=
  Host.dotGeneral dot_S100000x128_S128x64_S100000x64_1_0_0_1_n_n none x w

/-- A 128-vector spread over the N rows. -/
def rows128 (v : FArr F S128) : FArr F S100000x128 :=
  broadcastInDim S100000x128 ![0, 1] bcast_S1x128_S100000x128_0_1 (broadcastInDim S1x128 ![1] bcast_S128_S1x128_1 v)

/-- The column means: the column sums divided by N. -/
def meanT (h : FArr F S100000x128) : FArr F S128 :=
  Host.divf (Host.reduceAdd h (constant S_ .f32 0x00000000#32) reducesTo_S100000x128_S128_d0 h_S_)
    (broadcastInDim S128 ![] bcast_S_S128 (constant S_ .f32 0x47C35000#32))

/-- The features less their column means. -/
def cenT (h : FArr F S100000x128) : FArr F S100000x128 := subf h (rows128 (meanT h))

/-- The column variances: the column sums of the squared centred features divided by N. -/
def varT (h : FArr F S100000x128) : FArr F S128 :=
  Host.divf (Host.reduceAdd (mulf (cenT h) (cenT h)) (constant S_ .f32 0x00000000#32) reducesTo_S100000x128_S128_d0 h_S_)
    (broadcastInDim S128 ![] bcast_S_S128 (constant S_ .f32 0x47C35000#32))

/-- Batch normalisation with scale g and shift be, before the rectifier. -/
def bnPre (h : FArr F S100000x128) (g be : FArr F S128) : FArr F S100000x128 :=
  addf (mulf (mulf (rows128 g) (cenT h))
      (rows128 (Host.rsqrt (addf (varT h) (broadcastInDim S128 ![] bcast_S_S128 (constant S_ .f32 0x3727C5AC#32))))))
    (rows128 be)

/-- The rectifier: the maximum with zero. -/
def relu (y : FArr F S100000x128) : FArr F S100000x128 :=
  maximumf y (broadcastInDim S100000x128 ![] bcast_S_S100000x128 (constant S_ .f32 0x00000000#32))

/-- A normalised, rectified layer. -/
def bn (h : FArr F S100000x128) (g be : FArr F S128) : FArr F S100000x128 := relu (bnPre h g be)

/-- The two results of the network as functions of its twelve arguments. -/
def hidden (x : FArr F S100000x128) (W1 : FArr F S128x128) (b1 g1 be1 : FArr F S128) (W2 : FArr F S128x128) (b2 g2 be2 : FArr F S128)
    (e : IArr F S2x1600000) : FArr F S100000x128 :=
  bn (agg128 (srcT e) (dstT e) (normT (srcT e) (dstT e))
      (mm128 (bn (agg128 (srcT e) (dstT e) (normT (srcT e) (dstT e)) (mm128 x W1) b1) g1 be1) W2) b2) g2 be2

def output (x : FArr F S100000x128) (W1 : FArr F S128x128) (b1 g1 be1 : FArr F S128) (W2 : FArr F S128x128) (b2 g2 be2 : FArr F S128)
    (W3 : FArr F S128x64) (b3 : FArr F S64) (e : IArr F S2x1600000) : FArr F S100000x64 :=
  agg64 (srcT e) (dstT e) (normT (srcT e) (dstT e)) (mm64 (hidden x W1 b1 g1 be1 W2 b2 g2 be2 e) W3) b3

end Cert.Layers

end
-- ==== Proof.RefG.lean ====
/-
  The reference program's two results are the network's layers composed: its run's terms are, operation for
  operation, the compositions that the layer definitions name.
-/
import proofs.«142432_j2886218022958_1_alg».proof.Proof.Gen.ReferenceIdeal.Run
import proofs.«142432_j2886218022958_1_alg».proof.Proof.Layers

set_option maxRecDepth 16384

noncomputable section

namespace Cert.ReferenceIdeal.RefValue

open Cert.ReferenceIdeal Cert.ReferenceIdeal.Gen Cert.ReferenceIdeal.Value Idealize.ShloMosaic Idealize.ShloMosaic.TcCoe Cert.Layers

variable {F : FTy → Type} [FloatOps F]

/-- The hidden features the reference returns: two normalised graph-convolution layers of the arguments. -/
theorem hidden_eq (m : (ℓ : Loc nD τ sig) → Buf (Elt F) ℓ) (c : Dev nD) :
    res_main_v129 m c
      = hidden (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg11)) := by
  unfold res_main_v129
  rfl

/-- The output the reference returns: a third graph-convolution layer of the hidden features. -/
theorem output_eq (m : (ℓ : Loc nD τ sig) → Buf (Elt F) ℓ) (c : Dev nD) :
    res_main_v161 m c
      = output (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  unfold res_main_v161
  rfl

end Cert.ReferenceIdeal.RefValue

end
-- ==== Proof.KernelHost.lean ====
/-
  The kernel program's host stretches, read as the network's layers: the graph preparation leaves the source and
  target lists and the per-entry scale; each aggregation stretch leaves the aggregation of the matrix product the
  region before it wrote, plus the bias row; the two short stretches re-lay the scale and shift vectors as rows.
  Each is the stretch's operations composed, which is the layer's definition operation for operation.
-/
import proofs.«142432_j2886218022958_1_alg».proof.Proof.Gen.KernelIdeal.Launch
import proofs.«142432_j2886218022958_1_alg».proof.Proof.Layers
import Idealize.ShloMosaic.Lib.StableHlo.Run

set_option maxRecDepth 16384

noncomputable section

namespace Cert.KernelIdeal.HostGlue

open Cert.KernelIdeal Cert.KernelIdeal.Gen Idealize.ShloMosaic Idealize.ShloMosaic.TcCoe Idealize.ShloMosaic.StableHlo

variable {F : FTy → Type} [FloatOps F] (V : Valuation τ sig (Elt F))

set_option maxHeartbeats 8000000 in
/-- After the graph preparation: the source list. -/
theorem prep_src : StableHlo.after hostOps0 V (Proc.devRef .tc main_v3) = Cert.Layers.srcT (F := F) (V (Proc.devRef .tc main_arg11)) := by
  after_results_simp <;> rfl

set_option maxHeartbeats 8000000 in
/-- After the graph preparation: the target list. -/
theorem prep_dst : StableHlo.after hostOps0 V (Proc.devRef .tc main_v6) = Cert.Layers.dstT (F := F) (V (Proc.devRef .tc main_arg11)) := by
  after_results_simp <;> rfl

set_option maxHeartbeats 8000000 in
/-- After the graph preparation: the scale of every list entry. -/
theorem prep_norm : StableHlo.after hostOps0 V (Proc.devRef .tc main_v28)
    = Cert.Layers.normT (F := F) (Cert.Layers.srcT (V (Proc.devRef .tc main_arg11))) (Cert.Layers.dstT (V (Proc.devRef .tc main_arg11))) := by
  after_results_simp <;> rfl

set_option maxHeartbeats 8000000 in
/-- After the first aggregation stretch: the aggregation of the first product, plus the first bias. -/
theorem agg1 : StableHlo.after hostOps1 V (Proc.devRef .tc main_v45)
    = Cert.Layers.agg128 (F := F) (V (Proc.devRef .tc main_v3)) (V (Proc.devRef .tc main_v6)) (V (Proc.devRef .tc main_v28))
        (V (Proc.devRef .tc main_v29)) (V (Proc.devRef .tc main_arg2)) := by
  after_results_simp <;> rfl

set_option maxHeartbeats 8000000 in
/-- After the second aggregation stretch. -/
theorem agg2 : StableHlo.after hostOps4 V (Proc.devRef .tc main_v66)
    = Cert.Layers.agg128 (F := F) (V (Proc.devRef .tc main_v3)) (V (Proc.devRef .tc main_v6)) (V (Proc.devRef .tc main_v28))
        (V (Proc.devRef .tc main_v50)) (V (Proc.devRef .tc main_arg6)) := by
  after_results_simp <;> rfl

set_option maxHeartbeats 8000000 in
/-- After the third aggregation stretch. -/
theorem agg3 : StableHlo.after hostOps7 V (Proc.devRef .tc main_v87)
    = Cert.Layers.agg64 (F := F) (V (Proc.devRef .tc main_v3)) (V (Proc.devRef .tc main_v6)) (V (Proc.devRef .tc main_v28))
        (V (Proc.devRef .tc main_v71)) (V (Proc.devRef .tc main_arg10)) := by
  after_results_simp <;> rfl

set_option maxHeartbeats 8000000 in
/-- The first layer's scale vector as a row. -/
theorem row_g1 : StableHlo.after hostOps2 V (Proc.devRef .tc main_v47)
    = (shapeCast S1x128 (V (Proc.devRef .tc main_arg3)) Facts₀.shapeCasts_S128_S1x128 : (⟨S1x128, .f32⟩ : BufTy).Contents (Elt F)) := by
  after_results_simp <;> rfl

set_option maxHeartbeats 8000000 in
/-- The first layer's shift vector as a row. -/
theorem row_be1 : StableHlo.after hostOps2 V (Proc.devRef .tc main_v48)
    = (shapeCast S1x128 (V (Proc.devRef .tc main_arg4)) Facts₀.shapeCasts_S128_S1x128 : (⟨S1x128, .f32⟩ : BufTy).Contents (Elt F)) := by
  after_results_simp <;> rfl

set_option maxHeartbeats 8000000 in
/-- The second layer's scale vector as a row. -/
theorem row_g2 : StableHlo.after hostOps5 V (Proc.devRef .tc main_v68)
    = (shapeCast S1x128 (V (Proc.devRef .tc main_arg7)) Facts₀.shapeCasts_S128_S1x128 : (⟨S1x128, .f32⟩ : BufTy).Contents (Elt F)) := by
  after_results_simp <;> rfl

set_option maxHeartbeats 8000000 in
/-- The second layer's shift vector as a row. -/
theorem row_be2 : StableHlo.after hostOps5 V (Proc.devRef .tc main_v69)
    = (shapeCast S1x128 (V (Proc.devRef .tc main_arg8)) Facts₀.shapeCasts_S128_S1x128 : (⟨S1x128, .f32⟩ : BufTy).Contents (Elt F)) := by
  after_results_simp <;> rfl

end Cert.KernelIdeal.HostGlue

end
-- ==== Proof.BridgeFold.lean ====
/-
  What the tracked buffers hold at each boundary of the program's run, as terms of the launch memory.

  The graph preparation writes the source list, the target list and the edge weights once and nothing after it
  writes them again, so at every later boundary they are the layer functions of the edge table as launched.  No
  host operation and no region writes an argument, so each argument read at a boundary is the launched one.  Each
  aggregation stretch therefore leaves the aggregation, by the launched edge table, of the product the region
  before it wrote, plus the launched bias; the two short stretches leave the launched scale and shift vectors as
  rows; and what a stretch or region does not write passes through it.
-/
import proofs.«142432_j2886218022958_1_alg».proof.Proof.RunFold
import proofs.«142432_j2886218022958_1_alg».proof.Proof.KernelHost

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg) (c : Dev nD)

/-! ## The arguments as launched, at the boundaries that read them -/

theorem arg11_at0 : W0 m ρ c (Proc.devRef .tc main_arg11) = m ((c : Thread nD τ).loc main_arg11) :=
  rfl
theorem arg0_at1 : W1 m ρ c (Proc.devRef .tc main_arg0) = m ((c : Thread nD τ).loc main_arg0) :=
  (W1_keep m ρ c main_arg0 (by decide)).trans <| rfl
theorem arg1_at1 : W1 m ρ c (Proc.devRef .tc main_arg1) = m ((c : Thread nD τ).loc main_arg1) :=
  (W1_keep m ρ c main_arg1 (by decide)).trans <| rfl
theorem arg2_at2 : W2 m ρ c (Proc.devRef .tc main_arg2) = m ((c : Thread nD τ).loc main_arg2) :=
  (W2_keep m ρ c main_arg2 (by decide)).trans <| (W1_keep m ρ c main_arg2 (by decide)).trans <| rfl
theorem arg3_at4 : W4 m ρ c (Proc.devRef .tc main_arg3) = m ((c : Thread nD τ).loc main_arg3) :=
  (W4_keep m ρ c main_arg3 (by decide)).trans <| (W3_keep m ρ c main_arg3 (by decide)).trans <| (W2_keep m ρ c main_arg3 (by decide)).trans <| (W1_keep m ρ c main_arg3 (by decide)).trans <| rfl
theorem arg4_at4 : W4 m ρ c (Proc.devRef .tc main_arg4) = m ((c : Thread nD τ).loc main_arg4) :=
  (W4_keep m ρ c main_arg4 (by decide)).trans <| (W3_keep m ρ c main_arg4 (by decide)).trans <| (W2_keep m ρ c main_arg4 (by decide)).trans <| (W1_keep m ρ c main_arg4 (by decide)).trans <| rfl
theorem arg5_at6 : W6 m ρ c (Proc.devRef .tc main_arg5) = m ((c : Thread nD τ).loc main_arg5) :=
  (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl
theorem arg6_at7 : W7 m ρ c (Proc.devRef .tc main_arg6) = m ((c : Thread nD τ).loc main_arg6) :=
  (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem arg7_at9 : W9 m ρ c (Proc.devRef .tc main_arg7) = m ((c : Thread nD τ).loc main_arg7) :=
  (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem arg8_at9 : W9 m ρ c (Proc.devRef .tc main_arg8) = m ((c : Thread nD τ).loc main_arg8) :=
  (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem arg9_at11 : W11 m ρ c (Proc.devRef .tc main_arg9) = m ((c : Thread nD τ).loc main_arg9) :=
  (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem arg10_at12 : W12 m ρ c (Proc.devRef .tc main_arg10) = m ((c : Thread nD τ).loc main_arg10) :=
  (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl

/-! ## The graph preparation's three results, at the boundaries that read them -/

theorem src_at1 : W1 m ρ c (Proc.devRef .tc main_v3) = Cert.Layers.srcT (F := F) (m ((c : Thread nD τ).loc main_arg11)) :=
  Cert.KernelIdeal.HostGlue.prep_src (W0 m ρ c)
theorem dst_at1 : W1 m ρ c (Proc.devRef .tc main_v6) = Cert.Layers.dstT (F := F) (m ((c : Thread nD τ).loc main_arg11)) :=
  Cert.KernelIdeal.HostGlue.prep_dst (W0 m ρ c)
theorem norm_at1 : W1 m ρ c (Proc.devRef .tc main_v28) = Cert.Layers.normT (F := F) (Cert.Layers.srcT (F := F) (m ((c : Thread nD τ).loc main_arg11))) (Cert.Layers.dstT (F := F) (m ((c : Thread nD τ).loc main_arg11))) :=
  Cert.KernelIdeal.HostGlue.prep_norm (W0 m ρ c)
theorem src_at2 : W2 m ρ c (Proc.devRef .tc main_v3) = Cert.Layers.srcT (F := F) (m ((c : Thread nD τ).loc main_arg11)) :=
  (W2_keep m ρ c main_v3 (by decide)).trans <| src_at1 m ρ c
theorem dst_at2 : W2 m ρ c (Proc.devRef .tc main_v6) = Cert.Layers.dstT (F := F) (m ((c : Thread nD τ).loc main_arg11)) :=
  (W2_keep m ρ c main_v6 (by decide)).trans <| dst_at1 m ρ c
theorem norm_at2 : W2 m ρ c (Proc.devRef .tc main_v28) = Cert.Layers.normT (F := F) (Cert.Layers.srcT (F := F) (m ((c : Thread nD τ).loc main_arg11))) (Cert.Layers.dstT (F := F) (m ((c : Thread nD τ).loc main_arg11))) :=
  (W2_keep m ρ c main_v28 (by decide)).trans <| norm_at1 m ρ c
theorem src_at7 : W7 m ρ c (Proc.devRef .tc main_v3) = Cert.Layers.srcT (F := F) (m ((c : Thread nD τ).loc main_arg11)) :=
  (W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide)).trans <| src_at1 m ρ c
theorem dst_at7 : W7 m ρ c (Proc.devRef .tc main_v6) = Cert.Layers.dstT (F := F) (m ((c : Thread nD τ).loc main_arg11)) :=
  (W7_keep m ρ c main_v6 (by decide)).trans <| (W6_keep m ρ c main_v6 (by decide)).trans <| (W5_keep m ρ c main_v6 (by decide)).trans <| (W4_keep m ρ c main_v6 (by decide)).trans <| (W3_keep m ρ c main_v6 (by decide)).trans <| (W2_keep m ρ c main_v6 (by decide)).trans <| dst_at1 m ρ c
theorem norm_at7 : W7 m ρ c (Proc.devRef .tc main_v28) = Cert.Layers.normT (F := F) (Cert.Layers.srcT (F := F) (m ((c : Thread nD τ).loc main_arg11))) (Cert.Layers.dstT (F := F) (m ((c : Thread nD τ).loc main_arg11))) :=
  (W7_keep m ρ c main_v28 (by decide)).trans <| (W6_keep m ρ c main_v28 (by decide)).trans <| (W5_keep m ρ c main_v28 (by decide)).trans <| (W4_keep m ρ c main_v28 (by decide)).trans <| (W3_keep m ρ c main_v28 (by decide)).trans <| (W2_keep m ρ c main_v28 (by decide)).trans <| norm_at1 m ρ c
theorem src_at12 : W12 m ρ c (Proc.devRef .tc main_v3) = Cert.Layers.srcT (F := F) (m ((c : Thread nD τ).loc main_arg11)) :=
  (W12_keep m ρ c main_v3 (by decide)).trans <| (W11_keep m ρ c main_v3 (by decide)).trans <| (W10_keep m ρ c main_v3 (by decide)).trans <| (W9_keep m ρ c main_v3 (by decide)).trans <| (W8_keep m ρ c main_v3 (by decide)).trans <| (W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide)).trans <| src_at1 m ρ c
theorem dst_at12 : W12 m ρ c (Proc.devRef .tc main_v6) = Cert.Layers.dstT (F := F) (m ((c : Thread nD τ).loc main_arg11)) :=
  (W12_keep m ρ c main_v6 (by decide)).trans <| (W11_keep m ρ c main_v6 (by decide)).trans <| (W10_keep m ρ c main_v6 (by decide)).trans <| (W9_keep m ρ c main_v6 (by decide)).trans <| (W8_keep m ρ c main_v6 (by decide)).trans <| (W7_keep m ρ c main_v6 (by decide)).trans <| (W6_keep m ρ c main_v6 (by decide)).trans <| (W5_keep m ρ c main_v6 (by decide)).trans <| (W4_keep m ρ c main_v6 (by decide)).trans <| (W3_keep m ρ c main_v6 (by decide)).trans <| (W2_keep m ρ c main_v6 (by decide)).trans <| dst_at1 m ρ c
theorem norm_at12 : W12 m ρ c (Proc.devRef .tc main_v28) = Cert.Layers.normT (F := F) (Cert.Layers.srcT (F := F) (m ((c : Thread nD τ).loc main_arg11))) (Cert.Layers.dstT (F := F) (m ((c : Thread nD τ).loc main_arg11))) :=
  (W12_keep m ρ c main_v28 (by decide)).trans <| (W11_keep m ρ c main_v28 (by decide)).trans <| (W10_keep m ρ c main_v28 (by decide)).trans <| (W9_keep m ρ c main_v28 (by decide)).trans <| (W8_keep m ρ c main_v28 (by decide)).trans <| (W7_keep m ρ c main_v28 (by decide)).trans <| (W6_keep m ρ c main_v28 (by decide)).trans <| (W5_keep m ρ c main_v28 (by decide)).trans <| (W4_keep m ρ c main_v28 (by decide)).trans <| (W3_keep m ρ c main_v28 (by decide)).trans <| (W2_keep m ρ c main_v28 (by decide)).trans <| norm_at1 m ρ c

/-! ## The first layer -/

/-- The first aggregation: of region 0's product, by the launched edge table, plus the launched first bias. -/
theorem h1_eq : W3 m ρ c (Proc.devRef .tc main_v45)
    = Cert.Layers.agg128 (F := F) (Cert.Layers.srcT (F := F) (m ((c : Thread nD τ).loc main_arg11))) (Cert.Layers.dstT (F := F) (m ((c : Thread nD τ).loc main_arg11)))
        (Cert.Layers.normT (F := F) (Cert.Layers.srcT (F := F) (m ((c : Thread nD τ).loc main_arg11))) (Cert.Layers.dstT (F := F) (m ((c : Thread nD τ).loc main_arg11))))
        (W2 m ρ c (Proc.devRef .tc main_v29)) (m ((c : Thread nD τ).loc main_arg2)) := by
  refine (Cert.KernelIdeal.HostGlue.agg1 (W2 m ρ c)).trans ?_
  rw [src_at2 m ρ c, dst_at2 m ρ c, norm_at2 m ρ c, arg2_at2 m ρ c]
/-- The first aggregation is still there when region 2 is entered. -/
theorem h1_at5 : W5 m ρ c (Proc.devRef .tc main_v45) = W3 m ρ c (Proc.devRef .tc main_v45) :=
  (W5_keep m ρ c main_v45 (by decide)).trans <| W4_keep m ρ c main_v45 (by decide)
theorem mean1_at5 : W5 m ρ c (Proc.devRef .tc main_v46_0) = W4 m ρ c (Proc.devRef .tc main_v46_0) :=
  W5_keep m ρ c main_v46_0 (by decide)
theorem var1_at5 : W5 m ρ c (Proc.devRef .tc main_v46_1) = W4 m ρ c (Proc.devRef .tc main_v46_1) :=
  W5_keep m ρ c main_v46_1 (by decide)
/-- The first scale vector as a row. -/
theorem g1_row : W5 m ρ c (Proc.devRef .tc main_v47)
    = (shapeCast S1x128 (m ((c : Thread nD τ).loc main_arg3)) Facts₀.shapeCasts_S128_S1x128 : (⟨S1x128, .f32⟩ : BufTy).Contents (Elt F)) := by
  refine (Cert.KernelIdeal.HostGlue.row_g1 (W4 m ρ c)).trans ?_
  rw [arg3_at4 m ρ c]
/-- The first shift vector as a row. -/
theorem be1_row : W5 m ρ c (Proc.devRef .tc main_v48)
    = (shapeCast S1x128 (m ((c : Thread nD τ).loc main_arg4)) Facts₀.shapeCasts_S128_S1x128 : (⟨S1x128, .f32⟩ : BufTy).Contents (Elt F)) := by
  refine (Cert.KernelIdeal.HostGlue.row_be1 (W4 m ρ c)).trans ?_
  rw [arg4_at4 m ρ c]
/-- The second weight matrix when region 3 is entered. -/
theorem W2_at6 : W6 m ρ c (Proc.devRef .tc main_arg5) = m ((c : Thread nD τ).loc main_arg5) := arg5_at6 m ρ c

/-! ## The second layer -/

/-- The second aggregation: of region 3's product, plus the launched second bias. -/
theorem h2_eq : W8 m ρ c (Proc.devRef .tc main_v66)
    = Cert.Layers.agg128 (F := F) (Cert.Layers.srcT (F := F) (m ((c : Thread nD τ).loc main_arg11))) (Cert.Layers.dstT (F := F) (m ((c : Thread nD τ).loc main_arg11)))
        (Cert.Layers.normT (F := F) (Cert.Layers.srcT (F := F) (m ((c : Thread nD τ).loc main_arg11))) (Cert.Layers.dstT (F := F) (m ((c : Thread nD τ).loc main_arg11))))
        (W7 m ρ c (Proc.devRef .tc main_v50)) (m ((c : Thread nD τ).loc main_arg6)) := by
  refine (Cert.KernelIdeal.HostGlue.agg2 (W7 m ρ c)).trans ?_
  rw [src_at7 m ρ c, dst_at7 m ρ c, norm_at7 m ρ c, arg6_at7 m ρ c]
/-- The second aggregation is still there when region 5 is entered. -/
theorem h2_at10 : W10 m ρ c (Proc.devRef .tc main_v66) = W8 m ρ c (Proc.devRef .tc main_v66) :=
  (W10_keep m ρ c main_v66 (by decide)).trans <| W9_keep m ρ c main_v66 (by decide)
theorem mean2_at10 : W10 m ρ c (Proc.devRef .tc main_v67_0) = W9 m ρ c (Proc.devRef .tc main_v67_0) :=
  W10_keep m ρ c main_v67_0 (by decide)
theorem var2_at10 : W10 m ρ c (Proc.devRef .tc main_v67_1) = W9 m ρ c (Proc.devRef .tc main_v67_1) :=
  W10_keep m ρ c main_v67_1 (by decide)
/-- The second scale vector as a row. -/
theorem g2_row : W10 m ρ c (Proc.devRef .tc main_v68)
    = (shapeCast S1x128 (m ((c : Thread nD τ).loc main_arg7)) Facts₀.shapeCasts_S128_S1x128 : (⟨S1x128, .f32⟩ : BufTy).Contents (Elt F)) := by
  refine (Cert.KernelIdeal.HostGlue.row_g2 (W9 m ρ c)).trans ?_
  rw [arg7_at9 m ρ c]
/-- The second shift vector as a row. -/
theorem be2_row : W10 m ρ c (Proc.devRef .tc main_v69)
    = (shapeCast S1x128 (m ((c : Thread nD τ).loc main_arg8)) Facts₀.shapeCasts_S128_S1x128 : (⟨S1x128, .f32⟩ : BufTy).Contents (Elt F)) := by
  refine (Cert.KernelIdeal.HostGlue.row_be2 (W9 m ρ c)).trans ?_
  rw [arg8_at9 m ρ c]

/-! ## The third layer -/

/-- The output: the aggregation of region 6's product, plus the launched third bias. -/
theorem out_eq : W13 m ρ c (Proc.devRef .tc main_v87)
    = Cert.Layers.agg64 (F := F) (Cert.Layers.srcT (F := F) (m ((c : Thread nD τ).loc main_arg11))) (Cert.Layers.dstT (F := F) (m ((c : Thread nD τ).loc main_arg11)))
        (Cert.Layers.normT (F := F) (Cert.Layers.srcT (F := F) (m ((c : Thread nD τ).loc main_arg11))) (Cert.Layers.dstT (F := F) (m ((c : Thread nD τ).loc main_arg11))))
        (W12 m ρ c (Proc.devRef .tc main_v71)) (m ((c : Thread nD τ).loc main_arg10)) := by
  refine (Cert.KernelIdeal.HostGlue.agg3 (W12 m ρ c)).trans ?_
  rw [src_at12 m ρ c, dst_at12 m ρ c, norm_at12 m ρ c, arg10_at12 m ρ c]
/-- The hidden features region 5 wrote are still there at the end. -/
theorem hid_at13 : W13 m ρ c (Proc.devRef .tc main_v70) = W11 m ρ c (Proc.devRef .tc main_v70) :=
  (W13_keep m ρ c main_v70 (by decide)).trans <| W12_keep m ρ c main_v70 (by decide)

end Cert.KernelIdeal.Hand

end
-- ==== Proof.LibAllReal.lean ====
/-
  Arrays of extended reals all of whose entries are real numbers, and the operations that keep them so:
  finite literals, products, sums and differences, cosine and sine, every re-indexing (broadcast, slice, reshape,
  transpose, concatenation: each entry of the result is an entry of an operand), the matrix product (a finite sum of
  products) and the host's sum from a real initial value.
-/
import Idealize.ShloMosaic.PureOps.Ideal.Laws
import Idealize.ShloMosaic.Lib.ValueIdx
import Idealize.ShloMosaic.Lib.Pipeline.Value

noncomputable section

namespace Cert.KernelIdeal.Real

open Idealize.ShloMosaic
open scoped BigOperators

/-- Every entry is a real number. -/
def AllReal {s : Shape} (v : s.Idx → EReal) : Prop := ∀ i, ∃ r : ℝ, v i = (r : EReal)

/-- Every array of a list of arrays (each with its shape) has only real entries. -/
def AllRealL (xs : List ((s : Shape) × (s.Idx → EReal))) : Prop := ∀ p ∈ xs, AllReal p.2

theorem AllRealL.nil : AllRealL [] := fun _ hp => nomatch hp

theorem AllRealL.cons {s : Shape} {x : s.Idx → EReal} {l : List ((s : Shape) × (s.Idx → EReal))}
    (hx : AllReal x) (hl : AllRealL l) : AllRealL (⟨s, x⟩ :: l) := fun p hp => by
  rcases List.mem_cons.1 hp with rfl | hp
  · exact hx
  · exact hl p hp

/-! ## Sums -/

/-- A finite sum of real numbers, taken in the extended reals, is a real number. -/
theorem sum_real {ι : Type} (S : Finset ι) (f : ι → EReal) (hf : ∀ k ∈ S, ∃ r : ℝ, f k = (r : EReal)) :
    ∃ r : ℝ, ∑ k ∈ S, f k = (r : EReal) :=
  Finset.sum_induction f (fun x => ∃ r : ℝ, x = (r : EReal))
    (fun a b ⟨x, hx⟩ ⟨y, hy⟩ => ⟨x + y, by rw [hx, hy, EReal.coe_add]⟩) ⟨0, EReal.coe_zero.symm⟩ hf

/-! ## Literals -/

/-- An f32 word whose exponent field is not all ones denotes a real number. -/
theorem ofBits_f32_real (w : BitVec 32) (h : (w.extractLsb' 23 8).toNat ≠ 255) :
    ∃ r : ℝ, Ideal.ofBits .f32 w = (r : EReal) := by
  show ∃ r : ℝ, Ideal.ieee 8 23 w = (r : EReal)
  unfold Ideal.ieee
  dsimp only
  rw [if_neg (by simpa using h)]
  split_ifs <;> exact ⟨_, rfl⟩

variable {s t : Shape} {φ : FTy}

/-- A splat of a finite f32 literal. -/
theorem AllReal.constant (w : BitVec 32) (h : (w.extractLsb' 23 8).toNat ≠ 255) :
    AllReal (Idealize.ShloMosaic.constant (F := Ideal) s .f32 w) := fun _ => ofBits_f32_real w h

/-- A table of finite f32 literals. -/
theorem AllReal.table {n : Nat} (lit : Fin n → BitVec 32) (h : ∀ k, ((lit k).extractLsb' 23 8).toNat ≠ 255)
    (f : s.Idx → Fin n) : AllReal (fun i => FloatOps.ofBits (F := Ideal) .f32 (lit (f i))) :=
  fun i => ofBits_f32_real _ (h (f i))

/-! ## Arithmetic -/

theorem AllReal.mulf {a b : FVec Ideal s φ} (ha : AllReal a) (hb : AllReal b) :
    AllReal (Idealize.ShloMosaic.mulf a b) := fun i => by
  obtain ⟨x, hx⟩ := ha i
  obtain ⟨y, hy⟩ := hb i
  exact ⟨x * y, by rw [ValueIdx.mulf_apply, hx, hy, EReal.coe_mul]⟩

theorem AllReal.addf {a b : FVec Ideal s φ} (ha : AllReal a) (hb : AllReal b) :
    AllReal (Idealize.ShloMosaic.addf a b) := fun i => by
  obtain ⟨x, hx⟩ := ha i
  obtain ⟨y, hy⟩ := hb i
  exact ⟨x + y, by rw [ValueIdx.addf_apply, hx, hy, EReal.coe_add]⟩

theorem AllReal.subf {a b : FVec Ideal s φ} (ha : AllReal a) (hb : AllReal b) :
    AllReal (Idealize.ShloMosaic.subf a b) := fun i => by
  obtain ⟨x, hx⟩ := ha i
  obtain ⟨y, hy⟩ := hb i
  exact ⟨x - y, by rw [ValueIdx.subf_apply, hx, hy, EReal.coe_sub]⟩

theorem AllReal.cos {a : FVec Ideal s φ} (ha : AllReal a) : AllReal (Host.cos a) := fun i => by
  obtain ⟨x, hx⟩ := ha i
  exact ⟨Real.cos x, by show Ideal.cos (a i) = _; rw [hx, Ideal.cos_coe]⟩

theorem AllReal.sin {a : FVec Ideal s φ} (ha : AllReal a) : AllReal (Host.sin a) := fun i => by
  obtain ⟨x, hx⟩ := ha i
  exact ⟨Real.sin x, by show Ideal.sin (a i) = _; rw [hx, Ideal.sin_coe]⟩

/-! ## Re-indexings: each entry of the result is an entry of the operand -/

theorem AllReal.broadcastInDim {x : s.Idx → EReal} (dims : Fin s.rank → Fin t.rank) (h : s.BroadcastsInDim t dims)
    (hx : AllReal x) : AllReal (Idealize.ShloMosaic.broadcastInDim t dims h x) := fun _ => hx _

theorem AllReal.extractStridedSlice {x : s.Idx → EReal} (off : Fin s.rank → Nat) (h : s.Slices off t)
    (hx : AllReal x) : AllReal (Idealize.ShloMosaic.extractStridedSlice t off x h) := fun _ => hx _

theorem AllReal.shapeCast {x : s.Idx → EReal} (h : s.ShapeCasts t) (hx : AllReal x) :
    AllReal (Idealize.ShloMosaic.shapeCast t x h) := fun _ => hx _

theorem AllReal.transpose {x : s.Idx → EReal} (perm : List (Fin s.rank)) (h : s.Transposes perm t) (hx : AllReal x) :
    AllReal (Idealize.ShloMosaic.transpose t perm x h) := fun _ => hx _

/-- Every entry of a concatenation is an entry of one of the operands. -/
theorem concatenate_entry {α : Type} (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

theorem AllReal.concatenate (a : Fin t.rank) {xs : List ((s : Shape) × (s.Idx → EReal))}
    (h : Shape.Concatenates (xs.map (·.1)) t a) (hx : AllRealL xs) :
    AllReal (Idealize.ShloMosaic.concatenate t a xs h) := fun j => by
  obtain ⟨p, hp, i, e⟩ := concatenate_entry a xs h j
  rw [e]
  exact hx p hp i

/-! ## Contractions -/

/-- The host's matrix product: each entry is a finite sum of products of entries. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ x : ℝ, FloatOps.dotGeneral d prec .single l r j = (x : EReal)
  rw [Ideal.dotGeneral_apply]
  refine sum_real _ _ fun k _ => ?_
  obtain ⟨x, hx⟩ := hl (d.lhsIdx j k)
  obtain ⟨y, hy⟩ := hr (d.rhsIdx j k)
  exact ⟨x * y, by rw [hx, hy, EReal.coe_mul]⟩

/-- The host's sum along some axes from a real initial value. -/
theorem AllReal.reduceAdd {u : Shape} {axes : List (Fin s.rank)} {x : FVec Ideal s φ} {init : u.Idx → Ideal φ}
    (h : s.ReducesTo axes t) (hu : 0 < u.numel) (hx : AllReal x) (hi : AllReal init) :
    AllReal (Host.reduceAdd x init h hu) := fun j => by
  show ∃ r : ℝ, Ideal.hostReduceAdd h x (init (Shape.Idx.first hu)) j = (r : EReal)
  unfold Ideal.hostReduceAdd
  obtain ⟨a, ha⟩ := hi (Shape.Idx.first hu)
  obtain ⟨b, hb⟩ := sum_real (Finset.univ.filter fun i => h.drop i = j) x fun k _ => hx k
  exact ⟨a + b, by rw [ha, hb, EReal.coe_add]⟩

end Cert.KernelIdeal.Real

end
-- ==== Proof.LayersReal.lean ====
/-
  The graph layers at the ideal values have only real entries when their float arguments do.

  A gather's entries are entries of its operand whatever the positions; an accumulating scatter's entries are an
  entry of the initial array plus a finite sum of update entries, and a finite sum of reals is real.  The degree of
  a node is therefore real, its maximum with one is a real at least one, and the reciprocal square root of a
  positive real is real; so dinv, the edge weights dinv(source)·dinv(target) and every aggregation of real rows
  with a real bias are real, as is a matrix product of real matrices.
-/
import proofs.«142432_j2886218022958_1_alg».proof.Proof.Layers
import proofs.«142432_j2886218022958_1_alg».proof.Proof.LibAllReal

noncomputable section

namespace Cert.Layers

open Idealize.ShloMosaic Idealize.ShloMosaic.TcCoe Cert.ReferenceIdeal Cert.KernelIdeal.Real
open scoped BigOperators

/-! ## Gathers and accumulating scatters, for any dimension numbers -/

/-- Every entry of a gather is an entry of the operand. -/
theorem gather_allReal {s si t : Shape} {w : Nat} (d : GatherDims s si t) {x : s.Idx → EReal} (idx : IVec si w)
    (hx : AllReal x) : AllReal (Host.gather d x idx) := fun _ => hx _

/-- Every entry of an accumulating scatter is an entry of the initial array plus a finite sum of update entries. -/
theorem scatterAdd_allReal {s si u : Shape} {w : Nat} {φ : FTy} (d : ScatterDims s si u) {x : FVec Ideal s φ}
    (idx : IVec si w) {upd : FVec Ideal u φ} (hx : AllReal x) (hu : AllReal upd) :
    AllReal (Host.scatterAdd d x idx upd) := fun i => by
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun k _ => hu k
  exact ⟨a + b, by rw [ha, hb, EReal.coe_add]⟩

theorem gather_rows_allReal {op : FArr Ideal S100000x128} (idx : IArr Ideal S1700000x1) (h : AllReal op) :
    AllReal (Host.gather gather_S100000x128_S1700000x1_S1700000x128_1_0_n_n_0_1_1128 op idx) :=
  gather_allReal _ idx h

theorem gather_vec_allReal {op : FArr Ideal S100000} (idx : IArr Ideal S1700000x1) (h : AllReal op) :
    AllReal (Host.gather gather_S100000_S1700000x1_S1700000_n_0_n_n_0_1_1 op idx) :=
  gather_allReal _ idx h

theorem scatterAdd_rows_allReal {init : FArr Ideal S100000x128} (idx : IArr Ideal S1700000x1)
    {upd : FArr Ideal S1700000x128} (hi : AllReal init) (hu : AllReal upd) :
    AllReal (Host.scatterAdd (F := Ideal) (φ := .f32) scatter_S100000x128_S1700000x1_S1700000x128_1_0_0_1 init idx upd) :=
  scatterAdd_allReal _ idx hi hu

theorem scatterAdd_vec_allReal {init : FArr Ideal S100000} (idx : IArr Ideal S1700000x1)
    {upd : FArr Ideal S1700000} (hi : AllReal init) (hu : AllReal upd) :
    AllReal (Host.scatterAdd (F := Ideal) (φ := .f32) scatter_S100000_S1700000x1_S1700000_n_0_0_1 init idx upd) :=
  scatterAdd_allReal _ idx hi hu

/-! ## The literals -/

/-- The word of +0.0 has a finite exponent field. -/
theorem zero_word_finite : ((0x00000000#32 : BitVec 32).extractLsb' 23 8).toNat ≠ 255 := by decide

/-- The word of 1.0 has a finite exponent field. -/
theorem one_word_finite : ((0x3F800000#32 : BitVec 32).extractLsb' 23 8).toNat ≠ 255 := by decide

/-- The word 0x3F800000 denotes the real number one. -/
theorem ofBits_one : Ideal.ofBits .f32 0x3F800000#32 = ((1 : ℝ) : EReal) := by
  simp [Ideal.ofBits, Ideal.ieee, -EReal.coe_mul]; norm_num

/-! ## Degrees, their reciprocal square roots, the edge weights -/

/-- The degree of every node is a real number: a finite sum of ones from zero. -/
theorem degT_allReal (dst : IArr Ideal S1700000) : AllReal (degT (F := Ideal) dst) :=
  scatterAdd_allReal _ _
    (AllReal.broadcastInDim _ _ (AllReal.constant _ zero_word_finite))
    (AllReal.broadcastInDim _ _ (AllReal.constant _ one_word_finite))

/-- The reciprocal square root of the maximum of a real number and one is a real number. -/
theorem rsqrt_max_one_real (r : ℝ) : ∃ y : ℝ, Ideal.rsqrt (max (r : EReal) ((1 : ℝ) : EReal)) = (y : EReal) := by
  have hm : max (r : EReal) ((1 : ℝ) : EReal) = ((max r 1 : ℝ) : EReal) :=
    (Monotone.map_max EReal.coe_strictMono.monotone).symm
  have hpos : (0 : ℝ) < max r 1 := lt_of_lt_of_le one_pos (le_max_right r 1)
  rw [hm, Ideal.rsqrt_coe, if_neg (not_lt.2 hpos.le), if_neg hpos.ne']
  exact ⟨_, rfl⟩

/-- The reciprocal square root of the entrywise maximum of a real array and an array of ones is a real array. -/
theorem rsqrt_max_one_allReal {s : Shape} {a b : FVec Ideal s .f32} (ha : AllReal a)
    (hb : ∀ i, b i = ((1 : ℝ) : EReal)) : AllReal (Host.rsqrt (maximumf a b)) := fun i => by
  obtain ⟨r, hr⟩ := ha i
  show ∃ y : ℝ, Ideal.rsqrt (max (a i) (b i)) = (y : EReal)
  rw [hr, hb i]
  exact rsqrt_max_one_real r

theorem dinvT_allReal (dst : IArr Ideal S1700000) : AllReal (dinvT (F := Ideal) dst) :=
  rsqrt_max_one_allReal (degT_allReal dst) fun _ => ofBits_one

theorem normT_allReal (src dst : IArr Ideal S1700000) : AllReal (normT (F := Ideal) src dst) :=
  AllReal.mulf (gather_allReal _ _ (dinvT_allReal dst)) (gather_allReal _ _ (dinvT_allReal dst))

/-! ## The aggregations and the matrix products -/

theorem agg128_allReal (src dst : IArr Ideal S1700000) {nrm : FArr Ideal S1700000} {h : FArr Ideal S100000x128}
    {b : FArr Ideal S128} (hn : AllReal nrm) (hh : AllReal h) (hb : AllReal b) :
    AllReal (agg128 (F := Ideal) src dst nrm h b) :=
  AllReal.addf
    (scatterAdd_allReal _ _
      (AllReal.broadcastInDim _ _ (AllReal.constant _ zero_word_finite))
      (AllReal.mulf (gather_allReal _ _ hh)
        (AllReal.broadcastInDim _ _ (AllReal.broadcastInDim _ _ hn))))
    (AllReal.broadcastInDim _ _ (AllReal.broadcastInDim _ _ hb))

theorem agg64_allReal (src dst : IArr Ideal S1700000) {nrm : FArr Ideal S1700000} {h : FArr Ideal S100000x64}
    {b : FArr Ideal S64} (hn : AllReal nrm) (hh : AllReal h) (hb : AllReal b) :
    AllReal (agg64 (F := Ideal) src dst nrm h b) :=
  AllReal.addf
    (scatterAdd_allReal _ _
      (AllReal.broadcastInDim _ _ (AllReal.constant _ zero_word_finite))
      (AllReal.mulf (gather_allReal _ _ hh)
        (AllReal.broadcastInDim _ _ (AllReal.broadcastInDim _ _ hn))))
    (AllReal.broadcastInDim _ _ (AllReal.broadcastInDim _ _ hb))

theorem mm128_allReal {x : FArr Ideal S100000x128} {w : FArr Ideal S128x128} (hx : AllReal x) (hw : AllReal w) :
    AllReal (mm128 (F := Ideal) x w) :=
  AllReal.dotGeneral _ none hx hw

theorem mm64_allReal {x : FArr Ideal S100000x128} {w : FArr Ideal S128x64} (hx : AllReal x) (hw : AllReal w) :
    AllReal (mm64 (F := Ideal) x w) :=
  AllReal.dotGeneral _ none hx hw

end Cert.Layers

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.PreReal.lean ====
/-
  From the precondition "every float argument is finite" to realness of the arguments at the ideal values.

  The predicate is the conjunction, one conjunct per float argument, of "all entries have an absolute value below
  +infinity".  A conjunction of one-bit words that is one has every conjunct one; an all-reduction by "and" that is
  one has a one at every entry; and an extended real whose absolute value is below +infinity is a real number.
-/
import proofs.«142432_j2886218022958_1_alg».proof.Defs
import proofs.«142432_j2886218022958_1_alg».proof.Proof.LibAllReal
import proofs.«142432_j2886218022958_1_alg».proof.Proof.LibRealEntry
import Idealize.ShloMosaic.Lib.ReduceAll

noncomputable section

namespace Cert.PreReal

open Idealize.ShloMosaic Idealize.ShloMosaic.TcCoe Cert.KernelIdeal.Real Cert.Pre_finite_inputs

/-- The shape with no axes has one index. -/
instance subsingleton_scalar_idx : Subsingleton S_.Idx := ⟨fun _ _ => funext fun d => d.elim0⟩

/-- One conjunct: if "all entries of |x| are below +infinity" is one, every entry of x is a real number. -/
theorem allReal_of_all {s : Shape} {axes : List (Fin s.rank)} (x : FVec Ideal s .f32) (dims : Fin S_.rank → Fin s.rank)
    (hb : S_.BroadcastsInDim s dims) (h : s.ReducesTo axes S_) (hu : 0 < S_.numel) (init : IVec S_ 1)
    (e : Host.reduce IntOp.andi
        (cmpf .olt (Host.absf x) (broadcastInDim s dims hb (constant S_ .f32 0x7F800000#32))) init h hu ValueIdx.ix0 = 1#1) :
    AllReal x := fun i =>
  Cert.LibRealEntry.real_of_abs_lt_inf (x i) (Host.reduce_andi_all _ init h hu ValueIdx.ix0 e i)

variable [Cert.Pre_finite_inputs.Facts]

/-- The predicate is all ones only on real float arguments. -/
theorem fn_allReal (a0 : FVec Ideal S100000x128 .f32) (a1 : FVec Ideal S128x128 .f32) (a2 a3 a4 : FVec Ideal S128 .f32)
    (a5 : FVec Ideal S128x128 .f32) (a6 a7 a8 : FVec Ideal S128 .f32) (a9 : FVec Ideal S128x64 .f32)
    (a10 : FVec Ideal S64 .f32) (a11 : IVec S2x1600000 32)
    (h : Cert.Pre_finite_inputs.fn (F := Ideal) a0 a1 a2 a3 a4 a5 a6 a7 a8 a9 a10 a11 = fun _ => 1#1) :
    AllReal a0 ∧ AllReal a1 ∧ AllReal a2 ∧ AllReal a3 ∧ AllReal a4 ∧ AllReal a5 ∧ AllReal a6 ∧ AllReal a7
      ∧ AllReal a8 ∧ AllReal a9 ∧ AllReal a10 := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ _ _ e0, allReal_of_all a1 _ _ _ _ _ e1, allReal_of_all a2 _ _ _ _ _ e2,
    allReal_of_all a3 _ _ _ _ _ e3, allReal_of_all a4 _ _ _ _ _ e4, allReal_of_all a5 _ _ _ _ _ e5,
    allReal_of_all a6 _ _ _ _ _ e6, allReal_of_all a7 _ _ _ _ _ e7, allReal_of_all a8 _ _ _ _ _ e8,
    allReal_of_all a9 _ _ _ _ _ e9, allReal_of_all a10 _ _ _ _ _ e10⟩

/-- Under the precondition every float argument of the program holds only real numbers, on every device:
    in the order x, W1, b1, g1, be1, W2, b2, g2, be2, W3, b3. -/
theorem pre_allReal
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := S100000x128) (m ((c.tc : Thread Cert.KernelIdeal.nD Cert.KernelIdeal.τ).loc Cert.KernelIdeal.main_arg0))
    ∧ AllReal (s := S128x128) (m ((c.tc : Thread Cert.KernelIdeal.nD Cert.KernelIdeal.τ).loc Cert.KernelIdeal.main_arg1))
    ∧ AllReal (s := S128) (m ((c.tc : Thread Cert.KernelIdeal.nD Cert.KernelIdeal.τ).loc Cert.KernelIdeal.main_arg2))
    ∧ AllReal (s := S128) (m ((c.tc : Thread Cert.KernelIdeal.nD Cert.KernelIdeal.τ).loc Cert.KernelIdeal.main_arg3))
    ∧ AllReal (s := S128) (m ((c.tc : Thread Cert.KernelIdeal.nD Cert.KernelIdeal.τ).loc Cert.KernelIdeal.main_arg4))
    ∧ AllReal (s := S128x128) (m ((c.tc : Thread Cert.KernelIdeal.nD Cert.KernelIdeal.τ).loc Cert.KernelIdeal.main_arg5))
    ∧ AllReal (s := S128) (m ((c.tc : Thread Cert.KernelIdeal.nD Cert.KernelIdeal.τ).loc Cert.KernelIdeal.main_arg6))
    ∧ AllReal (s := S128) (m ((c.tc : Thread Cert.KernelIdeal.nD Cert.KernelIdeal.τ).loc Cert.KernelIdeal.main_arg7))
    ∧ AllReal (s := S128) (m ((c.tc : Thread Cert.KernelIdeal.nD Cert.KernelIdeal.τ).loc Cert.KernelIdeal.main_arg8))
    ∧ AllReal (s := S128x64) (m ((c.tc : Thread Cert.KernelIdeal.nD Cert.KernelIdeal.τ).loc Cert.KernelIdeal.main_arg9))
    ∧ AllReal (s := S64) (m ((c.tc : Thread Cert.KernelIdeal.nD Cert.KernelIdeal.τ).loc Cert.KernelIdeal.main_arg10)) :=
  fn_allReal _ _ _ _ _ _ _ _ _ _ _ _ (h c)

end Cert.PreReal

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.BnMath.lean ====
/-
  The mathematics of a batch normalisation over the extended reals.

  For a column of n real numbers (n ≠ 0), taken in the extended reals, the mean of the squared deviations from the
  mean equals the mean of the squares less the square of the mean; all the quantities involved are real numbers, the
  variance a nonnegative one, and the normalised, scaled, shifted and rectified entry is a real number. The identity
  fails in general when an entry is infinite, so every statement carries the hypothesis that the entries are real.
-/
import Idealize.ShloMosaic.PureOps.Ideal

noncomputable section

namespace Cert.BnMath

open Idealize.ShloMosaic
open scoped BigOperators

/-! ## Sums and quotients of real numbers, taken in the extended reals -/

/-- The extended-real sum of finitely many real numbers is their real sum. -/
theorem coe_sum {ι : Type} (S : Finset ι) (x : ι → ℝ) :
    ∑ i ∈ S, (x i : EReal) = ((∑ i ∈ S, x i : ℝ) : EReal) := by
  classical
  induction S using Finset.induction_on with
  | empty => simp
  | insert a S ha ih => rw [Finset.sum_insert ha, Finset.sum_insert ha, ih, EReal.coe_add]

/-- The quotient of a real number by a nonzero real number is the real quotient. -/
theorem div_coe_coe (r : ℝ) {d : ℝ} (hd : d ≠ 0) : Ideal.div (r : EReal) (d : EReal) = ((r / d : ℝ) : EReal) := by
  rw [Ideal.div_coe hd, ← EReal.coe_mul, mul_one_div]

/-! ## The variance identity -/

/-- Over the reals: the mean of the squared deviations is the mean of the squares less the square of the mean. -/
theorem real_var_identity {n : ℕ} (hn : n ≠ 0) (x : Fin n → ℝ) :
    (∑ i, (x i - (∑ j, x j) / (n : ℝ)) * (x i - (∑ j, x j) / (n : ℝ))) / (n : ℝ)
      = (∑ i, x i * x i) / (n : ℝ) - (∑ j, x j) / (n : ℝ) * ((∑ j, x j) / (n : ℝ)) := by
  have hd : (n : ℝ) ≠ 0 := by exact_mod_cast hn
  generalize hm : (∑ j, x j) / (n : ℝ) = m
  have hs : ∑ j, x j = m * n := by rw [← hm]; field_simp
  have he : ∀ i, (x i - m) * (x i - m) = x i * x i - 2 * m * x i + m * m := fun i => by ring
  simp only [he, Finset.sum_add_distrib, Finset.sum_sub_distrib, ← Finset.mul_sum, Finset.sum_const,
    Finset.card_univ, Fintype.card_fin, nsmul_eq_mul, hs]
  field_simp
  ring

/-- Over the extended reals, for a column of real numbers: the two spellings of the variance agree. -/
theorem var_identity {n : ℕ} (hn : n ≠ 0) (d : ℝ) (hd : d = (n : ℝ)) (h : Fin n → EReal)
    (hh : ∀ i, ∃ r : ℝ, h i = (r : EReal)) :
    Ideal.div (∑ i, (h i - Ideal.div (∑ j, h j) (d : EReal)) * (h i - Ideal.div (∑ j, h j) (d : EReal))) (d : EReal)
      = Ideal.div (∑ i, h i * h i) (d : EReal)
        - Ideal.div (∑ j, h j) (d : EReal) * Ideal.div (∑ j, h j) (d : EReal) := by
  choose x hx using hh
  obtain rfl : h = fun i => (x i : EReal) := funext hx
  subst hd
  have hd0 : (n : ℝ) ≠ 0 := by exact_mod_cast hn
  simp only [coe_sum, div_coe_coe _ hd0, ← EReal.coe_sub, ← EReal.coe_mul]
  exact congrArg _ (real_var_identity hn x)

/-! ## The two constants -/

/-- The f32 word 0x47C35000 denotes the real number 100000. -/
theorem ofBits_100000 : Ideal.ofBits .f32 0x47C35000#32 = ((100000 : ℝ) : EReal) := by
  simp [Ideal.ofBits, Ideal.ieee, -EReal.coe_mul]; norm_num

/-- The f32 word 0x3727C5AC denotes a positive real number (about 1e-5). -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The f32 word 0x00000000 denotes zero. -/
theorem ofBits_zero : Ideal.ofBits .f32 0x00000000#32 = (0 : EReal) := by
  simp [Ideal.ofBits, Ideal.ieee]

/-! ## Realness -/

/-- The quotient of a real number by a nonzero real number is a real number. -/
theorem div_real {a : EReal} (ha : ∃ r : ℝ, a = (r : EReal)) {d : ℝ} (hd : d ≠ 0) :
    ∃ r : ℝ, Ideal.div a (d : EReal) = (r : EReal) := by
  obtain ⟨r, rfl⟩ := ha
  exact ⟨r / d, div_coe_coe r hd⟩

/-- The mean of a column of real numbers is a real number. -/
theorem mean_real {n : ℕ} (h : Fin n → EReal) (hh : ∀ i, ∃ r : ℝ, h i = (r : EReal)) {d : ℝ} (hd : d ≠ 0) :
    ∃ m : ℝ, Ideal.div (∑ j, h j) (d : EReal) = (m : EReal) := by
  choose x hx using hh
  obtain rfl : h = fun i => (x i : EReal) := funext hx
  exact ⟨(∑ j, x j) / d, by rw [coe_sum, div_coe_coe _ hd]⟩

/-- The mean of the squares of a column of real numbers is a real number. -/
theorem meansq_real {n : ℕ} (h : Fin n → EReal) (hh : ∀ i, ∃ r : ℝ, h i = (r : EReal)) {d : ℝ} (hd : d ≠ 0) :
    ∃ m : ℝ, Ideal.div (∑ j, h j * h j) (d : EReal) = (m : EReal) := by
  choose x hx using hh
  obtain rfl : h = fun i => (x i : EReal) := funext hx
  exact ⟨(∑ j, x j * x j) / d, by simp only [← EReal.coe_mul, coe_sum, div_coe_coe _ hd]⟩

/-- The variance of a column of real numbers, as the mean of the squared deviations from any real centre, is a
    nonnegative real number. -/
theorem var_real_nonneg {n : ℕ} (h : Fin n → EReal) (hh : ∀ i, ∃ r : ℝ, h i = (r : EReal)) (m : ℝ) {d : ℝ}
    (hd : 0 < d) :
    ∃ v : ℝ, 0 ≤ v ∧ Ideal.div (∑ i, (h i - (m : EReal)) * (h i - (m : EReal))) (d : EReal) = (v : EReal) := by
  choose x hx using hh
  obtain rfl : h = fun i => (x i : EReal) := funext hx
  refine ⟨(∑ i, (x i - m) * (x i - m)) / d,
    div_nonneg (Finset.sum_nonneg fun i _ => mul_self_nonneg _) hd.le, ?_⟩
  simp only [← EReal.coe_sub, ← EReal.coe_mul, coe_sum, div_coe_coe _ hd.ne']

/-- The reciprocal square root of a positive real number is the real one. -/
theorem rsqrt_pos {r : ℝ} (hr : 0 < r) : Ideal.rsqrt (r : EReal) = (((Real.sqrt r)⁻¹ : ℝ) : EReal) := by
  rw [Ideal.rsqrt_coe, if_neg (not_lt.2 hr.le), if_neg hr.ne']

/-- The normalised, scaled, shifted and rectified entry is a real number when its ingredients are: the scale g,
    the entry a, the centre m, a nonnegative variance v, a positive e, the shift b. -/
theorem bn_entry_real (g a m v e b : ℝ) (hv : 0 ≤ v) (he : 0 < e) :
    ∃ y : ℝ, max ((((g : EReal) * ((a : EReal) - (m : EReal))) * Ideal.rsqrt ((v : EReal) + (e : EReal))) + (b : EReal))
      (0 : EReal) = (y : EReal) := by
  refine ⟨max (g * (a - m) * (Real.sqrt (v + e))⁻¹ + b) 0, ?_⟩
  rw [← EReal.coe_add v e, rsqrt_pos (by linarith), ← EReal.coe_sub, ← EReal.coe_mul, ← EReal.coe_mul,
    ← EReal.coe_add, ← EReal.coe_zero]
  exact (EReal.coe_strictMono.monotone.map_max).symm

end Cert.BnMath

end
-- ==== Proof.BnRead.lean ====
/-
  The normalisation layer read entry by entry, over the extended reals.

  The column means, the centred features, the column variances and the normalised, scaled, shifted and rectified
  layer, each read at an index as the plain expression in the entries of its arguments; the layer keeps real entries
  real; and an array given entry by entry with the variance spelt as the mean of the squares less the square of the
  mean is the layer, when every entry of the features is a real number.
-/
import proofs.«142432_j2886218022958_1_alg».proof.Proof.Layers
import proofs.«142432_j2886218022958_1_alg».proof.Proof.LibAllReal
import proofs.«142432_j2886218022958_1_alg».proof.Proof.LibHostRead
import proofs.«142432_j2886218022958_1_alg».proof.Proof.BnMath

noncomputable section

namespace Cert.BnRead

open Idealize.ShloMosaic Idealize.ShloMosaic.ValueIdx Cert.ReferenceIdeal Cert.ReferenceIdeal.Facts₀ Cert.Layers
  Cert.KernelIdeal.Real Cert.LibHostRead Cert.BnMath
open scoped BigOperators

/-! ## The host's sum down the columns of a matrix -/

/-- The host's sum of each column of a matrix, from an initial value that is zero: at column q, the sum over the rows. -/
theorem hostSumAxis0_apply {a b : ℕ} (x : (⟨2, ![a, b]⟩ : Shape).Idx → EReal) {u : Shape} (init : u.Idx → EReal)
    (h' : (⟨2, ![a, b]⟩ : Shape).ReducesTo [0] ⟨1, ![b]⟩) (hu : 0 < u.numel)
    (hinit : init (Shape.Idx.first hu) = 0) (q : Fin b) :
    Host.reduceAdd (F := Ideal) (φ := .f32) x init h' hu (ix1 q) = ∑ r : Fin a, x (ix2 r q) := by
  have h : (⟨2, ![a, b]⟩ : Shape).Reduces [0] ⟨1, ![b]⟩ := ⟨h'.1, Nat.one_pos, h'.2⟩
  show Ideal.hostReduceAdd h' x (init (Shape.Idx.first hu)) (ix1 q) = _
  rw [hinit, Ideal.hostReduceAdd_single h' h x 0 (ix1 q), zero_add]
  exact Finset.sum_congr rfl fun k _ => congrArg x (funext fun ax => Fin.ext (match ax with | ⟨0, _⟩ => rfl | ⟨1, _⟩ => rfl))

/-! ## The column statistics -/

/-- The number of rows, as the value of its f32 word. -/
abbrev cN : EReal := Ideal.ofBits .f32 0x47C35000#32

/-- The small positive constant added to the variance, as the value of its f32 word. -/
abbrev cEps : EReal := Ideal.ofBits .f32 0x3727C5AC#32

/-- The mean of column q: the sum over the rows divided by the number of rows. -/
def colMean (h : FArr Ideal S100000x128) (q : Fin 128) : EReal :=
  Ideal.div (∑ r : Fin 100000, h (ix2 r q)) cN

/-- The mean of the squares of column q. -/
def colMeanSq (h : FArr Ideal S100000x128) (q : Fin 128) : EReal :=
  Ideal.div (∑ r : Fin 100000, h (ix2 r q) * h (ix2 r q)) cN

/-- The variance of column q: the mean of the squared deviations from the column mean. -/
def colVar (h : FArr Ideal S100000x128) (q : Fin 128) : EReal :=
  Ideal.div (∑ r : Fin 100000, (h (ix2 r q) - colMean h q) * (h (ix2 r q) - colMean h q)) cN

/-- The same mean with the sum started from the zero word. -/
theorem colMean_zero_add (h : FArr Ideal S100000x128) (q : Fin 128) :
    Ideal.div (Ideal.ofBits .f32 0x00000000#32 + ∑ r : Fin 100000, h (ix2 r q)) cN = colMean h q := by
  rw [ofBits_zero, zero_add]; rfl

/-- The same mean of squares with the sum started from the zero word. -/
theorem colMeanSq_zero_add (h : FArr Ideal S100000x128) (q : Fin 128) :
    Ideal.div (Ideal.ofBits .f32 0x00000000#32 + ∑ r : Fin 100000, h (ix2 r q) * h (ix2 r q)) cN = colMeanSq h q := by
  rw [ofBits_zero, zero_add]; rfl

/-! ## The layer's terms read at an index -/

theorem rows128_apply (v : FArr Ideal S128) (r : Fin 100000) (q : Fin 128) : rows128 v (ix2 r q) = v (ix1 q) :=
  bcastRow_apply (α := EReal) v _ _ r q

theorem meanT_apply (h : FArr Ideal S100000x128) (q : Fin 128) : meanT h (ix1 q) = colMean h q := by
  unfold meanT colMean
  rw [hostDivf_apply, hostSumAxis0_apply h _ _ _ ofBits_zero q]
  rfl

theorem cenT_apply (h : FArr Ideal S100000x128) (r : Fin 100000) (q : Fin 128) :
    cenT h (ix2 r q) = h (ix2 r q) - colMean h q := by
  unfold cenT
  rw [subf_apply, rows128_apply, meanT_apply]

theorem varT_apply (h : FArr Ideal S100000x128) (q : Fin 128) : varT h (ix1 q) = colVar h q := by
  unfold varT colVar
  rw [hostDivf_apply, hostSumAxis0_apply _ _ _ _ ofBits_zero q]
  simp only [mulf_apply, cenT_apply]
  rfl

theorem bnPre_apply (h : FArr Ideal S100000x128) (g be : FArr Ideal S128) (r : Fin 100000) (q : Fin 128) :
    bnPre h g be (ix2 r q)
      = ((g (ix1 q) * (h (ix2 r q) - colMean h q)) * Ideal.rsqrt (colVar h q + cEps)) + be (ix1 q) := by
  unfold bnPre
  rw [addf_apply, mulf_apply, mulf_apply, rows128_apply, rows128_apply, rows128_apply, cenT_apply, hostRsqrt_apply,
    addf_apply, varT_apply]
  rfl

theorem bn_apply (h : FArr Ideal S100000x128) (g be : FArr Ideal S128) (r : Fin 100000) (q : Fin 128) :
    bn h g be (ix2 r q)
      = max (((g (ix1 q) * (h (ix2 r q) - colMean h q)) * Ideal.rsqrt (colVar h q + cEps)) + be (ix1 q)) 0 := by
  unfold bn relu
  rw [maximumf_apply, bnPre_apply, bcastConst_apply, ofBits_zero]

/-! ## Real entries -/

/-- The mean of a column of real numbers is a real number. -/
theorem colMean_real {h : FArr Ideal S100000x128} (hh : AllReal (s := S100000x128) h) (q : Fin 128) :
    ∃ m : ℝ, colMean h q = (m : EReal) := by
  unfold colMean cN
  rw [ofBits_100000]
  exact mean_real (fun r => h (ix2 r q)) (fun r => hh (ix2 r q)) (by norm_num)

/-- The variance of a column of real numbers is a nonnegative real number. -/
theorem colVar_real {h : FArr Ideal S100000x128} (hh : AllReal (s := S100000x128) h) (q : Fin 128) :
    ∃ v : ℝ, 0 ≤ v ∧ colVar h q = (v : EReal) := by
  obtain ⟨m, hm⟩ := colMean_real hh q
  unfold colVar cN
  rw [ofBits_100000, hm]
  exact var_real_nonneg (fun r => h (ix2 r q)) (fun r => hh (ix2 r q)) m (by norm_num)

/-- For a column of real numbers the variance is the mean of the squares less the square of the mean. -/
theorem colVar_eq {h : FArr Ideal S100000x128} (hh : AllReal (s := S100000x128) h) (q : Fin 128) :
    colVar h q = colMeanSq h q - colMean h q * colMean h q := by
  unfold colVar colMeanSq colMean cN
  rw [ofBits_100000]
  exact var_identity (n := 100000) (by norm_num) 100000 (by norm_num) (fun r => h (ix2 r q)) (fun r => hh (ix2 r q))

/-- The layer keeps real entries real. -/
theorem bn_allReal {h : FArr Ideal S100000x128} {g be : FArr Ideal S128} (hh : AllReal (s := S100000x128) h)
    (hg : AllReal (s := S128) g) (hbe : AllReal (s := S128) be) : AllReal (s := S100000x128) (bn h g be) := fun j => by
  obtain ⟨r, q, rfl⟩ : ∃ r q, j = ix2 r q := ⟨j 0, j 1, eq_ix2 j⟩
  obtain ⟨m, hm⟩ := colMean_real hh q
  obtain ⟨v, hv0, hv⟩ := colVar_real hh q
  obtain ⟨e, he0, he⟩ := ofBits_eps
  obtain ⟨gq, hgq⟩ := hg (ix1 q)
  obtain ⟨bq, hbq⟩ := hbe (ix1 q)
  obtain ⟨a, ha⟩ := hh (ix2 r q)
  rw [bn_apply, hm, hv, hgq, hbq, ha, show cEps = (e : EReal) from he]
  exact bn_entry_real gq a m v e bq hv0 he0

/-! ## The bridge from the other spelling of the variance -/

/-- An array that is, entry by entry, the rectified normalisation with the variance spelt as the mean of the squares
    less the square of the mean is the layer, when every entry of the features is a real number. -/
theorem bn_of_kernel_form (h : FArr Ideal S100000x128) (g be : FArr Ideal S128) (hh : AllReal (s := S100000x128) h)
    (Y : FArr Ideal S100000x128)
    (hY : ∀ (r : Fin 100000) (q : Fin 128), Y (ix2 r q)
      = max (((g (ix1 q) * (h (ix2 r q) - colMean h q))
          * Ideal.rsqrt ((colMeanSq h q - colMean h q * colMean h q) + cEps)) + be (ix1 q)) 0) :
    Y = bn h g be := by
  funext j
  obtain ⟨r, q, rfl⟩ : ∃ r q, j = ix2 r q := ⟨j 0, j 1, eq_ix2 j⟩
  rw [hY, bn_apply, colVar_eq hh]

/-- The same with the column means and variances given as functions of the column: the means are the column means and
    the variances are the means of the squares less the squares of the means. -/
theorem bn_of_kernel_stats (h : FArr Ideal S100000x128) (g be : FArr Ideal S128) (hh : AllReal (s := S100000x128) h)
    (M V : Fin 128 → EReal) (hM : ∀ q, M q = colMean h q) (hV : ∀ q, V q = colMeanSq h q - M q * M q)
    (Y : FArr Ideal S100000x128)
    (hY : ∀ (r : Fin 100000) (q : Fin 128), Y (ix2 r q)
      = max (((g (ix1 q) * (h (ix2 r q) - M q)) * Ideal.rsqrt (V q + cEps)) + be (ix1 q)) 0) :
    Y = bn h g be :=
  bn_of_kernel_form h g be hh Y fun r q => by rw [hY, hV, hM]

end Cert.BnRead

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.MmRead.lean ====
/-
  The layers' matrix products read entry by entry, over the extended reals: the product of the features with a
  weight matrix is, at (r, q), the sum over k of feature (r, k) times weight (k, q); an array that is this sum at
  every entry is the product; and a vector re-laid as a one-row matrix reads, at (0, q), its entry q.
-/
import proofs.«142432_j2886218022958_1_alg».proof.Proof.Layers
import proofs.«142432_j2886218022958_1_alg».proof.Proof.LibDot
import Idealize.ShloMosaic.Lib.ValueLayout

noncomputable section

namespace Cert.MmRead

open Idealize.ShloMosaic Idealize.ShloMosaic.ValueIdx Cert.ReferenceIdeal Cert.ReferenceIdeal.Facts₀ Cert.Layers
open scoped BigOperators

/-- The product with a 128×128 weight matrix at (r, q): the sum over the contracted coordinate. -/
theorem mm128_apply (x : FArr Ideal S100000x128) (w : FArr Ideal S128x128) (r : Fin 100000) (q : Fin 128) :
    mm128 (F := Ideal) x w (ix2 r q) = ∑ k : Fin 128, x (ix2 r k) * w (ix2 k q) :=
  LibDot.dotGeneral_apply (φ₁ := .f32) (φ₂ := .f32) dot_S100000x128_S128x128_S100000x128_1_0_0_1_n_n_wf none x w r q

/-- The product with a 128×64 weight matrix at (r, q). -/
theorem mm64_apply (x : FArr Ideal S100000x128) (w : FArr Ideal S128x64) (r : Fin 100000) (q : Fin 64) :
    mm64 (F := Ideal) x w (ix2 r q) = ∑ k : Fin 128, x (ix2 r k) * w (ix2 k q) :=
  LibDot.dotGeneral_apply (φ₁ := .f32) (φ₂ := .f32) dot_S100000x128_S128x64_S100000x64_1_0_0_1_n_n_wf none x w r q

/-- An array that is, at every entry, the sum over k of feature (r, k) times weight (k, q) is the product. -/
theorem mm_of_rows (x : FArr Ideal S100000x128) (w : FArr Ideal S128x128) (Y : FArr Ideal S100000x128)
    (hY : ∀ (r : Fin 100000) (q : Fin 128), Y (ix2 r q) = ∑ k : Fin 128, x (ix2 r k) * w (ix2 k q)) :
    Y = mm128 x w := by
  funext j
  obtain ⟨r, q, rfl⟩ : ∃ r q, j = ix2 r q := ⟨j 0, j 1, eq_ix2 j⟩
  rw [hY, mm128_apply]

/-- The same for the 128×64 weight matrix. -/
theorem mm64_of_rows (x : FArr Ideal S100000x128) (w : FArr Ideal S128x64) (Y : FArr Ideal S100000x64)
    (hY : ∀ (r : Fin 100000) (q : Fin 64), Y (ix2 r q) = ∑ k : Fin 128, x (ix2 r k) * w (ix2 k q)) :
    Y = mm64 x w := by
  funext j
  obtain ⟨r, q, rfl⟩ : ∃ r q, j = ix2 r q := ⟨j 0, j 1, eq_ix2 j⟩
  rw [hY, mm64_apply]

/-- A vector of 128 entries re-laid as a one-row matrix reads, at (0, q), entry q. -/
theorem row_apply (v : FArr Ideal S128) (hc : S128.ShapeCasts S1x128) (q : Fin 128) :
    (shapeCast S1x128 v hc : FArr Ideal S1x128) (ix2 0 q) = v (ix1 q) :=
  shapeCast_a_1a_apply (α := EReal) v hc 0 q

end Cert.MmRead

end
-- ==== Proof.Bridge.lean ====
/-
  The two results of the program at the end of its run, as the network's layers of the launch arguments, at the
  ideal values.

  Given what each region leaves in its output arrays as whole arrays of what it found at its entry (a matrix product
  as the sum over the contracted coordinate; the column means; the column means of squares less the squared means;
  the normalised, scaled, shifted and rectified array), the boundaries of the run are followed one by one: each
  product is the layers' product of what the boundary before it holds, each aggregation stretch the layers'
  aggregation, and, the features being real under the precondition, the normalisation with the variance spelt the
  second way is the layers' normalisation.
-/
import proofs.«142432_j2886218022958_1_alg».proof.Proof.BridgeFold
import proofs.«142432_j2886218022958_1_alg».proof.Proof.LayersReal
import proofs.«142432_j2886218022958_1_alg».proof.Proof.PreReal
import proofs.«142432_j2886218022958_1_alg».proof.Proof.BnRead
import proofs.«142432_j2886218022958_1_alg».proof.Proof.MmRead

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.KernelIdeal.Real
open scoped BigOperators

/-! ## The shapes of the regions' results, over plain arrays -/

/-- The contents of every buffer of every core, read at the TensorCore's references. -/
abbrev Vals : Type := (c : Dev nD) → (b : Ref sig .tc) → Buf (Elt Ideal) ((c : Thread nD τ).loc b)

/-- The product of two matrices, index by index: the sum over the contracted coordinate. -/
abbrev prodArr {M k n : Nat} (A : (⟨2, ![M, k]⟩ : Shape).Idx → Elt Ideal .f32) (B : (⟨2, ![k, n]⟩ : Shape).Idx → Elt Ideal .f32) :
    (⟨2, ![M, n]⟩ : Shape).Idx → Elt Ideal .f32 :=
  fun i => ∑ c : Fin k, A (ix2 (i 0) c) * B (ix2 c (i 1))

/-- The features normalised by a row of means and a row of variances, scaled and shifted by two more rows, and
    rectified, index by index. -/
abbrev actArr (X : S100000x128.Idx → Elt Ideal .f32) (Mn Vr Gm Bt : S1x128.Idx → Elt Ideal .f32) :
    S100000x128.Idx → Elt Ideal .f32 :=
  fun i => max ((Gm (ix2 (0 : Fin 1) (i 1)) * (X i - Mn (ix2 (0 : Fin 1) (i 1))))
      * Ideal.rsqrt (Vr (ix2 (0 : Fin 1) (i 1)) + Ideal.ofBits .f32 0x3727C5AC#32) + Bt (ix2 (0 : Fin 1) (i 1)))
    (Ideal.ofBits .f32 0x00000000#32)

theorem actArr_congr {X X' : S100000x128.Idx → Elt Ideal .f32} {Mn Mn' Vr Vr' Gm Gm' Bt Bt' : S1x128.Idx → Elt Ideal .f32}
    (hx : X = X') (hm : Mn = Mn') (hv : Vr = Vr') (hg : Gm = Gm') (hb : Bt = Bt') :
    actArr X Mn Vr Gm Bt = actArr X' Mn' Vr' Gm' Bt' := by
  subst hx; subst hm; subst hv; subst hg; subst hb; rfl

/-- The index-by-index product is the layers' product with a 128×128 weight matrix. -/
theorem prodArr_eq_mm128 (x : Cert.Layers.FArr Ideal Cert.ReferenceIdeal.S100000x128)
    (w : Cert.Layers.FArr Ideal Cert.ReferenceIdeal.S128x128) :
    prodArr (M := 100000) (k := 128) (n := 128) x w = Cert.Layers.mm128 (F := Ideal) x w :=
  Cert.MmRead.mm_of_rows x w _ fun _ _ => rfl

/-- The index-by-index product is the layers' product with a 128×64 weight matrix. -/
theorem prodArr_eq_mm64 (x : Cert.Layers.FArr Ideal Cert.ReferenceIdeal.S100000x128)
    (w : Cert.Layers.FArr Ideal Cert.ReferenceIdeal.S128x64) :
    prodArr (M := 100000) (k := 128) (n := 64) x w = Cert.Layers.mm64 (F := Ideal) x w :=
  Cert.MmRead.mm64_of_rows x w _ fun _ _ => rfl

/-- On real features, the normalisation by the column means and by the means of squares less the squared means,
    with the scale and shift vectors laid as rows, is the layers' normalisation. -/
theorem actArr_eq_bn (h : Cert.Layers.FArr Ideal Cert.ReferenceIdeal.S100000x128)
    (g be : Cert.Layers.FArr Ideal Cert.ReferenceIdeal.S128)
    (hc : Cert.ReferenceIdeal.S128.ShapeCasts Cert.ReferenceIdeal.S1x128)
    (hh : AllReal (s := Cert.ReferenceIdeal.S100000x128) h) :
    actArr h (fun i : S1x128.Idx => Cert.BnRead.colMean h (i 1))
        (fun i : S1x128.Idx => Cert.BnRead.colMeanSq h (i 1) - Cert.BnRead.colMean h (i 1) * Cert.BnRead.colMean h (i 1))
        (shapeCast Cert.ReferenceIdeal.S1x128 g hc) (shapeCast Cert.ReferenceIdeal.S1x128 be hc)
      = Cert.Layers.bn (F := Ideal) h g be := by
  refine Cert.BnRead.bn_of_kernel_form h g be hh _ fun r q => ?_
  show max ((shapeCast Cert.ReferenceIdeal.S1x128 g hc (ix2 0 q) * (h (ix2 r q) - Cert.BnRead.colMean h q))
      * Ideal.rsqrt ((Cert.BnRead.colMeanSq h q - Cert.BnRead.colMean h q * Cert.BnRead.colMean h q) + Cert.BnRead.cEps)
      + shapeCast Cert.ReferenceIdeal.S1x128 be hc (ix2 0 q)) (Ideal.ofBits .f32 0x00000000#32) = _
  rw [Cert.MmRead.row_apply g hc q, Cert.MmRead.row_apply be hc q, Cert.BnMath.ofBits_zero]

/-! ## The launch arguments and the layers before their normalisations -/

variable (m : (ℓ : Loc nD τ sig) → Buf (Elt Ideal) ℓ) (ρ : Dev nD → PrngReg) (c : Dev nD)

/-- The features. -/
abbrev aX : Cert.Layers.FArr Ideal Cert.ReferenceIdeal.S100000x128 := m ((c : Thread nD τ).loc main_arg0)
/-- The first weight matrix, bias, scale and shift. -/
abbrev aW1 : Cert.Layers.FArr Ideal Cert.ReferenceIdeal.S128x128 := m ((c : Thread nD τ).loc main_arg1)
abbrev aB1 : Cert.Layers.FArr Ideal Cert.ReferenceIdeal.S128 := m ((c : Thread nD τ).loc main_arg2)
abbrev aG1 : Cert.Layers.FArr Ideal Cert.ReferenceIdeal.S128 := m ((c : Thread nD τ).loc main_arg3)
abbrev aBe1 : Cert.Layers.FArr Ideal Cert.ReferenceIdeal.S128 := m ((c : Thread nD τ).loc main_arg4)
/-- The second weight matrix, bias, scale and shift. -/
abbrev aW2 : Cert.Layers.FArr Ideal Cert.ReferenceIdeal.S128x128 := m ((c : Thread nD τ).loc main_arg5)
abbrev aB2 : Cert.Layers.FArr Ideal Cert.ReferenceIdeal.S128 := m ((c : Thread nD τ).loc main_arg6)
abbrev aG2 : Cert.Layers.FArr Ideal Cert.ReferenceIdeal.S128 := m ((c : Thread nD τ).loc main_arg7)
abbrev aBe2 : Cert.Layers.FArr Ideal Cert.ReferenceIdeal.S128 := m ((c : Thread nD τ).loc main_arg8)
/-- The third weight matrix and bias. -/
abbrev aW3 : Cert.Layers.FArr Ideal Cert.ReferenceIdeal.S128x64 := m ((c : Thread nD τ).loc main_arg9)
abbrev aB3 : Cert.Layers.FArr Ideal Cert.ReferenceIdeal.S64 := m ((c : Thread nD τ).loc main_arg10)
/-- The edge table. -/
abbrev aE : Cert.Layers.IArr Ideal Cert.ReferenceIdeal.S2x1600000 := m ((c : Thread nD τ).loc main_arg11)

/-- The source list, the target list and the edge weights of the launched edge table. -/
abbrev aSrc : Cert.Layers.IArr Ideal Cert.ReferenceIdeal.S1700000 := Cert.Layers.srcT (F := Ideal) (aE m c)
abbrev aDst : Cert.Layers.IArr Ideal Cert.ReferenceIdeal.S1700000 := Cert.Layers.dstT (F := Ideal) (aE m c)
abbrev aNrm : Cert.Layers.FArr Ideal Cert.ReferenceIdeal.S1700000 :=
  Cert.Layers.normT (F := Ideal) (aSrc m c) (aDst m c)

/-- The first layer before its normalisation. -/
abbrev H1 : Cert.Layers.FArr Ideal Cert.ReferenceIdeal.S100000x128 :=
  Cert.Layers.agg128 (F := Ideal) (aSrc m c) (aDst m c) (aNrm m c) (Cert.Layers.mm128 (F := Ideal) (aX m c) (aW1 m c)) (aB1 m c)

/-- The first layer. -/
abbrev L1 : Cert.Layers.FArr Ideal Cert.ReferenceIdeal.S100000x128 :=
  Cert.Layers.bn (F := Ideal) (H1 m c) (aG1 m c) (aBe1 m c)

/-- The second layer before its normalisation. -/
abbrev H2 : Cert.Layers.FArr Ideal Cert.ReferenceIdeal.S100000x128 :=
  Cert.Layers.agg128 (F := Ideal) (aSrc m c) (aDst m c) (aNrm m c) (Cert.Layers.mm128 (F := Ideal) (L1 m c) (aW2 m c)) (aB2 m c)

/-- The second layer: the hidden features. -/
abbrev L2 : Cert.Layers.FArr Ideal Cert.ReferenceIdeal.S100000x128 :=
  Cert.Layers.bn (F := Ideal) (H2 m c) (aG2 m c) (aBe2 m c)

theorem L2_eq_hidden : L2 m c = Cert.Layers.hidden (F := Ideal) (aX m c) (aW1 m c) (aB1 m c) (aG1 m c) (aBe1 m c)
    (aW2 m c) (aB2 m c) (aG2 m c) (aBe2 m c) (aE m c) := rfl

/-! ## Real entries under the precondition -/

section Real
variable [Cert.Pre_finite_inputs.Facts] (hpre : Cert.Pre_KernelIdeal m)
include hpre

theorem H1_allReal : AllReal (s := Cert.ReferenceIdeal.S100000x128) (H1 m c) := by
  obtain ⟨h0, h1, h2, -⟩ := Cert.PreReal.pre_allReal m hpre c
  exact Cert.Layers.agg128_allReal _ _ (Cert.Layers.normT_allReal _ _) (Cert.Layers.mm128_allReal h0 h1) h2

theorem L1_allReal : AllReal (s := Cert.ReferenceIdeal.S100000x128) (L1 m c) := by
  obtain ⟨-, -, -, h3, h4, -⟩ := Cert.PreReal.pre_allReal m hpre c
  exact Cert.BnRead.bn_allReal (H1_allReal m c hpre) h3 h4

theorem H2_allReal : AllReal (s := Cert.ReferenceIdeal.S100000x128) (H2 m c) := by
  obtain ⟨-, -, -, -, -, h5, h6, -⟩ := Cert.PreReal.pre_allReal m hpre c
  exact Cert.Layers.agg128_allReal _ _ (Cert.Layers.normT_allReal _ _) (Cert.Layers.mm128_allReal (L1_allReal m c hpre) h5) h6

end Real

/-! ## What the regions leave, as hypotheses -/

/-- Region 0 leaves the product of the two arrays it found. -/
def LeavesMm0 : Prop := ∀ (V : Vals) (c : Dev nD), (dat0 V c).arrAt 2 cfg0.N
  = prodArr (M := 100000) (k := 128) (n := 128) (V c (Pipeline.arrRef spec0 0)) (V c (Pipeline.arrRef spec0 1))
/-- Region 3 leaves the product of the two arrays it found. -/
def LeavesMm3 : Prop := ∀ (V : Vals) (c : Dev nD), (dat3 V c).arrAt 2 cfg3.N
  = prodArr (M := 100000) (k := 128) (n := 128) (V c (Pipeline.arrRef spec3 0)) (V c (Pipeline.arrRef spec3 1))
/-- Region 6 leaves the product of the two arrays it found. -/
def LeavesMm6 : Prop := ∀ (V : Vals) (c : Dev nD), (dat6 V c).arrAt 2 cfg6.N
  = prodArr (M := 100000) (k := 128) (n := 64) (V c (Pipeline.arrRef spec6 0)) (V c (Pipeline.arrRef spec6 1))
/-- Region 1 leaves the column means of the array it found. -/
def LeavesMean1 : Prop := ∀ (V : Vals) (c : Dev nD), (dat1 V c).arrAt 1 cfg1.N
  = fun i : S1x128.Idx => Cert.BnRead.colMean (V c (Pipeline.arrRef spec1 0)) (i 1)
/-- Region 1 leaves the column means of squares less the squared column means of the array it found. -/
def LeavesVar1 : Prop := ∀ (V : Vals) (c : Dev nD), (dat1 V c).arrAt 2 cfg1.N
  = fun i : S1x128.Idx => Cert.BnRead.colMeanSq (V c (Pipeline.arrRef spec1 0)) (i 1)
      - Cert.BnRead.colMean (V c (Pipeline.arrRef spec1 0)) (i 1) * Cert.BnRead.colMean (V c (Pipeline.arrRef spec1 0)) (i 1)
/-- Region 4 leaves the column means of the array it found. -/
def LeavesMean4 : Prop := ∀ (V : Vals) (c : Dev nD), (dat4 V c).arrAt 1 cfg4.N
  = fun i : S1x128.Idx => Cert.BnRead.colMean (V c (Pipeline.arrRef spec4 0)) (i 1)
/-- Region 4 leaves the column means of squares less the squared column means of the array it found. -/
def LeavesVar4 : Prop := ∀ (V : Vals) (c : Dev nD), (dat4 V c).arrAt 2 cfg4.N
  = fun i : S1x128.Idx => Cert.BnRead.colMeanSq (V c (Pipeline.arrRef spec4 0)) (i 1)
      - Cert.BnRead.colMean (V c (Pipeline.arrRef spec4 0)) (i 1) * Cert.BnRead.colMean (V c (Pipeline.arrRef spec4 0)) (i 1)
/-- Region 2 leaves the normalised, scaled, shifted and rectified array of the five arrays it found. -/
def LeavesAct2 : Prop := ∀ (V : Vals) (c : Dev nD), (dat2 V c).arrAt 5 cfg2.N
  = actArr (V c (Pipeline.arrRef spec2 0)) (V c (Pipeline.arrRef spec2 1)) (V c (Pipeline.arrRef spec2 2))
      (V c (Pipeline.arrRef spec2 3)) (V c (Pipeline.arrRef spec2 4))
/-- Region 5 leaves the normalised, scaled, shifted and rectified array of the five arrays it found. -/
def LeavesAct5 : Prop := ∀ (V : Vals) (c : Dev nD), (dat5 V c).arrAt 5 cfg5.N
  = actArr (V c (Pipeline.arrRef spec5 0)) (V c (Pipeline.arrRef spec5 1)) (V c (Pipeline.arrRef spec5 2))
      (V c (Pipeline.arrRef spec5 3)) (V c (Pipeline.arrRef spec5 4))

/-- What the seven regions leave in their output arrays, from any contents at their entries. -/
structure RegionVals : Prop where
  mm0 : LeavesMm0
  mm3 : LeavesMm3
  mm6 : LeavesMm6
  mean1 : LeavesMean1
  var1 : LeavesVar1
  mean4 : LeavesMean4
  var4 : LeavesVar4
  act2 : LeavesAct2
  act5 : LeavesAct5

variable (hv : RegionVals)
include hv

/-! ## The first layer -/

/-- Region 0 leaves the first product. -/
theorem s0 : W2 m ρ c (Proc.devRef .tc main_v29) = Cert.Layers.mm128 (F := Ideal) (aX m c) (aW1 m c) :=
  (W2_arr m ρ c 2).trans <| (hv.mm0 (V1 m ρ) c).trans <|
    (congrArg₂ (prodArr (M := 100000) (k := 128) (n := 128)) (arg0_at1 m ρ c) (arg1_at1 m ρ c)).trans
      (prodArr_eq_mm128 _ _)

/-- The first aggregation stretch leaves the first layer before its normalisation. -/
theorem s1 : W3 m ρ c (Proc.devRef .tc main_v45) = H1 m c :=
  (h1_eq m ρ c).trans
    (congrArg (fun t => Cert.Layers.agg128 (F := Ideal) (aSrc m c) (aDst m c) (aNrm m c) t (aB1 m c)) (s0 m ρ c hv))

/-- Region 1 leaves the column means of the first layer before its normalisation. -/
theorem s2m : W4 m ρ c (Proc.devRef .tc main_v46_0)
    = fun i : S1x128.Idx => Cert.BnRead.colMean (H1 m c) (i 1) :=
  (W4_arr m ρ c 1).trans <| (hv.mean1 (V3 m ρ) c).trans <| congrArg (fun (t : Cert.Layers.FArr Ideal Cert.ReferenceIdeal.S100000x128) => fun i : S1x128.Idx => Cert.BnRead.colMean t (i 1)) (s1 m ρ c hv)

/-- Region 1 leaves its column means of squares less the squared column means. -/
theorem s2v : W4 m ρ c (Proc.devRef .tc main_v46_1)
    = fun i : S1x128.Idx => Cert.BnRead.colMeanSq (H1 m c) (i 1)
        - Cert.BnRead.colMean (H1 m c) (i 1) * Cert.BnRead.colMean (H1 m c) (i 1) :=
  (W4_arr m ρ c 2).trans <| (hv.var1 (V3 m ρ) c).trans <| congrArg (fun (t : Cert.Layers.FArr Ideal Cert.ReferenceIdeal.S100000x128) => fun i : S1x128.Idx =>
      Cert.BnRead.colMeanSq t (i 1) - Cert.BnRead.colMean t (i 1) * Cert.BnRead.colMean t (i 1)) (s1 m ρ c hv)

variable [Cert.Pre_finite_inputs.Facts] (hpre : Cert.Pre_KernelIdeal m)
include hpre

/-- Region 2 leaves the first layer. -/
theorem s3 : W6 m ρ c (Proc.devRef .tc main_v49) = L1 m c :=
  (W6_arr m ρ c 5).trans <| (hv.act2 (V5 m ρ) c).trans <|
    (actArr_congr ((h1_at5 m ρ c).trans (s1 m ρ c hv)) ((mean1_at5 m ρ c).trans (s2m m ρ c hv))
      ((var1_at5 m ρ c).trans (s2v m ρ c hv)) (g1_row m ρ c) (be1_row m ρ c)).trans
    (actArr_eq_bn (H1 m c) (aG1 m c) (aBe1 m c) Facts₀.shapeCasts_S128_S1x128 (H1_allReal m c hpre))

/-! ## The second layer -/

/-- Region 3 leaves the second product. -/
theorem s4 : W7 m ρ c (Proc.devRef .tc main_v50) = Cert.Layers.mm128 (F := Ideal) (L1 m c) (aW2 m c) :=
  (W7_arr m ρ c 2).trans <| (hv.mm3 (V6 m ρ) c).trans <|
    (congrArg₂ (prodArr (M := 100000) (k := 128) (n := 128)) (s3 m ρ c hv hpre) (arg5_at6 m ρ c)).trans
      (prodArr_eq_mm128 _ _)

/-- The second aggregation stretch leaves the second layer before its normalisation. -/
theorem s5 : W8 m ρ c (Proc.devRef .tc main_v66) = H2 m c :=
  (h2_eq m ρ c).trans
    (congrArg (fun t => Cert.Layers.agg128 (F := Ideal) (aSrc m c) (aDst m c) (aNrm m c) t (aB2 m c)) (s4 m ρ c hv hpre))

/-- Region 4 leaves the column means of the second layer before its normalisation. -/
theorem s6m : W9 m ρ c (Proc.devRef .tc main_v67_0)
    = fun i : S1x128.Idx => Cert.BnRead.colMean (H2 m c) (i 1) :=
  (W9_arr m ρ c 1).trans <| (hv.mean4 (V8 m ρ) c).trans <| congrArg (fun (t : Cert.Layers.FArr Ideal Cert.ReferenceIdeal.S100000x128) => fun i : S1x128.Idx => Cert.BnRead.colMean t (i 1)) (s5 m ρ c hv hpre)

/-- Region 4 leaves its column means of squares less the squared column means. -/
theorem s6v : W9 m ρ c (Proc.devRef .tc main_v67_1)
    = fun i : S1x128.Idx => Cert.BnRead.colMeanSq (H2 m c) (i 1)
        - Cert.BnRead.colMean (H2 m c) (i 1) * Cert.BnRead.colMean (H2 m c) (i 1) :=
  (W9_arr m ρ c 2).trans <| (hv.var4 (V8 m ρ) c).trans <| congrArg (fun (t : Cert.Layers.FArr Ideal Cert.ReferenceIdeal.S100000x128) => fun i : S1x128.Idx =>
      Cert.BnRead.colMeanSq t (i 1) - Cert.BnRead.colMean t (i 1) * Cert.BnRead.colMean t (i 1)) (s5 m ρ c hv hpre)

/-- Region 5 leaves the second layer: the hidden features. -/
theorem s7 : W11 m ρ c (Proc.devRef .tc main_v70) = L2 m c :=
  (W11_arr m ρ c 5).trans <| (hv.act5 (V10 m ρ) c).trans <|
    (actArr_congr ((h2_at10 m ρ c).trans (s5 m ρ c hv hpre)) ((mean2_at10 m ρ c).trans (s6m m ρ c hv hpre))
      ((var2_at10 m ρ c).trans (s6v m ρ c hv hpre)) (g2_row m ρ c) (be2_row m ρ c)).trans
    (actArr_eq_bn (H2 m c) (aG2 m c) (aBe2 m c) Facts₀.shapeCasts_S128_S1x128 (H2_allReal m c hpre))

/-! ## The third layer and the two results -/

/-- Region 6 leaves the third product. -/
theorem s8 : W12 m ρ c (Proc.devRef .tc main_v71) = Cert.Layers.mm64 (F := Ideal) (L2 m c) (aW3 m c) :=
  (W12_arr m ρ c 2).trans <| (hv.mm6 (V11 m ρ) c).trans <|
    (congrArg₂ (prodArr (M := 100000) (k := 128) (n := 64)) (s7 m ρ c hv hpre) (arg9_at11 m ρ c)).trans
      (prodArr_eq_mm64 _ _)

/-- At the end of the run the first result buffer holds the hidden features of the launch arguments. -/
theorem hidden_value : W13 m ρ c (Proc.devRef .tc main_v70)
    = Cert.Layers.hidden (F := Ideal) (aX m c) (aW1 m c) (aB1 m c) (aG1 m c) (aBe1 m c) (aW2 m c) (aB2 m c)
        (aG2 m c) (aBe2 m c) (aE m c) :=
  (hid_at13 m ρ c).trans ((s7 m ρ c hv hpre).trans (L2_eq_hidden m c))

/-- At the end of the run the second result buffer holds the output of the launch arguments. -/
theorem output_value : W13 m ρ c (Proc.devRef .tc main_v87)
    = Cert.Layers.output (F := Ideal) (aX m c) (aW1 m c) (aB1 m c) (aG1 m c) (aBe1 m c) (aW2 m c) (aB2 m c)
        (aG2 m c) (aBe2 m c) (aW3 m c) (aB3 m c) (aE m c) :=
  (out_eq m ρ c).trans
    (congrArg (fun t => Cert.Layers.agg64 (F := Ideal) (aSrc m c) (aDst m c) (aNrm m c) t (aB3 m c)) (s8 m ρ c hv hpre))

end Cert.KernelIdeal.Hand

end
-- ==== Proof.ValMm.lean ====
import proofs.«142432_j2886218022958_1_alg».proof.Proof.RegMm
import proofs.«142432_j2886218022958_1_alg».proof.Proof.LibDot
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the buffers' contents when a region is entered, at the ideal values
variable (V : (c : Dev nD) → (b : Ref sig .tc) → Buf (Elt Ideal) ((c : Thread nD τ).loc b))

theorem zero_offsets : (![0, 0] : Fin 2 → Nat) = fun _ => 0 := funext fun a => by fin_cases a <;> rfl

/-- The product of a tall matrix and a right factor, index by index: the sum over the contracted coordinate. -/
abbrev matProd {M k n : Nat} (A : (⟨2, ![M, k]⟩ : Shape).Idx → Elt Ideal .f32) (B : (⟨2, ![k, n]⟩ : Shape).Idx → Elt Ideal .f32) :
    (⟨2, ![M, n]⟩ : Shape).Idx → Elt Ideal .f32 :=
  fun i => ∑ c : Fin k, A (ix2 (i 0) c) * B (ix2 c (i 1))

theorem matProd_apply {M k n : Nat} (A : (⟨2, ![M, k]⟩ : Shape).Idx → Elt Ideal .f32) (B : (⟨2, ![k, n]⟩ : Shape).Idx → Elt Ideal .f32)
    (r : Fin M) (q : Fin n) : matProd A B (ix2 r q) = ∑ c : Fin k, A (ix2 r c) * B (ix2 c q) := rfl

/-! # Region 0: the output array is the product of the two input arrays -/

/-- One entry of the body's payload: rounding to the narrower format is the identity at the ideal values, and the
    matrix unit's product into a zero accumulator is the sum over the contracted coordinate. -/
theorem pay0_entry (x0 : Vec Ideal S5000x128 .f32) (x1 : Vec Ideal S128x128 .f32) (p : Fin 5000) (q : Fin 128) :
    k0_pay1 x0 x1 (ix2 p q) = ∑ c : Fin 128, x0 (ix2 p c) * x1 (ix2 c q) := by
  unfold k0_pay1
  exact LibDot.matmul_zero_apply dot_S5000x128_S128x128_S5000x128_1_0_0_1_n_n_wf none _ _ p q

theorem pay0_at (x0 : Vec Ideal S5000x128 .f32) (x1 : Vec Ideal S128x128 .f32) (j : S5000x128.Idx) :
    k0_pay1 x0 x1 j = ∑ c : Fin 128, x0 (ix2 (j 0) c) * x1 (ix2 c (j 1)) := by
  conv_lhs => rw [eq_ix2 j]
  exact pay0_entry x0 x1 (j 0) (j 1)

/-- The printed index maps, decided over the grid: the left operand's row blocks move with the output's, the right
    factor stays whole, the output's block row is the point. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two input arrays as the region finds them. -/
theorem flushed0_eq (c : Dev nD) (t : Fin cfg0.N) :
    (dat0 V c).flushed 2 t = ((cfg0.win 2).blk t).view.read (Elt Ideal)
      (matProd (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts0 t
  funext j
  show k0_pay1 (iblk0 V c 0 t) (iblk0 V c 1 t) j
    = matProd (V c (Pipeline.arrRef spec0 0)) (V c (Pipeline.arrRef spec0 1)) (((cfg0.win 2).blk t).view.emb j)
  refine (pay0_at (iblk0 V c 0 t) (iblk0 V c 1 t) j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : Elt Ideal .f32 => a * b) (congrArg (V c (Pipeline.arrRef spec0 0)) h0) (congrArg (V c (Pipeline.arrRef spec0 1)) h1)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every index of the output array is in the block of the point that is its row divided by the block height. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two input arrays as the region finds them. -/
theorem arr0_eq (c : Dev nD) :
    (dat0 V c).arrAt 2 cfg0.N = matProd (V c (Pipeline.arrRef spec0 0)) (V c (Pipeline.arrRef spec0 1)) :=
  (dat0 V c).arrAt_eq_of_cover 2 _ (fun t _ => flushed0_eq V c t) (cover0)

/-- Entry (r, q) of the output array after the region: row r of the left array against column q of the right
    (`matProd_apply` spells the sum). -/
theorem final0 (c : Dev nD) (r : Fin 100000) (q : Fin 128) :
    (dat0 V c).arrAt 2 cfg0.N (ix2 r q)
      = matProd (V c (Pipeline.arrRef spec0 0)) (V c (Pipeline.arrRef spec0 1)) (ix2 r q) := by
  rw [arr0_eq]

/-! # Region 3: the output array is the product of the two input arrays -/

/-- One entry of the body's payload: rounding to the narrower format is the identity at the ideal values, and the
    matrix unit's product into a zero accumulator is the sum over the contracted coordinate. -/
theorem pay3_entry (x0 : Vec Ideal S5000x128 .f32) (x1 : Vec Ideal S128x128 .f32) (p : Fin 5000) (q : Fin 128) :
    k3_pay1 x0 x1 (ix2 p q) = ∑ c : Fin 128, x0 (ix2 p c) * x1 (ix2 c q) := by
  unfold k3_pay1
  simp only [shapeCast_self]
  exact LibDot.matmul_zero_apply dot_S5000x128_S128x128_S5000x128_1_0_0_1_n_n_wf none _ _ p q

theorem pay3_at (x0 : Vec Ideal S5000x128 .f32) (x1 : Vec Ideal S128x128 .f32) (j : S5000x128.Idx) :
    k3_pay1 x0 x1 j = ∑ c : Fin 128, x0 (ix2 (j 0) c) * x1 (ix2 c (j 1)) := by
  conv_lhs => rw [eq_ix2 j]
  exact pay3_entry x0 x1 (j 0) (j 1)

/-- The printed index maps, decided over the grid: the left operand's row blocks move with the output's, the right
    factor stays whole, the output's block row is the point. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the product of the two input arrays as the region finds them. -/
theorem flushed3_eq (c : Dev nD) (t : Fin cfg3.N) :
    (dat3 V c).flushed 2 t = ((cfg3.win 2).blk t).view.read (Elt Ideal)
      (matProd (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  obtain ⟨e0, e1, e2, e3, e4, e5⟩ := idx_facts3 t
  funext j
  show k3_pay1 (iblk3 V c 0 t) (iblk3 V c 1 t) j
    = matProd (V c (Pipeline.arrRef spec3 0)) (V c (Pipeline.arrRef spec3 1)) (((cfg3.win 2).blk t).view.emb j)
  refine (pay3_at (iblk3 V c 0 t) (iblk3 V c 1 t) j).trans ?_
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact congrArg₂ (fun a b : Elt Ideal .f32 => a * b) (congrArg (V c (Pipeline.arrRef spec3 0)) h0) (congrArg (V c (Pipeline.arrRef spec3 1)) h1)

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v50).slice (win3_2.rect t)).set ↔ _
  rw [View.set_slice_whole, Rect.mem_set_unit]
  exact Iff.rfl

/-- Every index of the output array is in the block of the point that is its row divided by the block height. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the product of the two input arrays as the region finds them. -/
theorem arr3_eq (c : Dev nD) :
    (dat3 V c).arrAt 2 cfg3.N = matProd (V c (Pipeline.arrRef spec3 0)) (V c (Pipeline.arrRef spec3 1)) :=
  (dat3 V c).arrAt_eq_of_cover 2 _ (fun t _ => flushed3_eq V c t) (cover3)

/-- Entry (r, q) of the output array after the region: row r of the left array against column q of the right
    (`matProd_apply` spells the sum). -/
theorem final3 (c : Dev nD) (r : Fin 100000) (q : Fin 128) :
    (dat3 V c).arrAt 2 cfg3.N (ix2 r q)
      = matProd (V c (Pipeline.arrRef spec3 0)) (V c (Pipeline.arrRef spec3 1)) (ix2 r q) := by
  rw [arr3_eq]

/-! # Region 6: the output array is the product of the two input arrays -/

/-- One entry of the body's payload: rounding to the narrower format is the identity at the ideal values, and the
    matrix unit's product into a zero accumulator is the sum over the contracted coordinate. -/
theorem pay6_entry (x0 : Vec Ideal S5000x128 .f32) (x1 : Vec Ideal S128x64 .f32) (p : Fin 5000) (q : Fin 64) :
    k6_pay1 x0 x1 (ix2 p q) = ∑ c : Fin 128, x0 (ix2 p c) * x1 (ix2 c q) := by
  unfold k6_pay1
  simp only [shapeCast_self]
  exact LibDot.matmul_zero_apply dot_S5000x128_S128x64_S5000x64_1_0_0_1_n_n_wf none _ _ p q

theorem pay6_at (x0 : Vec Ideal S5000x128 .f32) (x1 : Vec Ideal S128x64 .f32) (j : S5000x64.Idx) :
    k6_pay1 x0 x1 j = ∑ c : Fin 128, x0 (ix2 (j 0) c) * x1 (ix2 c (j 1)) := by
  conv_lhs => rw [eq_ix2 j]
  exact pay6_entry x0 x1 (j 0) (j 1)

/-- The printed index maps, decided over the grid: the left operand's row blocks move with the output's, the right
    factor stays whole, the output's block row is the point. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point `t` writes back is block `t` of the product of the two input arrays as the region finds them. -/
theorem flushed6_eq (c : Dev nD) (t : Fin cfg6.N) :
    (dat6 V c).flushed 2 t = ((cfg6.win 2).blk t).view.read (Elt Ideal)
      (matProd (V c (Pipeline.arrRef spec6 0)) (V c (Pipeline.arrRef spec6 1))) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x64) zero_offsets]
  obtain ⟨e0, e1, e2, e3, e4, e5⟩ := idx_facts6 t
  funext j
  show k6_pay1 (iblk6 V c 0 t) (iblk6 V c 1 t) j
    = matProd (V c (Pipeline.arrRef spec6 0)) (V c (Pipeline.arrRef spec6 1)) (((cfg6.win 2).blk t).view.emb j)
  refine (pay6_at (iblk6 V c 0 t) (iblk6 V c 1 t) j).trans ?_
  refine Finset.sum_congr rfl fun k _ => ?_
  have h0 : ((cfg6.win 0).blk t).view.emb (ix2 (j 0) k) = ix2 ((((cfg6.win 2).blk t).view.emb j) 0) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ((cfg6.win 1).blk t).view.emb (ix2 k (j 1)) = ix2 k ((((cfg6.win 2).blk t).view.emb j) 1) := by
    funext a; apply Fin.ext
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega
  exact congrArg₂ (fun a b : Elt Ideal .f32 => a * b) (congrArg (V c (Pipeline.arrRef spec6 0)) h0) (congrArg (V c (Pipeline.arrRef spec6 1)) h1)

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v71).slice (win6_2.rect t)).set ↔ _
  rw [View.set_slice_whole, Rect.mem_set_unit]
  exact Iff.rfl

/-- Every index of the output array is in the block of the point that is its row divided by the block height. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  have ht : t.val = (i 0).val / 5000 := rfl
  obtain ⟨e0, e1, e2, e3, e4, e5⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array after the region: the product of the two input arrays as the region finds them. -/
theorem arr6_eq (c : Dev nD) :
    (dat6 V c).arrAt 2 cfg6.N = matProd (V c (Pipeline.arrRef spec6 0)) (V c (Pipeline.arrRef spec6 1)) :=
  (dat6 V c).arrAt_eq_of_cover 2 _ (fun t _ => flushed6_eq V c t) (cover6)

/-- Entry (r, q) of the output array after the region: row r of the left array against column q of the right
    (`matProd_apply` spells the sum). -/
theorem final6 (c : Dev nD) (r : Fin 100000) (q : Fin 64) :
    (dat6 V c).arrAt 2 cfg6.N (ix2 r q)
      = matProd (V c (Pipeline.arrRef spec6 0)) (V c (Pipeline.arrRef spec6 1)) (ix2 r q) := by
  rw [arr6_eq]

end Cert.KernelIdeal.Hand

end
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.ValSt.lean ====
import proofs.«142432_j2886218022958_1_alg».proof.Proof.RegSt
import proofs.«142432_j2886218022958_1_alg».proof.Proof.LibColSum
import proofs.«142432_j2886218022958_1_alg».proof.Proof.LibSums
import proofs.«142432_j2886218022958_1_alg».proof.Proof.LibFinTiles
import proofs.«142432_j2886218022958_1_alg».proof.Proof.BnRead
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # The column statistics at the ideal values -/

/-- The row count as the kernel divides by it: the word of 100000. -/
abbrev c100000 : Ideal .f32 := Ideal.ofBits .f32 0x47C35000#32

/-! # Region 1 -/
/-! ## The payloads, entry by entry -/

theorem k1_pay1_apply (i : S1x128.Idx) : k1_pay1 (F := Ideal) i = 0 := by
  unfold k1_pay1
  rw [shapeCast_self]
  exact Ideal.ofBits_zero_f32

theorem k1_pay2_apply (i : S1x128.Idx) : k1_pay2 (F := Ideal) i = 0 := by
  unfold k1_pay2
  rw [shapeCast_self]
  exact Ideal.ofBits_zero_f32

/-- The first running row after a block: its entry plus the block's column sum. -/
theorem k1_pay4_apply (v3 : Vec Ideal S5000x128 .f32) (v5 : Vec Ideal S1x128 .f32) (u : Fin 1) (j : Fin 128) :
    k1_pay4 v3 v5 (ix2 u j) = v5 (ix2 u j) + ∑ k : Fin 5000, v3 (ix2 k j) := by
  unfold k1_pay4 k1_pay3
  simp only [shapeCast_self]
  exact congrArg (v5 (ix2 u j) + ·) (Cert.LibColSum.colSumRow_apply v3 reduces_S5000x128_S128 _ _ shapeCasts_S128_S1x128 u j)

/-- The second running row after a block: its entry plus the column sum of the block's squares. -/
theorem k1_pay5_apply (v3 : Vec Ideal S5000x128 .f32) (v12 : Vec Ideal S1x128 .f32) (u : Fin 1) (j : Fin 128) :
    k1_pay5 v3 v12 (ix2 u j) = v12 (ix2 u j) + ∑ k : Fin 5000, v3 (ix2 k j) * v3 (ix2 k j) := by
  unfold k1_pay5 k1_pay3
  simp only [shapeCast_self]
  exact congrArg (v12 (ix2 u j) + ·) (Cert.LibColSum.colSumRow_apply (mulf v3 v3) reduces_S5000x128_S128 _ _ shapeCasts_S128_S1x128 u j)

/-- The mean: the running sum over the row count. -/
theorem k1_pay6_apply (v23 : Vec Ideal S1x128 .f32) (i : S1x128.Idx) :
    k1_pay6 v23 i = Ideal.div (v23 i) c100000 := rfl

/-- The variance: the running sum of squares over the row count, less the mean's square. -/
theorem k1_pay7_apply (v23 v26 : Vec Ideal S1x128 .f32) (i : S1x128.Idx) :
    k1_pay7 v23 v26 i = Ideal.div (v26 i) c100000 - Ideal.div (v23 i) c100000 * Ideal.div (v23 i) c100000 := rfl

/-! ## The running rows as sums over the blocks passed -/

theorem accS1_apply (c : Dev nD) (n : ℕ) (u : Fin 1) (j : Fin 128) :
    accS1 V c n (ix2 u j) = ∑ v ∈ Finset.range n, ∑ k : Fin 5000, blk1N V c v (ix2 k j) := by
  induction n with
  | zero => rw [accS1_zero, k1_pay1_apply, Finset.sum_range_zero]
  | succ n ih => rw [accS1_succ, k1_pay4_apply, ih, Finset.sum_range_succ]

theorem accQ1_apply (c : Dev nD) (n : ℕ) (u : Fin 1) (j : Fin 128) :
    accQ1 V c n (ix2 u j) = ∑ v ∈ Finset.range n, ∑ k : Fin 5000, blk1N V c v (ix2 k j) * blk1N V c v (ix2 k j) := by
  induction n with
  | zero => rw [accQ1_zero, k1_pay2_apply, Finset.sum_range_zero]
  | succ n ih => rw [accQ1_succ, k1_pay5_apply, ih, Finset.sum_range_succ]

/-! ## The blocks' entries in the array -/

/-- The region's input array as the region finds it. -/
abbrev X1 (c : Dev nD) : S100000x128.Idx → Ideal .f32 := V c (Pipeline.arrRef spec1 0)

/-- The input window's block index at point `t` is `(t, 0)`. -/
theorem index1_0 : ∀ t : Fin cfg1.N, (cfg1.win 0).index t = ![t.val, 0] :=
  (by decide +kernel : ∀ t : Fin grid1.N, win1_0.index t = ![t.val, 0])

/-- Entry `(k, j)` of the block at point `t` is entry `(5000 t + k, j)` of the array. -/
theorem iblk1_apply (c : Dev nD) (t : Fin cfg1.N) (k : Fin 5000) (j : Fin 128) :
    iblk1 V c 0 t (ix2 k j) = X1 V c (ix2 ⟨t.val * 5000 + k.val, by have := lt20_1 t; omega⟩ j) := by
  unfold iblk1
  rw [View.read_apply]
  have e : ((cfg1.win 0).blk t).view.emb (ix2 k j) = (ix2 ⟨t.val * 5000 + k.val, by have := lt20_1 t; omega⟩ j : S100000x128.Idx) := by
    funext a; apply Fin.ext
    revert a
    show ∀ a : Fin 2, (((cfg1.win 0).rect t).emb (ix2 k j) a : ℕ) = ((ix2 ⟨t.val * 5000 + k.val, by have := lt20_1 t; omega⟩ j : S100000x128.Idx) a : ℕ)
    intro a
    refine ((cfg1.win 0).rect_emb_val t (ix2 k j) a).trans ?_
    rw [index1_0]
    fin_cases a
    · show t.val * 5000 + k.val = t.val * 5000 + k.val
      rfl
    · show 0 * 128 + j.val = j.val
      omega
  rw [e]
  rfl

/-! ## The running rows after all twenty points: the column sums of the whole array -/

/-- The sum over the twenty blocks of the sums over each block's rows is the sum over all the array's rows. -/
theorem sum_blocks1 (c : Dev nD) (g : Ideal .f32 → Ideal .f32) (j : Fin 128) :
    ∑ v ∈ Finset.range 20, ∑ k : Fin 5000, g (blk1N V c v (ix2 k j)) = ∑ r : Fin 100000, g (X1 V c (ix2 r j)) := by
  rw [Finset.sum_range]
  refine Eq.trans ?_ (Cert.FinTiles.sum_fin_tiles 20 5000 100000 rfl (fun r => g (X1 V c (ix2 r j)))
    (fun i p => ⟨i.val * 5000 + p.val, by have := i.isLt; have := p.isLt; omega⟩) (fun _ _ => rfl)).symm
  refine Finset.sum_congr rfl fun i _ => Finset.sum_congr rfl fun p _ => ?_
  have hi : i.val < cfg1.N := lt_of_lt_of_eq i.isLt (show 20 = cfg1.N from N_1.symm)
  rw [show blk1N V c i.val = iblk1 V c 0 ⟨i.val, hi⟩ from dif_pos hi, iblk1_apply]

/-- The first running row after the last point: the column sums. -/
theorem accS1_final (c : Dev nD) (u : Fin 1) (j : Fin 128) :
    accS1 V c 20 (ix2 u j) = ∑ r : Fin 100000, X1 V c (ix2 r j) := by
  rw [accS1_apply]
  exact sum_blocks1 V c (fun x => x) j

/-- The second running row after the last point: the column sums of the squares. -/
theorem accQ1_final (c : Dev nD) (u : Fin 1) (j : Fin 128) :
    accQ1 V c 20 (ix2 u j) = ∑ r : Fin 100000, X1 V c (ix2 r j) * X1 V c (ix2 r j) := by
  rw [accQ1_apply]
  exact sum_blocks1 V c (fun x => x * x) j

/-! ## The two output arrays after the region -/

/-- The last point. -/
abbrev t19_1 : Fin cfg1.N := ⟨19, lt_of_lt_of_eq (by decide : 19 < 20) (show 20 = cfg1.N from N_1.symm)⟩

/-- The output windows' block index is `(0, 0)` at every point. -/
theorem index1_1 : ∀ t : Fin cfg1.N, (cfg1.win 1).index t = ![0, 0] :=
  (by decide +kernel : ∀ t : Fin grid1.N, win1_1.index t = ![0, 0])
theorem index1_2 : ∀ t : Fin cfg1.N, (cfg1.win 2).index t = ![0, 0] :=
  (by decide +kernel : ∀ t : Fin grid1.N, win1_2.index t = ![0, 0])

/-- Only the last point writes the mean's block back, so no two write-backs meet. -/
theorem hdisj1_1 : ∀ t t' : Fin cfg1.N, (cfg1.win 1).flush t = true → (cfg1.win 1).flush t' = true → t ≠ t' →
    Disjoint ((cfg1.win 1).blk t).view.set ((cfg1.win 1).blk t').view.set := fun t t' h h' hne =>
  absurd (Fin.ext (by have := (flush1_1 t).mp h; have := (flush1_1 t').mp h'; have := lt20_1 t; have := lt20_1 t'; omega)) hne
theorem hdisj1_2 : ∀ t t' : Fin cfg1.N, (cfg1.win 2).flush t = true → (cfg1.win 2).flush t' = true → t ≠ t' →
    Disjoint ((cfg1.win 2).blk t).view.set ((cfg1.win 2).blk t').view.set := fun t t' h h' hne =>
  absurd (Fin.ext (by have := (flush1_2 t).mp h; have := (flush1_2 t').mp h'; have := lt20_1 t; have := lt20_1 t'; omega)) hne

/-- An entry of the one block of the mean's window sits at the same place in its array. -/
theorem emb1_1 (t : Fin cfg1.N) (u : Fin 1) (j : Fin 128) :
    ((cfg1.win 1).blk t).view.emb (ix2 u j) = (ix2 u j : S1x128.Idx) := by
  funext a; apply Fin.ext
  revert a
  show ∀ a : Fin 2, (((cfg1.win 1).rect t).emb (ix2 u j) a : ℕ) = ((ix2 u j : S1x128.Idx) a : ℕ)
  intro a
  refine ((cfg1.win 1).rect_emb_val t (ix2 u j) a).trans ?_
  rw [index1_1]
  fin_cases a
  · show 0 * 1 + u.val = u.val
    omega
  · show 0 * 128 + j.val = j.val
    omega
theorem emb1_2 (t : Fin cfg1.N) (u : Fin 1) (j : Fin 128) :
    ((cfg1.win 2).blk t).view.emb (ix2 u j) = (ix2 u j : S1x128.Idx) := by
  funext a; apply Fin.ext
  revert a
  show ∀ a : Fin 2, (((cfg1.win 2).rect t).emb (ix2 u j) a : ℕ) = ((ix2 u j : S1x128.Idx) a : ℕ)
  intro a
  refine ((cfg1.win 2).rect_emb_val t (ix2 u j) a).trans ?_
  rw [index1_2]
  fin_cases a
  · show 0 * 1 + u.val = u.val
    omega
  · show 0 * 128 + j.val = j.val
    omega

/-- THE MEAN: after the region the first output array holds, at column `j`, the column sum over the row count. -/
theorem arrAt1_1 (c : Dev nD) (u : Fin 1) (j : Fin 128) :
    (dat1 V c).arrAt 1 cfg1.N (ix2 u j) = Ideal.div (∑ r : Fin 100000, X1 V c (ix2 r j)) c100000 := by
  have hf : (cfg1.win 1).flush t19_1 = true := (flush1_1 t19_1).mpr rfl
  have h := (dat1 V c).arrAt_emb_eq_flushed 1 hdisj1_1 t19_1 hf (ix2 u j)
  rw [emb1_1] at h
  refine h.trans ?_
  show (dat1 V c).after 1 t19_1 (ix2 u j) = _
  rw [after1_1_last, k1_pay6_apply, accS1_final]

/-- THE VARIANCE: the second output array holds, at column `j`, the column sum of squares over the row count less
    the mean's square. -/
theorem arrAt1_2 (c : Dev nD) (u : Fin 1) (j : Fin 128) :
    (dat1 V c).arrAt 2 cfg1.N (ix2 u j)
      = Ideal.div (∑ r : Fin 100000, X1 V c (ix2 r j) * X1 V c (ix2 r j)) c100000
        - Ideal.div (∑ r : Fin 100000, X1 V c (ix2 r j)) c100000 * Ideal.div (∑ r : Fin 100000, X1 V c (ix2 r j)) c100000 := by
  have hf : (cfg1.win 2).flush t19_1 = true := (flush1_2 t19_1).mpr rfl
  have h := (dat1 V c).arrAt_emb_eq_flushed 2 hdisj1_2 t19_1 hf (ix2 u j)
  rw [emb1_2] at h
  refine h.trans ?_
  show (dat1 V c).after 2 t19_1 (ix2 u j) = _
  rw [after1_2_last, k1_pay7_apply, accS1_final, accQ1_final]

/-! ## The two output arrays, whole -/

/-- THE MEAN ARRAY after the region: at every index the column mean of the input array. -/
theorem mean1_eq (c : Dev nD) :
    (dat1 V c).arrAt 1 cfg1.N = fun i : S1x128.Idx => Cert.BnRead.colMean (V c (Pipeline.arrRef spec1 0)) (i 1) := by
  funext i
  obtain ⟨p, q, rfl⟩ : ∃ p q, i = ix2 p q := ⟨i 0, i 1, eq_ix2 i⟩
  exact arrAt1_1 V c p q

/-- THE VARIANCE ARRAY after the region: at every index the column mean of squares less the square of the column mean. -/
theorem var1_eq (c : Dev nD) :
    (dat1 V c).arrAt 2 cfg1.N = fun i : S1x128.Idx =>
      Cert.BnRead.colMeanSq (V c (Pipeline.arrRef spec1 0)) (i 1)
        - Cert.BnRead.colMean (V c (Pipeline.arrRef spec1 0)) (i 1) * Cert.BnRead.colMean (V c (Pipeline.arrRef spec1 0)) (i 1) := by
  funext i
  obtain ⟨p, q, rfl⟩ : ∃ p q, i = ix2 p q := ⟨i 0, i 1, eq_ix2 i⟩
  exact arrAt1_2 V c p q

/-! # Region 4: the same kernel on the second layer's array -/
/-! ## The payloads, entry by entry -/

theorem k4_pay1_apply (i : S1x128.Idx) : k4_pay1 (F := Ideal) i = 0 := by
  unfold k4_pay1
  rw [shapeCast_self]
  exact Ideal.ofBits_zero_f32

theorem k4_pay2_apply (i : S1x128.Idx) : k4_pay2 (F := Ideal) i = 0 := by
  unfold k4_pay2
  rw [shapeCast_self]
  exact Ideal.ofBits_zero_f32

/-- The first running row after a block: its entry plus the block's column sum. -/
theorem k4_pay4_apply (v3 : Vec Ideal S5000x128 .f32) (v5 : Vec Ideal S1x128 .f32) (u : Fin 1) (j : Fin 128) :
    k4_pay4 v3 v5 (ix2 u j) = v5 (ix2 u j) + ∑ k : Fin 5000, v3 (ix2 k j) := by
  unfold k4_pay4 k4_pay3
  simp only [shapeCast_self]
  exact congrArg (v5 (ix2 u j) + ·) (Cert.LibColSum.colSumRow_apply v3 reduces_S5000x128_S128 _ _ shapeCasts_S128_S1x128 u j)

/-- The second running row after a block: its entry plus the column sum of the block's squares. -/
theorem k4_pay5_apply (v3 : Vec Ideal S5000x128 .f32) (v12 : Vec Ideal S1x128 .f32) (u : Fin 1) (j : Fin 128) :
    k4_pay5 v3 v12 (ix2 u j) = v12 (ix2 u j) + ∑ k : Fin 5000, v3 (ix2 k j) * v3 (ix2 k j) := by
  unfold k4_pay5 k4_pay3
  simp only [shapeCast_self]
  exact congrArg (v12 (ix2 u j) + ·) (Cert.LibColSum.colSumRow_apply (mulf v3 v3) reduces_S5000x128_S128 _ _ shapeCasts_S128_S1x128 u j)

/-- The mean: the running sum over the row count. -/
theorem k4_pay6_apply (v23 : Vec Ideal S1x128 .f32) (i : S1x128.Idx) :
    k4_pay6 v23 i = Ideal.div (v23 i) c100000 := rfl

/-- The variance: the running sum of squares over the row count, less the mean's square. -/
theorem k4_pay7_apply (v23 v26 : Vec Ideal S1x128 .f32) (i : S1x128.Idx) :
    k4_pay7 v23 v26 i = Ideal.div (v26 i) c100000 - Ideal.div (v23 i) c100000 * Ideal.div (v23 i) c100000 := rfl

/-! ## The running rows as sums over the blocks passed -/

theorem accS4_apply (c : Dev nD) (n : ℕ) (u : Fin 1) (j : Fin 128) :
    accS4 V c n (ix2 u j) = ∑ v ∈ Finset.range n, ∑ k : Fin 5000, blk4N V c v (ix2 k j) := by
  induction n with
  | zero => rw [accS4_zero, k4_pay1_apply, Finset.sum_range_zero]
  | succ n ih => rw [accS4_succ, k4_pay4_apply, ih, Finset.sum_range_succ]

theorem accQ4_apply (c : Dev nD) (n : ℕ) (u : Fin 1) (j : Fin 128) :
    accQ4 V c n (ix2 u j) = ∑ v ∈ Finset.range n, ∑ k : Fin 5000, blk4N V c v (ix2 k j) * blk4N V c v (ix2 k j) := by
  induction n with
  | zero => rw [accQ4_zero, k4_pay2_apply, Finset.sum_range_zero]
  | succ n ih => rw [accQ4_succ, k4_pay5_apply, ih, Finset.sum_range_succ]

/-! ## The blocks' entries in the array -/

/-- The region's input array as the region finds it. -/
abbrev X4 (c : Dev nD) : S100000x128.Idx → Ideal .f32 := V c (Pipeline.arrRef spec4 0)

/-- The input window's block index at point `t` is `(t, 0)`. -/
theorem index4_0 : ∀ t : Fin cfg4.N, (cfg4.win 0).index t = ![t.val, 0] :=
  (by decide +kernel : ∀ t : Fin grid4.N, win4_0.index t = ![t.val, 0])

/-- Entry `(k, j)` of the block at point `t` is entry `(5000 t + k, j)` of the array. -/
theorem iblk4_apply (c : Dev nD) (t : Fin cfg4.N) (k : Fin 5000) (j : Fin 128) :
    iblk4 V c 0 t (ix2 k j) = X4 V c (ix2 ⟨t.val * 5000 + k.val, by have := lt20_4 t; omega⟩ j) := by
  unfold iblk4
  rw [View.read_apply]
  have e : ((cfg4.win 0).blk t).view.emb (ix2 k j) = (ix2 ⟨t.val * 5000 + k.val, by have := lt20_4 t; omega⟩ j : S100000x128.Idx) := by
    funext a; apply Fin.ext
    revert a
    show ∀ a : Fin 2, (((cfg4.win 0).rect t).emb (ix2 k j) a : ℕ) = ((ix2 ⟨t.val * 5000 + k.val, by have := lt20_4 t; omega⟩ j : S100000x128.Idx) a : ℕ)
    intro a
    refine ((cfg4.win 0).rect_emb_val t (ix2 k j) a).trans ?_
    rw [index4_0]
    fin_cases a
    · show t.val * 5000 + k.val = t.val * 5000 + k.val
      rfl
    · show 0 * 128 + j.val = j.val
      omega
  rw [e]
  rfl

/-! ## The running rows after all twenty points: the column sums of the whole array -/

/-- The sum over the twenty blocks of the sums over each block's rows is the sum over all the array's rows. -/
theorem sum_blocks4 (c : Dev nD) (g : Ideal .f32 → Ideal .f32) (j : Fin 128) :
    ∑ v ∈ Finset.range 20, ∑ k : Fin 5000, g (blk4N V c v (ix2 k j)) = ∑ r : Fin 100000, g (X4 V c (ix2 r j)) := by
  rw [Finset.sum_range]
  refine Eq.trans ?_ (Cert.FinTiles.sum_fin_tiles 20 5000 100000 rfl (fun r => g (X4 V c (ix2 r j)))
    (fun i p => ⟨i.val * 5000 + p.val, by have := i.isLt; have := p.isLt; omega⟩) (fun _ _ => rfl)).symm
  refine Finset.sum_congr rfl fun i _ => Finset.sum_congr rfl fun p _ => ?_
  have hi : i.val < cfg4.N := lt_of_lt_of_eq i.isLt (show 20 = cfg4.N from N_4.symm)
  rw [show blk4N V c i.val = iblk4 V c 0 ⟨i.val, hi⟩ from dif_pos hi, iblk4_apply]

/-- The first running row after the last point: the column sums. -/
theorem accS4_final (c : Dev nD) (u : Fin 1) (j : Fin 128) :
    accS4 V c 20 (ix2 u j) = ∑ r : Fin 100000, X4 V c (ix2 r j) := by
  rw [accS4_apply]
  exact sum_blocks4 V c (fun x => x) j

/-- The second running row after the last point: the column sums of the squares. -/
theorem accQ4_final (c : Dev nD) (u : Fin 1) (j : Fin 128) :
    accQ4 V c 20 (ix2 u j) = ∑ r : Fin 100000, X4 V c (ix2 r j) * X4 V c (ix2 r j) := by
  rw [accQ4_apply]
  exact sum_blocks4 V c (fun x => x * x) j

/-! ## The two output arrays after the region -/

/-- The last point. -/
abbrev t19_4 : Fin cfg4.N := ⟨19, lt_of_lt_of_eq (by decide : 19 < 20) (show 20 = cfg4.N from N_4.symm)⟩

/-- The output windows' block index is `(0, 0)` at every point. -/
theorem index4_1 : ∀ t : Fin cfg4.N, (cfg4.win 1).index t = ![0, 0] :=
  (by decide +kernel : ∀ t : Fin grid4.N, win4_1.index t = ![0, 0])
theorem index4_2 : ∀ t : Fin cfg4.N, (cfg4.win 2).index t = ![0, 0] :=
  (by decide +kernel : ∀ t : Fin grid4.N, win4_2.index t = ![0, 0])

/-- Only the last point writes the mean's block back, so no two write-backs meet. -/
theorem hdisj4_1 : ∀ t t' : Fin cfg4.N, (cfg4.win 1).flush t = true → (cfg4.win 1).flush t' = true → t ≠ t' →
    Disjoint ((cfg4.win 1).blk t).view.set ((cfg4.win 1).blk t').view.set := fun t t' h h' hne =>
  absurd (Fin.ext (by have := (flush4_1 t).mp h; have := (flush4_1 t').mp h'; have := lt20_4 t; have := lt20_4 t'; omega)) hne
theorem hdisj4_2 : ∀ t t' : Fin cfg4.N, (cfg4.win 2).flush t = true → (cfg4.win 2).flush t' = true → t ≠ t' →
    Disjoint ((cfg4.win 2).blk t).view.set ((cfg4.win 2).blk t').view.set := fun t t' h h' hne =>
  absurd (Fin.ext (by have := (flush4_2 t).mp h; have := (flush4_2 t').mp h'; have := lt20_4 t; have := lt20_4 t'; omega)) hne

/-- An entry of the one block of the mean's window sits at the same place in its array. -/
theorem emb4_1 (t : Fin cfg4.N) (u : Fin 1) (j : Fin 128) :
    ((cfg4.win 1).blk t).view.emb (ix2 u j) = (ix2 u j : S1x128.Idx) := by
  funext a; apply Fin.ext
  revert a
  show ∀ a : Fin 2, (((cfg4.win 1).rect t).emb (ix2 u j) a : ℕ) = ((ix2 u j : S1x128.Idx) a : ℕ)
  intro a
  refine ((cfg4.win 1).rect_emb_val t (ix2 u j) a).trans ?_
  rw [index4_1]
  fin_cases a
  · show 0 * 1 + u.val = u.val
    omega
  · show 0 * 128 + j.val = j.val
    omega
theorem emb4_2 (t : Fin cfg4.N) (u : Fin 1) (j : Fin 128) :
    ((cfg4.win 2).blk t).view.emb (ix2 u j) = (ix2 u j : S1x128.Idx) := by
  funext a; apply Fin.ext
  revert a
  show ∀ a : Fin 2, (((cfg4.win 2).rect t).emb (ix2 u j) a : ℕ) = ((ix2 u j : S1x128.Idx) a : ℕ)
  intro a
  refine ((cfg4.win 2).rect_emb_val t (ix2 u j) a).trans ?_
  rw [index4_2]
  fin_cases a
  · show 0 * 1 + u.val = u.val
    omega
  · show 0 * 128 + j.val = j.val
    omega

/-- THE MEAN: after the region the first output array holds, at column `j`, the column sum over the row count. -/
theorem arrAt4_1 (c : Dev nD) (u : Fin 1) (j : Fin 128) :
    (dat4 V c).arrAt 1 cfg4.N (ix2 u j) = Ideal.div (∑ r : Fin 100000, X4 V c (ix2 r j)) c100000 := by
  have hf : (cfg4.win 1).flush t19_4 = true := (flush4_1 t19_4).mpr rfl
  have h := (dat4 V c).arrAt_emb_eq_flushed 1 hdisj4_1 t19_4 hf (ix2 u j)
  rw [emb4_1] at h
  refine h.trans ?_
  show (dat4 V c).after 1 t19_4 (ix2 u j) = _
  rw [after4_1_last, k4_pay6_apply, accS4_final]

/-- THE VARIANCE: the second output array holds, at column `j`, the column sum of squares over the row count less
    the mean's square. -/
theorem arrAt4_2 (c : Dev nD) (u : Fin 1) (j : Fin 128) :
    (dat4 V c).arrAt 2 cfg4.N (ix2 u j)
      = Ideal.div (∑ r : Fin 100000, X4 V c (ix2 r j) * X4 V c (ix2 r j)) c100000
        - Ideal.div (∑ r : Fin 100000, X4 V c (ix2 r j)) c100000 * Ideal.div (∑ r : Fin 100000, X4 V c (ix2 r j)) c100000 := by
  have hf : (cfg4.win 2).flush t19_4 = true := (flush4_2 t19_4).mpr rfl
  have h := (dat4 V c).arrAt_emb_eq_flushed 2 hdisj4_2 t19_4 hf (ix2 u j)
  rw [emb4_2] at h
  refine h.trans ?_
  show (dat4 V c).after 2 t19_4 (ix2 u j) = _
  rw [after4_2_last, k4_pay7_apply, accS4_final, accQ4_final]

/-! ## The two output arrays, whole -/

/-- THE MEAN ARRAY after the region: at every index the column mean of the input array. -/
theorem mean4_eq (c : Dev nD) :
    (dat4 V c).arrAt 1 cfg4.N = fun i : S1x128.Idx => Cert.BnRead.colMean (V c (Pipeline.arrRef spec4 0)) (i 1) := by
  funext i
  obtain ⟨p, q, rfl⟩ : ∃ p q, i = ix2 p q := ⟨i 0, i 1, eq_ix2 i⟩
  exact arrAt4_1 V c p q

/-- THE VARIANCE ARRAY after the region: at every index the column mean of squares less the square of the column mean. -/
theorem var4_eq (c : Dev nD) :
    (dat4 V c).arrAt 2 cfg4.N = fun i : S1x128.Idx =>
      Cert.BnRead.colMeanSq (V c (Pipeline.arrRef spec4 0)) (i 1)
        - Cert.BnRead.colMean (V c (Pipeline.arrRef spec4 0)) (i 1) * Cert.BnRead.colMean (V c (Pipeline.arrRef spec4 0)) (i 1) := by
  funext i
  obtain ⟨p, q, rfl⟩ : ∃ p q, i = ix2 p q := ⟨i 0, i 1, eq_ix2 i⟩
  exact arrAt4_2 V c p q

end Cert.KernelIdeal.Hand

end
-- ==== Proof.ValAp.lean ====
import proofs.«142432_j2886218022958_1_alg».proof.Proof.RegAp
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the buffers' contents when a region is entered, at the ideal values
variable (V : (c : Dev nD) → (b : Ref sig .tc) → Buf (Elt Ideal) ((c : Thread nD τ).loc b))

theorem zero_offsets_ap : (![0, 0] : Fin 2 → Nat) = fun _ => 0 := funext fun a => by fin_cases a <;> rfl

/-- A row vector broadcast down the rows, read at (p, q), is the vector at column q. -/
theorem row_bcast (x : Vec Ideal S1x128 .f32) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => by match a with | ⟨0, _⟩ => rfl | ⟨1, _⟩ => rfl)

/-- One entry: normalize by mean and variance, scale, shift, clamp below at zero. -/
abbrev normAct1 (x mn vr gm bt : Elt Ideal .f32) : Elt Ideal .f32 :=
  max ((gm * (x - mn)) * Ideal.rsqrt (vr + Ideal.ofBits .f32 0x3727C5AC#32) + bt) (Ideal.ofBits .f32 0x00000000#32)

theorem normAct1_congr {x x' mn mn' vr vr' gm gm' bt bt' : Elt Ideal .f32} (hx : x = x') (hm : mn = mn') (hv : vr = vr')
    (hg : gm = gm') (hb : bt = bt') : normAct1 x mn vr gm bt = normAct1 x' mn' vr' gm' bt' := by
  subst hx; subst hm; subst hv; subst hg; subst hb; rfl

/-- The same over whole arrays: the input by rows, the four row vectors by column. -/
abbrev normAct (X : S100000x128.Idx → Elt Ideal .f32) (Mn Vr Gm Bt : S1x128.Idx → Elt Ideal .f32) : S100000x128.Idx → Elt Ideal .f32 :=
  fun i => normAct1 (X i) (Mn (ix2 (0 : Fin 1) (i 1))) (Vr (ix2 (0 : Fin 1) (i 1))) (Gm (ix2 (0 : Fin 1) (i 1))) (Bt (ix2 (0 : Fin 1) (i 1)))

theorem normAct_apply (X : S100000x128.Idx → Elt Ideal .f32) (Mn Vr Gm Bt : S1x128.Idx → Elt Ideal .f32) (r : Fin 100000) (q : Fin 128) :
    normAct X Mn Vr Gm Bt (ix2 r q)
      = max ((Gm (ix2 (0 : Fin 1) q) * (X (ix2 r q) - Mn (ix2 (0 : Fin 1) q))) * Ideal.rsqrt (Vr (ix2 (0 : Fin 1) q) + Ideal.ofBits .f32 0x3727C5AC#32)
          + Bt (ix2 (0 : Fin 1) q)) (Ideal.ofBits .f32 0x00000000#32) := rfl

/-! # Region 2: the output array is the input normalized, scaled, shifted and clamped, entry by entry -/

/-- One entry of the body's payload. -/
theorem pay2_entry (x : Vec Ideal S5000x128 .f32) (mn vr gm bt : Vec Ideal S1x128 .f32) (p : Fin 5000) (q : Fin 128) :
    k2_pay1 x mn vr gm bt (ix2 p q)
      = normAct1 (x (ix2 p q)) (mn (ix2 (0 : Fin 1) q)) (vr (ix2 (0 : Fin 1) q)) (gm (ix2 (0 : Fin 1) q)) (bt (ix2 (0 : Fin 1) q)) := by
  unfold k2_pay1
  simp only [shapeCast_self]
  rw [maximumf_apply, addf_apply, mulf_apply, mulf_apply, subf_apply, row_bcast, row_bcast, row_bcast, row_bcast]
  rfl

theorem pay2_at (x : Vec Ideal S5000x128 .f32) (mn vr gm bt : Vec Ideal S1x128 .f32) (j : S5000x128.Idx) :
    k2_pay1 x mn vr gm bt j
      = normAct1 (x j) (mn (ix2 (0 : Fin 1) (j 1))) (vr (ix2 (0 : Fin 1) (j 1))) (gm (ix2 (0 : Fin 1) (j 1))) (bt (ix2 (0 : Fin 1) (j 1))) := by
  obtain ⟨p, q, rfl⟩ : ∃ p q, j = ix2 p q := ⟨j 0, j 1, eq_ix2 j⟩
  exact pay2_entry x mn vr gm bt p q

/-- The printed index maps, decided over the grid: the input's row blocks move with the output's, the four row
    vectors stay whole, the output's block row is the point. -/
theorem idx_facts2 : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val
    ∧ win2_5.index t (1 : Fin 2) = 0 :=
  (by decide +kernel : ∀ t : Fin grid2.N, _)

set_option maxHeartbeats 1600000 in
/-- What point `t` writes back is block `t` of `normAct` of the five input arrays as the region finds them. -/
theorem flushed2_eq (c : Dev nD) (t : Fin cfg2.N) :
    (dat2 V c).flushed 5 t = ((cfg2.win 5).blk t).view.read (Elt Ideal)
      (normAct (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets_ap]
  simp only [View.ld_unit_zero (S := S5000x128) zero_offsets_ap, View.ld_unit_zero (S := S1x128) zero_offsets_ap]
  obtain ⟨e0, e1, e2, e3, e4, e5, e6, e7, e8, e9, e10, e11⟩ := idx_facts2 t
  funext j
  show k2_pay1 (iblk2 V c 0 t) (iblk2 V c 1 t) (iblk2 V c 2 t) (iblk2 V c 3 t) (iblk2 V c 4 t) j
    = normAct (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb j)
  refine (pay2_at (iblk2 V c 0 t) (iblk2 V c 1 t) (iblk2 V c 2 t) (iblk2 V c 3 t) (iblk2 V c 4 t) j).trans ?_
  have h0 : ((cfg2.win 0).blk t).view.emb j = ((cfg2.win 5).blk t).view.emb j := by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  have h1 : ((cfg2.win 1).blk t).view.emb (ix2 (0 : Fin 1) (j 1)) = ix2 (0 : Fin 1) ((((cfg2.win 5).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  have h2 : ((cfg2.win 2).blk t).view.emb (ix2 (0 : Fin 1) (j 1)) = ix2 (0 : Fin 1) ((((cfg2.win 5).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  have h3 : ((cfg2.win 3).blk t).view.emb (ix2 (0 : Fin 1) (j 1)) = ix2 (0 : Fin 1) ((((cfg2.win 5).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  have h4 : ((cfg2.win 4).blk t).view.emb (ix2 (0 : Fin 1) (j 1)) = ix2 (0 : Fin 1) ((((cfg2.win 5).blk t).view.emb j) 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  exact normAct1_congr (congrArg (V c (Pipeline.arrRef spec2 0)) h0) (congrArg (V c (Pipeline.arrRef spec2 1)) h1)
    (congrArg (V c (Pipeline.arrRef spec2 2)) h2) (congrArg (V c (Pipeline.arrRef spec2 3)) h3) (congrArg (V c (Pipeline.arrRef spec2 4)) h4)

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v49).slice (win2_5.rect t)).set ↔ _
  rw [View.set_slice_whole, Rect.mem_set_unit]
  exact Iff.rfl

/-- Every index of the output array is in the block of the point that is its row divided by the block height. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e0, e1, e2, e3, e4, e5, e6, e7, e8, e9, e10, e11⟩ := idx_facts2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region: `normAct` of the five input arrays as the region finds them. -/
theorem arr2_eq (c : Dev nD) :
    (dat2 V c).arrAt 5 cfg2.N = normAct (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2_eq V c t) (cover2)

/-- Entry (r, q) of the output array after the region (`normAct_apply` spells it). -/
theorem final2 (c : Dev nD) (r : Fin 100000) (q : Fin 128) :
    (dat2 V c).arrAt 5 cfg2.N (ix2 r q)
      = normAct (V c (Pipeline.arrRef spec2 0)) (V c (Pipeline.arrRef spec2 1)) (V c (Pipeline.arrRef spec2 2))
          (V c (Pipeline.arrRef spec2 3)) (V c (Pipeline.arrRef spec2 4)) (ix2 r q) := by
  rw [arr2_eq]

/-! # Region 5: the output array is the input normalized, scaled, shifted and clamped, entry by entry -/

/-- One entry of the body's payload. -/
theorem pay5_entry (x : Vec Ideal S5000x128 .f32) (mn vr gm bt : Vec Ideal S1x128 .f32) (p : Fin 5000) (q : Fin 128) :
    k5_pay1 x mn vr gm bt (ix2 p q)
      = normAct1 (x (ix2 p q)) (mn (ix2 (0 : Fin 1) q)) (vr (ix2 (0 : Fin 1) q)) (gm (ix2 (0 : Fin 1) q)) (bt (ix2 (0 : Fin 1) q)) := by
  unfold k5_pay1
  simp only [shapeCast_self]
  rw [maximumf_apply, addf_apply, mulf_apply, mulf_apply, subf_apply, row_bcast, row_bcast, row_bcast, row_bcast]
  rfl

theorem pay5_at (x : Vec Ideal S5000x128 .f32) (mn vr gm bt : Vec Ideal S1x128 .f32) (j : S5000x128.Idx) :
    k5_pay1 x mn vr gm bt j
      = normAct1 (x j) (mn (ix2 (0 : Fin 1) (j 1))) (vr (ix2 (0 : Fin 1) (j 1))) (gm (ix2 (0 : Fin 1) (j 1))) (bt (ix2 (0 : Fin 1) (j 1))) := by
  obtain ⟨p, q, rfl⟩ : ∃ p q, j = ix2 p q := ⟨j 0, j 1, eq_ix2 j⟩
  exact pay5_entry x mn vr gm bt p q

/-- The printed index maps, decided over the grid: the input's row blocks move with the output's, the four row
    vectors stay whole, the output's block row is the point. -/
theorem idx_facts5 : ∀ t : Fin cfg5.N, win5_0.index t (0 : Fin 2) = win5_5.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val
    ∧ win5_5.index t (1 : Fin 2) = 0 :=
  (by decide +kernel : ∀ t : Fin grid5.N, _)

set_option maxHeartbeats 1600000 in
/-- What point `t` writes back is block `t` of `normAct` of the five input arrays as the region finds them. -/
theorem flushed5_eq (c : Dev nD) (t : Fin cfg5.N) :
    (dat5 V c).flushed 5 t = ((cfg5.win 5).blk t).view.read (Elt Ideal)
      (normAct (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets_ap]
  simp only [View.ld_unit_zero (S := S5000x128) zero_offsets_ap, View.ld_unit_zero (S := S1x128) zero_offsets_ap]
  obtain ⟨e0, e1, e2, e3, e4, e5, e6, e7, e8, e9, e10, e11⟩ := idx_facts5 t
  funext j
  show k5_pay1 (iblk5 V c 0 t) (iblk5 V c 1 t) (iblk5 V c 2 t) (iblk5 V c 3 t) (iblk5 V c 4 t) j
    = normAct (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb j)
  refine (pay5_at (iblk5 V c 0 t) (iblk5 V c 1 t) (iblk5 V c 2 t) (iblk5 V c 3 t) (iblk5 V c 4 t) j).trans ?_
  have h0 : ((cfg5.win 0).blk t).view.emb j = ((cfg5.win 5).blk t).view.emb j := by
    funext a; apply Fin.ext
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  have h1 : ((cfg5.win 1).blk t).view.emb (ix2 (0 : Fin 1) (j 1)) = ix2 (0 : Fin 1) ((((cfg5.win 5).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : ((cfg5.win 2).blk t).view.emb (ix2 (0 : Fin 1) (j 1)) = ix2 (0 : Fin 1) ((((cfg5.win 5).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : ((cfg5.win 3).blk t).view.emb (ix2 (0 : Fin 1) (j 1)) = ix2 (0 : Fin 1) ((((cfg5.win 5).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : ((cfg5.win 4).blk t).view.emb (ix2 (0 : Fin 1) (j 1)) = ix2 (0 : Fin 1) ((((cfg5.win 5).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  exact normAct1_congr (congrArg (V c (Pipeline.arrRef spec5 0)) h0) (congrArg (V c (Pipeline.arrRef spec5 1)) h1)
    (congrArg (V c (Pipeline.arrRef spec5 2)) h2) (congrArg (V c (Pipeline.arrRef spec5 3)) h3) (congrArg (V c (Pipeline.arrRef spec5 4)) h4)

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v70).slice (win5_5.rect t)).set ↔ _
  rw [View.set_slice_whole, Rect.mem_set_unit]
  exact Iff.rfl

/-- Every index of the output array is in the block of the point that is its row divided by the block height. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have ht : t.val = (i 0).val / 5000 := rfl
  obtain ⟨e0, e1, e2, e3, e4, e5, e6, e7, e8, e9, e10, e11⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the region: `normAct` of the five input arrays as the region finds them. -/
theorem arr5_eq (c : Dev nD) :
    (dat5 V c).arrAt 5 cfg5.N = normAct (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed5_eq V c t) (cover5)

/-- Entry (r, q) of the output array after the region (`normAct_apply` spells it). -/
theorem final5 (c : Dev nD) (r : Fin 100000) (q : Fin 128) :
    (dat5 V c).arrAt 5 cfg5.N (ix2 r q)
      = normAct (V c (Pipeline.arrRef spec5 0)) (V c (Pipeline.arrRef spec5 1)) (V c (Pipeline.arrRef spec5 2))
          (V c (Pipeline.arrRef spec5 3)) (V c (Pipeline.arrRef spec5 4)) (ix2 r q) := by
  rw [arr5_eq]

end Cert.KernelIdeal.Hand

end
-- ==== Proof.BridgeFinal.lean ====
/-
  The two results of the program at the end of its run are the network's hidden features and output of the launch
  arguments: the regions' results, as proved region by region, discharge what the walk along the boundaries assumed.
-/
import proofs.«142432_j2886218022958_1_alg».proof.Proof.Bridge
import proofs.«142432_j2886218022958_1_alg».proof.Proof.ValMm
import proofs.«142432_j2886218022958_1_alg».proof.Proof.ValSt
import proofs.«142432_j2886218022958_1_alg».proof.Proof.ValAp

set_option maxRecDepth 16384

noncomputable section

namespace Cert.KernelIdeal.Hand

open Cert.KernelIdeal Cert.KernelIdeal.Gen
open Idealize.ShloMosaic Idealize.ShloMosaic.TcCoe Idealize.ShloMosaic.ValueIdx

/-- What the seven regions leave in their output arrays. -/
theorem regionVals : RegionVals where
  mm0 := fun V c => arr0_eq V c
  mm3 := fun V c => arr3_eq V c
  mm6 := fun V c => arr6_eq V c
  mean1 := fun V c => mean1_eq V c
  var1 := fun V c => var1_eq V c
  mean4 := fun V c => mean4_eq V c
  var4 := fun V c => var4_eq V c
  act2 := fun V c => arr2_eq V c
  act5 := fun V c => arr5_eq V c

variable [Cert.Pre_finite_inputs.Facts] (m : (ℓ : Loc nD τ sig) → Buf (Elt Ideal) ℓ) (ρ : Dev nD → PrngReg) (c : Dev nD)
  (hpre : Cert.Pre_KernelIdeal m)
include hpre

/-- At the end of the run the first result buffer holds the hidden features of the launch arguments. -/
theorem hidden_at_end : W13 m ρ c (Proc.devRef .tc main_v70)
    = Cert.Layers.hidden (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg11)) :=
  hidden_value m ρ c regionVals hpre

/-- At the end of the run the second result buffer holds the output of the launch arguments. -/
theorem output_at_end : W13 m ρ c (Proc.devRef .tc main_v87)
    = Cert.Layers.output (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) :=
  output_value m ρ c regionVals hpre

end Cert.KernelIdeal.Hand

end
-- ==== Proof.Algebraic.lean ====
/-
  The algebraic conjunct: at the ideal instance both programs, run from memories agreeing on the twelve arguments,
  end with the same two results.  Both results are the network's layers composed (two normalised graph-convolution
  layers, then a third convolution): the reference's run is that composition term for term, and the kernel's run
  reaches it stage by stage — each matrix-product region is the whole product, each aggregation stretch the same
  host operations, and each statistics-and-apply pair the batch normalisation, where the kernel's variance
  E[h²] − (E[h])² meets the reference's E[(h − E[h])²] because finite inputs keep every feature a real number.
-/
import proofs.«142432_j2886218022958_1_alg».proof.Proof.Frames
import proofs.«142432_j2886218022958_1_alg».proof.Proof.RefG
import proofs.«142432_j2886218022958_1_alg».proof.Proof.BridgeFinal

set_option maxRecDepth 16384

noncomputable section

namespace Cert.Proof.Algebraic

open Idealize.ShloMosaic Idealize.SL.Sem

theorem algebraic : Cert.algebraic_KernelIdeal_ReferenceIdeal := by
  intro m ρ m' ρ' hpre hagree
  refine ⟨fun c => Cert.Layers.hidden (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg11)),
      fun c => Cert.Layers.output (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.hidden_at_end m ρ c hpre),
        (h c).2.1.trans (Cert.KernelIdeal.Hand.output_at_end m ρ c hpre), (h c).2.2⟩)
      (Cert.KernelIdeal.Hand.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [Cert.ReferenceIdeal.RefValue.hidden_eq, h0, h1, h2, h3, h4, h5, h6, h7, h8, h11]
    · obtain ⟨h0, h1, h2, h3, h4, h5, h6, h7, h8, h9, h10, h11⟩ := hagree c
      rw [Cert.ReferenceIdeal.RefValue.output_eq, h0, h1, h2, h3, h4, h5, h6, h7, h8, h9, h10, h11]

end Cert.Proof.Algebraic

end
-- ==== Proof.lean ====
/-
  The certificate: the facts the programs state, the three frames, the (trivial) idealization conjunct and the
  algebraic conjunct, assembled.
-/
import proofs.«142432_j2886218022958_1_alg».proof.Defs
import proofs.«142432_j2886218022958_1_alg».proof.Proof.Gen.Kernel
import proofs.«142432_j2886218022958_1_alg».proof.Proof.Gen.KernelIdeal
import proofs.«142432_j2886218022958_1_alg».proof.Proof.Gen.ReferenceIdeal
import proofs.«142432_j2886218022958_1_alg».proof.Proof.Gen.Pre_finite_inputs
import proofs.«142432_j2886218022958_1_alg».proof.Proof.Frames
import proofs.«142432_j2886218022958_1_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    Cert.Proof.Algebraic.algebraic⟩

end Cert.Proof

end
